-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part4 {F : FTy → Type} [FloatOps F] (main_arg17 : FVec F S384 .f32) (main_arg18 : FVec F S384x128 .f32) (main_arg19 : FVec F S384 .f32) (main_v63 : IVec S_ 1) (main_v67 : IVec S_ 1) : IVec S_ 1 :=
  let main_v68 : IVec S_ 1 := andi main_v63 main_v67
  let main_v69 : FVec F S384 .f32 := Host.absf main_arg17
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S384x128 .f32 := Host.absf main_arg18
  let main_cst_28 : FVec F S_ .f32 := constant S_ .f32 0x7F800000#32
  let main_v75 : FVec F S384x128 .f32 := broadcastInDim S384x128 ![] bcast_S_S384x128 main_cst_28
  let main_v76 : IVec S384x128 1 := cmpf .olt main_v74 main_v75
  let main_c_29 : IVec S_ 1 := constantI S_ 1 1#1
  let main_v77 : IVec S_ 1 := (fun x v => Host.reduce IntOp.andi x v reducesTo_S384x128_S_d0_1 h_S_) main_v76 main_c_29
  let main_v78 : IVec S_ 1 := andi main_v73 main_v77
  let main_v79 : FVec F S384 .f32 := Host.absf main_arg19
  let main_cst_30 : FVec F S_ .f32 := constant S_ .f32 0x7F800000#32
  let main_v80 : FVec F S384 .f32 := broadcastInDim S384 ![] bcast_S_S384 main_cst_30
  let main_v81 : IVec S384 1 := cmpf .olt main_v79 main_v80
  let main_c_31 : IVec S_ 1 := constantI S_ 1 1#1
  let main_v82 : IVec S_ 1 := (fun x v => Host.reduce IntOp.andi x v reducesTo_S384_S_d0 h_S_) main_v81 main_c_31
  let main_v83 : IVec S_ 1 := andi main_v78 main_v82
  main_v83

def fn_part3 {F : FTy → Type} [FloatOps F] (main_arg14 : FVec F S128x128 .f32) (main_arg15 : FVec F S128 .f32) (main_arg16 : FVec F S384x128 .f32) (main_arg17 : FVec F S384 .f32) (main_arg18 : FVec F S384x128 .f32) (main_arg19 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x128 .f32 := Host.absf main_arg16
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg17 main_arg18 main_arg19 main_v63 main_v67

def fn_part2 {F : FTy → Type} [FloatOps F] (main_arg10 : FVec F S384x128 .f32) (main_arg11 : FVec F S384 .f32) (main_arg12 : FVec F S384x128 .f32) (main_arg13 : FVec F S384 .f32) (main_arg14 : FVec F S128x128 .f32) (main_arg15 : FVec F S128 .f32) (main_arg16 : FVec F S384x128 .f32) (main_arg17 : FVec F S384 .f32) (main_arg18 : FVec F S384x128 .f32) (main_arg19 : FVec F S384 .f32) (main_v33 : IVec S_ 1) : IVec S_ 1 :=
  let main_v34 : FVec F S384x128 .f32 := Host.absf main_arg10
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg11
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384x128 .f32 := Host.absf main_arg12
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg13
  let main_cst_18 : FVec F S_ .f32 := constant S_ .f32 0x7F800000#32
  let main_v50 : FVec F S384 .f32 := broadcastInDim S384 ![] bcast_S_S384 main_cst_18
  fn_part3 (F := F) main_arg14 main_arg15 main_arg16 main_arg17 main_arg18 main_arg19 main_v48 main_v49 main_v50

def fn_part1 {F : FTy → Type} [FloatOps F] (main_arg7 : FVec F S40 .f32) (main_arg8 : FVec F S128x128 .f32) (main_arg9 : FVec F S128 .f32) (main_arg10 : FVec F S384x128 .f32) (main_arg11 : FVec F S384 .f32) (main_arg12 : FVec F S384x128 .f32) (main_arg13 : FVec F S384 .f32) (main_arg14 : FVec F S128x128 .f32) (main_arg15 : FVec F S128 .f32) (main_arg16 : FVec F S384x128 .f32) (main_arg17 : FVec F S384 .f32) (main_arg18 : FVec F S384x128 .f32) (main_arg19 : FVec F S384 .f32) (main_v13 : IVec S_ 1) (main_v16 : IVec S40x128 1) : IVec S_ 1 :=
  let main_c_5 : IVec S_ 1 := constantI S_ 1 1#1
  let main_v17 : IVec S_ 1 := (fun x v => Host.reduce IntOp.andi x v reducesTo_S40x128_S_d0_1 h_S_) main_v16 main_c_5
  let main_v18 : IVec S_ 1 := andi main_v13 main_v17
  let main_v19 : FVec F S40 .f32 := Host.absf main_arg7
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S100000x128 .f32) (main_arg1 : IVec S1600000 32) (main_arg2 : IVec S1600000 32) (main_arg3 : IVec S1600000 32) (main_arg4 : FVec F S128x128 .f32) (main_arg5 : FVec F S128 .f32) (main_arg6 : FVec F S40x128 .f32) (main_arg7 : FVec F S40 .f32) (main_arg8 : FVec F S128x128 .f32) (main_arg9 : FVec F S128 .f32) (main_arg10 : FVec F S384x128 .f32) (main_arg11 : FVec F S384 .f32) (main_arg12 : FVec F S384x128 .f32) (main_arg13 : FVec F S384 .f32) (main_arg14 : FVec F S128x128 .f32) (main_arg15 : FVec F S128 .f32) (main_arg16 : FVec F S384x128 .f32) (main_arg17 : FVec F S384 .f32) (main_arg18 : FVec F S384x128 .f32) (main_arg19 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S40x128 .f32 := Host.absf main_arg6
  let main_cst_4 : FVec F S_ .f32 := constant S_ .f32 0x7F800000#32
  let main_v15 : FVec F S40x128 .f32 := broadcastInDim S40x128 ![] bcast_S_S40x128 main_cst_4
  let main_v16 : IVec S40x128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S384x128 : Shape := ⟨2, ![384, 128]⟩
abbrev S384 : Shape := ⟨1, ![384]⟩
abbrev S1x128 : Shape := ⟨2, ![1, 128]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S1x384 : Shape := ⟨2, ![1, 384]⟩
abbrev S128x384 : Shape := ⟨2, ![128, 384]⟩
abbrev S2000x384 : Shape := ⟨2, ![2000, 384]⟩
abbrev S1x40 : Shape := ⟨2, ![1, 40]⟩
abbrev S100000x40 : Shape := ⟨2, ![100000, 40]⟩
abbrev S2000x40 : Shape := ⟨2, ![2000, 40]⟩
abbrev S128x40 : Shape := ⟨2, ![128, 40]⟩
abbrev S2000 : Shape := ⟨1, ![2000]⟩
abbrev S2000x1 : Shape := ⟨2, ![2000, 1]⟩

abbrev nBuf : Space → Nat
  | .hbm => 60
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S40x128, .f32⟩
  | .hbm, ⟨7, _⟩ => ⟨S40, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384, .f32⟩
  | .hbm, ⟨12, _⟩ => ⟨S384x128, .f32⟩
  | .hbm, ⟨13, _⟩ => ⟨S384, .f32⟩
  | .hbm, ⟨14, _⟩ => ⟨S128x128, .f32⟩
  | .hbm, ⟨15, _⟩ => ⟨S128, .f32⟩
  | .hbm, ⟨16, _⟩ => ⟨S384x128, .f32⟩
  | .hbm, ⟨17, _⟩ => ⟨S384, .f32⟩
  | .hbm, ⟨18, _⟩ => ⟨S384x128, .f32⟩
  | .hbm, ⟨19, _⟩ => ⟨S384, .f32⟩
  | .hbm, ⟨20, _⟩ => ⟨S1x128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x384, .f32⟩
  | .hbm, ⟨38, _⟩ => ⟨S1x384, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x384, .f32⟩
  | .hbm, ⟨56, _⟩ => ⟨S1x384, .f32⟩
  | .hbm, ⟨57, _⟩ => ⟨S100000x128, .f32⟩
  | .hbm, ⟨58, _⟩ => ⟨S1x40, .f32⟩
  | .hbm, ⟨59, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S384x128, .f32⟩
  | .local _ .vmem, ⟨17, _⟩ => ⟨S1x384, .f32⟩
  | .local _ .vmem, ⟨18, _⟩ => ⟨S384x128, .f32⟩
  | .local _ .vmem, ⟨19, _⟩ => ⟨S1x384, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S384x128, .f32⟩
  | .local _ .vmem, ⟨33, _⟩ => ⟨S1x384, .f32⟩
  | .local _ .vmem, ⟨34, _⟩ => ⟨S384x128, .f32⟩
  | .local _ .vmem, ⟨35, _⟩ => ⟨S1x384, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S40x128, .f32⟩
  | .local _ .vmem, ⟨41, _⟩ => ⟨S1x40, .f32⟩
  | .local _ .vmem, ⟨42, _⟩ => ⟨S2000x40, .f32⟩
  | .local _ .vmem, ⟨43, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S384x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S384x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S384_S1x384 : S384.ShapeCasts S1x384
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  shapeCasts_S40_S1x40 : S40.ShapeCasts S1x40
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x384_S2000x384_1_0_0_1_n_n_wf : DotDims.WF S2000x128 S128x384 S2000x384 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384x128.size a ≤ S384x128.size a
  hwx2_2 : ∀ i : grid2.Coords, EltTy.bits .f32 = 32 ∨ (Rect.block (s := S384x128) S384x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x384.size a ≤ S1x384.size a
  hwx2_3 : ∀ i : grid2.Coords, EltTy.bits .f32 = 32 ∨ (Rect.block (s := S1x384) S1x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S384x128.size a ≤ S384x128.size a
  hwx2_4 : ∀ i : grid2.Coords, EltTy.bits .f32 = 32 ∨ (Rect.block (s := S384x128) S384x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S384x128.size a ≤ S384x128.size a
  hwx4_2 : ∀ i : grid4.Coords, EltTy.bits .f32 = 32 ∨ (Rect.block (s := S384x128) S384x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x384.size a ≤ S1x384.size a
  hwx4_3 : ∀ i : grid4.Coords, EltTy.bits .f32 = 32 ∨ (Rect.block (s := S1x384) S1x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S384x128.size a ≤ S384x128.size a
  hwx4_4 : ∀ i : grid4.Coords, EltTy.bits .f32 = 32 ∨ (Rect.block (s := S384x128) S384x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40x128.size a ≤ S40x128.size a
  hwx5_1 : ∀ i : grid5.Coords, EltTy.bits .f32 = 32 ∨ (Rect.block (s := S40x128) S40x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x40.size a ≤ S100000x40.size a
  hwx5_3 : ∀ i : grid5.Coords, EltTy.bits .f32 = 32 ∨ (Rect.block (s := S100000x40) S2000x40.size (cc5_transform_3 i) (hinb5_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S384x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S384x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v16) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v28) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S384x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S1x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S384x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v30) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v31) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v31) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S40x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v33) S2000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S384x128 : Shape := ⟨2, ![384, 128]⟩
abbrev S384 : Shape := ⟨1, ![384]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S128x40 : Shape := ⟨2, ![128, 40]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 197
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .i32⟩
  | 4 => ⟨S128x128, .f32⟩
  | 5 => ⟨S128, .f32⟩
  | 6 => ⟨S40x128, .f32⟩
  | 7 => ⟨S40, .f32⟩
  | 8 => ⟨S128x128, .f32⟩
  | 9 => ⟨S128, .f32⟩
  | 10 => ⟨S384x128, .f32⟩
  | 11 => ⟨S384, .f32⟩
  | 12 => ⟨S384x128, .f32⟩
  | 13 => ⟨S384, .f32⟩
  | 14 => ⟨S128x128, .f32⟩
  | 15 => ⟨S128, .f32⟩
  | 16 => ⟨S384x128, .f32⟩
  | 17 => ⟨S384, .f32⟩
  | 18 => ⟨S384x128, .f32⟩
  | 19 => ⟨S384, .f32⟩
  | 20 => ⟨S128x128, .f32⟩
  | 21 => ⟨S100000x128, .f32⟩
  | 22 => ⟨S1x128, .f32⟩
  | 23 => ⟨S100000x128, .f32⟩
  | 24 => ⟨S100000x128, .f32⟩
  | 25 => ⟨S128x128, .f32⟩
  | 26 => ⟨S100000x128, .f32⟩
  | 27 => ⟨S1x128, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S128x384, .f32⟩
  | 44 => ⟨S100000x384, .f32⟩
  | 45 => ⟨S1x384, .f32⟩
  | 46 => ⟨S100000x384, .f32⟩
  | 47 => ⟨S100000x384, .f32⟩
  | 48 => ⟨S128x384, .f32⟩
  | 49 => ⟨S100000x384, .f32⟩
  | 50 => ⟨S1x384, .f32⟩
  | 51 => ⟨S100000x384, .f32⟩
  | 52 => ⟨S100000x384, .f32⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .i1⟩
  | 89 => ⟨S_, .f32⟩
  | 90 => ⟨S100000x128, .f32⟩
  | 91 => ⟨S100000x128, .i1⟩
  | 92 => ⟨S_, .f32⟩
  | 93 => ⟨S_, .f32⟩
  | 94 => ⟨S100000x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S128x128, .f32⟩
  | 102 => ⟨S100000x128, .f32⟩
  | 103 => ⟨S1x128, .f32⟩
  | 104 => ⟨S100000x128, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S128x384, .f32⟩
  | 120 => ⟨S100000x384, .f32⟩
  | 121 => ⟨S1x384, .f32⟩
  | 122 => ⟨S100000x384, .f32⟩
  | 123 => ⟨S100000x384, .f32⟩
  | 124 => ⟨S128x384, .f32⟩
  | 125 => ⟨S100000x384, .f32⟩
  | 126 => ⟨S1x384, .f32⟩
  | 127 => ⟨S100000x384, .f32⟩
  | _ => ⟨S100000x128, .f32⟩

abbrev hbmTy0_1 (i : Nat) : BufTy := match i % 128 with
  | 0 => ⟨S100000x384, .f32⟩
  | 1 => ⟨S100000x128, .f32⟩
  | 2 => ⟨S100000x128, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .i1⟩
  | 37 => ⟨S_, .f32⟩
  | 38 => ⟨S100000x128, .f32⟩
  | 39 => ⟨S100000x128, .i1⟩
  | 40 => ⟨S_, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S128x40, .f32⟩
  | 50 => ⟨S100000x40, .f32⟩
  | 51 => ⟨S1x40, .f32⟩
  | 52 => ⟨S100000x40, .f32⟩
  | 53 => ⟨S100000x40, .f32⟩
  | 54 => ⟨S_, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x40, .f32⟩
  | 61 => ⟨S100000x40, .f32⟩
  | 62 => ⟨S100000x40, .f32⟩
  | 63 => ⟨S_, .f32⟩
  | 64 => ⟨S100000, .f32⟩
  | 65 => ⟨S100000x1, .f32⟩
  | 66 => ⟨S100000x1, .f32⟩
  | 67 => ⟨S100000x40, .f32⟩
  | 68 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_cst_1 : Ref sig .tc := ⟨.hbm, 92, rfl⟩
abbrev main_call0_call0_v0 : Ref sig .tc := ⟨.hbm, 93, rfl⟩
abbrev main_call0_call0_v1 : Ref sig .tc := ⟨.hbm, 94, rfl⟩
abbrev main_call0_v4 : Ref sig .tc := ⟨.hbm, 95, rfl⟩
abbrev main_call0_v5 : Ref sig .tc := ⟨.hbm, 96, rfl⟩
abbrev main_call0_cst_2 : Ref sig .tc := ⟨.hbm, 97, rfl⟩
abbrev main_call0_v6 : Ref sig .tc := ⟨.hbm, 98, rfl⟩
abbrev main_call0_v7 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_6 : Ref sig .tc := ⟨.hbm, 106, rfl⟩
abbrev main_v64 : Ref sig .tc := ⟨.hbm, 107, rfl⟩
abbrev main_v65 : Ref sig .tc := ⟨.hbm, 108, rfl⟩
abbrev main_c_7 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_8 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_9 : Ref sig .tc := ⟨.hbm, 138, rfl⟩
abbrev main_v93 : Ref sig .tc := ⟨.hbm, 139, rfl⟩
abbrev main_v94 : Ref sig .tc := ⟨.hbm, 140, rfl⟩
abbrev main_cst_10 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_11 : Ref sig .tc := ⟨.hbm, 147, rfl⟩
abbrev main_v100 : Ref sig .tc := ⟨.hbm, 148, rfl⟩
abbrev main_v101 : Ref sig .tc := ⟨.hbm, 149, rfl⟩
abbrev main_cst_12 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_13 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_call1_cst : Ref sig .tc := ⟨.hbm, 162, rfl⟩
abbrev main_call1_v0 : Ref sig .tc := ⟨.hbm, 163, rfl⟩
abbrev main_call1_v1 : Ref sig .tc := ⟨.hbm, 164, rfl⟩
abbrev main_call1_cst_0 : Ref sig .tc := ⟨.hbm, 165, rfl⟩
abbrev main_call1_v2 : Ref sig .tc := ⟨.hbm, 166, rfl⟩
abbrev main_call1_v3 : Ref sig .tc := ⟨.hbm, 167, rfl⟩
abbrev main_call1_cst_1 : Ref sig .tc := ⟨.hbm, 168, rfl⟩
abbrev main_call1_call0_v0 : Ref sig .tc := ⟨.hbm, 169, rfl⟩
abbrev main_call1_call0_v1 : Ref sig .tc := ⟨.hbm, 170, rfl⟩
abbrev main_call1_v4 : Ref sig .tc := ⟨.hbm, 171, rfl⟩
abbrev main_call1_v5 : Ref sig .tc := ⟨.hbm, 172, rfl⟩
abbrev main_call1_cst_2 : Ref sig .tc := ⟨.hbm, 173, rfl⟩
abbrev main_call1_v6 : Ref sig .tc := ⟨.hbm, 174, rfl⟩
abbrev main_call1_v7 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_call2_cst : Ref sig .tc := ⟨.hbm, 182, rfl⟩
abbrev main_call2_v0 : Ref sig .tc := ⟨.hbm, 183, rfl⟩
abbrev main_call2_cst_0 : Ref sig .tc := ⟨.hbm, 184, rfl⟩
abbrev main_call2_v1 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_cst_1 : Ref sig .tc := ⟨.hbm, 191, rfl⟩
abbrev main_call2_v7 : Ref sig .tc := ⟨.hbm, 192, rfl⟩
abbrev main_call2_v8 : Ref sig .tc := ⟨.hbm, 193, rfl⟩
abbrev main_call2_v9 : Ref sig .tc := ⟨.hbm, 194, rfl⟩
abbrev main_call2_v10 : Ref sig .tc := ⟨.hbm, 195, rfl⟩
abbrev main_v118 : Ref sig .tc := ⟨.hbm, 196, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  dot_S100000x128_S128x40_S100000x40_1_0_0_1_n_n_wf : DotDims.WF S100000x128 S128x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The run of the six-region program with every unscoped buffer's final contents named.

  @main is twelve segments — a stretch of host operations, then a region, six times over. Each segment takes the
  TensorCore's buffer contents at its entry to the contents at its exit: a host stretch by folding its operations, a
  region by replacing each of its output arrays with what its fifty grid points wrote back and leaving every other buffer
  alone. The launch theorem for such a chain of segments gives, for every weakly fair execution, termination without a
  fault in a state where every unscoped buffer holds the last boundary's contents. The frame claim reads only the
  arguments off that state; here the whole state is kept, so that the result buffer can be read too.
-/
import proofs.«141311_j58110907515590_1_alg».proof.Proof.Gen.KernelIdeal.Frame

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped TensorCore buffer at the
    contents of the last segment boundary. -/
theorem run_final : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.RegionValue

end
-- ==== Proof.Spec.lean ====
/-
  The network both programs compute, one node (row) at a time, over the extended reals.

  A dense layer takes a row x of k numbers to the d numbers (∑ q, x q · W c q) + b c: the row against each ROW of the
  weight matrix (the product with the transposed matrix), plus the bias.  A gated recurrent cell joins two such layers
  of width 3·128 — one of the aggregated messages a, one of the node's state h — through two logistic gates and a tanh:
  r = σ(gi₀ + gh₀), z = σ(gi₁ + gh₁), n = tanh(gi₂ + r · gh₂), new = (1 − z) · n + z · h, where the index j of gi / gh
  is the j-th third of the 384 outputs; the cell's output goes through elu, y where y > 0 and e^y − 1 elsewhere.  The
  read-out is a dense layer into 40 classes followed by the log-softmax of the row: with μ the row's maximum,
  (l c − μ) − log ∑ⱼ e^(l j − μ).  Every one of these is a function of ONE row of its inputs, so a tile of rows computed
  by itself is the same rows of the whole array computed at once.
-/
import Idealize.ShloMosaic.PureOps.Ideal
import Idealize.ShloMosaic.Lib.ValueIdx

noncomputable section

open scoped BigOperators

namespace Cert.GGNN

open Idealize.ShloMosaic Idealize.ShloMosaic.ValueIdx

/-- The float words the programs spell: 0.0, 1.0 and minus infinity. -/
def w0 : EReal := Ideal.ofBits .f32 0x00000000#32
def w1 : EReal := Ideal.ofBits .f32 0x3F800000#32
def wNegInf : EReal := Ideal.ofBits .f32 0xFF800000#32

/-- One output of a dense layer on a row: the row against row c of the weights, plus the bias. -/
def affine {k d : ℕ} (x : Fin k → EReal) (W : Fin d → Fin k → EReal) (b : Fin d → EReal) (c : Fin d) : EReal :=
  (∑ q : Fin k, x q * W c q) + b c

/-- elu: y on the positive side, e^y − 1 elsewhere. -/
def elu (y : EReal) : EReal := Scalar.select (Ideal.cmp .ogt y w0) y (Ideal.exp y - w1)

/-- Column c of the j-th third of a 384-wide row. -/
def third (j : Fin 3) (c : Fin 128) : Fin 384 := ⟨128 * j.val + c.val, by have := j.isLt; have := c.isLt; omega⟩

/-- The gated cell on the two 384-wide pre-activations gi (of the messages) and gh (of the state) and the state row h,
    before elu. -/
def cell (gi gh : Fin 384 → EReal) (h : Fin 128 → EReal) (c : Fin 128) : EReal :=
  (w1 - Ideal.logistic (gi (third 1 c) + gh (third 1 c)))
      * Ideal.tanh (gi (third 2 c) + Ideal.logistic (gi (third 0 c) + gh (third 0 c)) * gh (third 2 c))
    + Ideal.logistic (gi (third 1 c) + gh (third 1 c)) * h c

/-- One row of a gated layer: the cell on the two dense layers, then elu. -/
def gruRow (a h : Fin 128 → EReal) (Wih : Fin 384 → Fin 128 → EReal) (bih : Fin 384 → EReal)
    (Whh : Fin 384 → Fin 128 → EReal) (bhh : Fin 384 → EReal) (c : Fin 128) : EReal :=
  elu (cell (affine a Wih bih) (affine h Whh bhh) h c)

/-- The log-softmax of a row of 40 logits. -/
def logSoftmaxRow (l : Fin 40 → EReal) (c : Fin 40) : EReal :=
  (l c - (Finset.univ : Finset (Fin 40)).fold max wNegInf l)
    - Ideal.log (∑ j : Fin 40, Ideal.exp (l j - (Finset.univ : Finset (Fin 40)).fold max wNegInf l))

/-- Row p of an [n, k] array. -/
def row {n k : ℕ} (X : (⟨2, ![n, k]⟩ : Shape).Idx → EReal) (p : Fin n) : Fin k → EReal := fun q => X (ix2 p q)
/-- A [d, k] array as a matrix of numbers. -/
def mat {d k : ℕ} (W : (⟨2, ![d, k]⟩ : Shape).Idx → EReal) : Fin d → Fin k → EReal := fun j q => W (ix2 j q)
/-- A length-d array as a vector of numbers. -/
def vec {d : ℕ} (b : (⟨1, ![d]⟩ : Shape).Idx → EReal) : Fin d → EReal := fun j => b (ix1 j)
/-- A [1, d] array (a bias kept as one row) as a vector of numbers. -/
def vec1 {d : ℕ} (b : (⟨2, ![1, d]⟩ : Shape).Idx → EReal) : Fin d → EReal := fun j => b (ix2 0 j)

/-- An [n, d] array given row by row. -/
def ofRows {n d : ℕ} (f : Fin n → Fin d → EReal) : (⟨2, ![n, d]⟩ : Shape).Idx → EReal :=
  fun i => f ⟨(i 0).val, (i 0).isLt⟩ ⟨(i 1).val, (i 1).isLt⟩

theorem ofRows_apply {n d : ℕ} (f : Fin n → Fin d → EReal) (p : Fin n) (c : Fin d) : ofRows f (ix2 p c) = f p c := rfl

/-- A dense layer of a whole array: every row against the weights' rows, plus the bias. -/
def linA {n k d : ℕ} (X : (⟨2, ![n, k]⟩ : Shape).Idx → EReal) (W : (⟨2, ![d, k]⟩ : Shape).Idx → EReal) (b : Fin d → EReal) :
    (⟨2, ![n, d]⟩ : Shape).Idx → EReal :=
  ofRows fun p => affine (row X p) (mat W) b

/-- A gated layer of a whole array (messages A, states H). -/
def gruA {n : ℕ} (A H : (⟨2, ![n, 128]⟩ : Shape).Idx → EReal)
    (Wih : (⟨2, ![384, 128]⟩ : Shape).Idx → EReal) (bih : Fin 384 → EReal)
    (Whh : (⟨2, ![384, 128]⟩ : Shape).Idx → EReal) (bhh : Fin 384 → EReal) : (⟨2, ![n, 128]⟩ : Shape).Idx → EReal :=
  ofRows fun p => gruRow (row A p) (row H p) (mat Wih) bih (mat Whh) bhh

/-- The read-out of a whole array: a dense layer into 40 classes and the log-softmax of each row. -/
def readA {n : ℕ} (X : (⟨2, ![n, 128]⟩ : Shape).Idx → EReal) (W : (⟨2, ![40, 128]⟩ : Shape).Idx → EReal) (b : Fin 40 → EReal) :
    (⟨2, ![n, 40]⟩ : Shape).Idx → EReal :=
  ofRows fun p => logSoftmaxRow (affine (row X p) (mat W) b)

/-- The whole network, over an arbitrary message-passing map `msg` of [100000, 128] arrays (both programs gather the
    edge sources' rows and sum them into the edge targets' rows by the same host operations; nothing about that map is
    used): embedding layer, two gated layers — each an edge layer, the message pass, the recurrent cell and elu — and the
    read-out. -/
def net (msg : ((⟨2, ![100000, 128]⟩ : Shape).Idx → EReal) → ((⟨2, ![100000, 128]⟩ : Shape).Idx → EReal))
    (h : (⟨2, ![100000, 128]⟩ : Shape).Idx → EReal)
    (eW : (⟨2, ![128, 128]⟩ : Shape).Idx → EReal) (eb : Fin 128 → EReal)
    (rW : (⟨2, ![40, 128]⟩ : Shape).Idx → EReal) (rb : Fin 40 → EReal)
    (W0 : (⟨2, ![128, 128]⟩ : Shape).Idx → EReal) (b0 : Fin 128 → EReal)
    (Wih0 : (⟨2, ![384, 128]⟩ : Shape).Idx → EReal) (bih0 : Fin 384 → EReal)
    (Whh0 : (⟨2, ![384, 128]⟩ : Shape).Idx → EReal) (bhh0 : Fin 384 → EReal)
    (W1 : (⟨2, ![128, 128]⟩ : Shape).Idx → EReal) (b1 : Fin 128 → EReal)
    (Wih1 : (⟨2, ![384, 128]⟩ : Shape).Idx → EReal) (bih1 : Fin 384 → EReal)
    (Whh1 : (⟨2, ![384, 128]⟩ : Shape).Idx → EReal) (bhh1 : Fin 384 → EReal) :
    (⟨2, ![100000, 40]⟩ : Shape).Idx → EReal :=
  readA
    (gruA (msg (linA (gruA (msg (linA (linA h eW eb) W0 b0)) (linA h eW eb) Wih0 bih0 Whh0 bhh0) W1 b1))
      (gruA (msg (linA (linA h eW eb) W0 b0)) (linA h eW eb) Wih0 bih0 Whh0 bhh0) Wih1 bih1 Whh1 bhh1)
    rW rb

end Cert.GGNN

end
-- ==== Proof.KChain.lean ====
/-
  The kernel program's result, walked through its twelve segment boundaries.

  @main alternates stretches of host operations with six regions. A host stretch changes only the buffers its operations
  write; a region changes only its output array. So an argument holds its launch contents at every boundary, a bias
  reshaped by the host to one row reads as the bias, the host's message pass between two regions is one fixed map of the
  edge layer's output, and each region's output — given as the layer's function of the arrays the region is entered with —
  becomes, boundary by boundary, the network's value at that stage: the embedded states, the first layer's edge
  projection, the states after the first gated layer, the second edge projection, the states after the second gated layer,
  and their read-out in the result buffer.
-/
import proofs.«141311_j58110907515590_1_alg».proof.Proof.Gen.KernelIdeal.Frame
import proofs.«141311_j58110907515590_1_alg».proof.Proof.Spec
import Idealize.ShloMosaic.Lib.ValueLayout
import Idealize.ShloMosaic.Lib.StableHlo.Run

set_option maxRecDepth 16384

noncomputable section

namespace Cert.KernelIdeal.RegionValue

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable (m : (ℓ : Loc nD τ sig) → Buf (Elt Ideal) ℓ) (ρ : Dev nD → PrngReg)

/-- A buffer no operation of a host stretch writes keeps its contents through the stretch. -/
macro "host_keep" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments, as each region finds them: no host operation writes an argument and a region leaves alone every
    buffer that is not one of its arrays, so at every boundary an argument holds its launch contents -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep hostOps0
    _ = m ((c : Thread nD τ).loc main_arg0) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keep hostOps0
    _ = m ((c : Thread nD τ).loc main_arg4) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0
    _ = m ((c : Thread nD τ).loc main_arg8) := rfl
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_keep hostOps0
    _ = m ((c : Thread nD τ).loc main_arg9) := rfl
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := by host_keep hostOps2
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0
    _ = m ((c : Thread nD τ).loc main_arg10) := rfl
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := by host_keep hostOps2
    _ = W3 m ρ c (Proc.devRef .tc main_arg12) := W4_of_ne m ρ c main_arg12 (by decide)
    _ = W2 m ρ c (Proc.devRef .tc main_arg12) := by host_keep hostOps1
    _ = W1 m ρ c (Proc.devRef .tc main_arg12) := W2_of_ne m ρ c main_arg12 (by decide)
    _ = W0 m ρ c (Proc.devRef .tc main_arg12) := by host_keep hostOps0
    _ = m ((c : Thread nD τ).loc main_arg12) := rfl
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keep hostOps1
    _ = W1 m ρ c (Proc.devRef .tc main_arg1) := W2_of_ne m ρ c main_arg1 (by decide)
    _ = W0 m ρ c (Proc.devRef .tc main_arg1) := by host_keep hostOps0
    _ = m ((c : Thread nD τ).loc main_arg1) := rfl
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keep hostOps1
    _ = W1 m ρ c (Proc.devRef .tc main_arg2) := W2_of_ne m ρ c main_arg2 (by decide)
    _ = W0 m ρ c (Proc.devRef .tc main_arg2) := by host_keep hostOps0
    _ = m ((c : Thread nD τ).loc main_arg2) := rfl
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by host_keep hostOps1
    _ = W1 m ρ c (Proc.devRef .tc main_arg11) := W2_of_ne m ρ c main_arg11 (by decide)
    _ = W0 m ρ c (Proc.devRef .tc main_arg11) := by host_keep hostOps0
    _ = m ((c : Thread nD τ).loc main_arg11) := rfl
theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by host_keep hostOps1
    _ = W1 m ρ c (Proc.devRef .tc main_arg13) := W2_of_ne m ρ c main_arg13 (by decide)
    _ = W0 m ρ c (Proc.devRef .tc main_arg13) := by host_keep hostOps0
    _ = m ((c : Thread nD τ).loc main_arg13) := rfl
theorem W7_arg14 (c : Dev nD) : W7 m ρ c (Proc.devRef .tc main_arg14) = m ((c : Thread nD τ).loc main_arg14) :=
  calc W7 m ρ c (Proc.devRef .tc main_arg14)
    _ = W6 m ρ c (Proc.devRef .tc main_arg14) := by host_keep hostOps3
    _ = W5 m ρ c (Proc.devRef .tc main_arg14) := W6_of_ne m ρ c main_arg14 (by decide)
    _ = W4 m ρ c (Proc.devRef .tc main_arg14) := by host_keep hostOps2
    _ = W3 m ρ c (Proc.devRef .tc main_arg14) := W4_of_ne m ρ c main_arg14 (by decide)
    _ = W2 m ρ c (Proc.devRef .tc main_arg14) := by host_keep hostOps1
    _ = W1 m ρ c (Proc.devRef .tc main_arg14) := W2_of_ne m ρ c main_arg14 (by decide)
    _ = W0 m ρ c (Proc.devRef .tc main_arg14) := by host_keep hostOps0
    _ = m ((c : Thread nD τ).loc main_arg14) := rfl
theorem W6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by host_keep hostOps2
    _ = W3 m ρ c (Proc.devRef .tc main_arg15) := W4_of_ne m ρ c main_arg15 (by decide)
    _ = W2 m ρ c (Proc.devRef .tc main_arg15) := by host_keep hostOps1
    _ = W1 m ρ c (Proc.devRef .tc main_arg15) := W2_of_ne m ρ c main_arg15 (by decide)
    _ = W0 m ρ c (Proc.devRef .tc main_arg15) := by host_keep hostOps0
    _ = m ((c : Thread nD τ).loc main_arg15) := rfl
theorem W9_arg16 (c : Dev nD) : W9 m ρ c (Proc.devRef .tc main_arg16) = m ((c : Thread nD τ).loc main_arg16) :=
  calc W9 m ρ c (Proc.devRef .tc main_arg16)
    _ = W8 m ρ c (Proc.devRef .tc main_arg16) := by host_keep hostOps4
    _ = W7 m ρ c (Proc.devRef .tc main_arg16) := W8_of_ne m ρ c main_arg16 (by decide)
    _ = W6 m ρ c (Proc.devRef .tc main_arg16) := by host_keep hostOps3
    _ = W5 m ρ c (Proc.devRef .tc main_arg16) := W6_of_ne m ρ c main_arg16 (by decide)
    _ = W4 m ρ c (Proc.devRef .tc main_arg16) := by host_keep hostOps2
    _ = W3 m ρ c (Proc.devRef .tc main_arg16) := W4_of_ne m ρ c main_arg16 (by decide)
    _ = W2 m ρ c (Proc.devRef .tc main_arg16) := by host_keep hostOps1
    _ = W1 m ρ c (Proc.devRef .tc main_arg16) := W2_of_ne m ρ c main_arg16 (by decide)
    _ = W0 m ρ c (Proc.devRef .tc main_arg16) := by host_keep hostOps0
    _ = m ((c : Thread nD τ).loc main_arg16) := rfl
theorem W9_arg18 (c : Dev nD) : W9 m ρ c (Proc.devRef .tc main_arg18) = m ((c : Thread nD τ).loc main_arg18) :=
  calc W9 m ρ c (Proc.devRef .tc main_arg18)
    _ = W8 m ρ c (Proc.devRef .tc main_arg18) := by host_keep hostOps4
    _ = W7 m ρ c (Proc.devRef .tc main_arg18) := W8_of_ne m ρ c main_arg18 (by decide)
    _ = W6 m ρ c (Proc.devRef .tc main_arg18) := by host_keep hostOps3
    _ = W5 m ρ c (Proc.devRef .tc main_arg18) := W6_of_ne m ρ c main_arg18 (by decide)
    _ = W4 m ρ c (Proc.devRef .tc main_arg18) := by host_keep hostOps2
    _ = W3 m ρ c (Proc.devRef .tc main_arg18) := W4_of_ne m ρ c main_arg18 (by decide)
    _ = W2 m ρ c (Proc.devRef .tc main_arg18) := by host_keep hostOps1
    _ = W1 m ρ c (Proc.devRef .tc main_arg18) := W2_of_ne m ρ c main_arg18 (by decide)
    _ = W0 m ρ c (Proc.devRef .tc main_arg18) := by host_keep hostOps0
    _ = m ((c : Thread nD τ).loc main_arg18) := rfl
theorem W8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by host_keep hostOps3
    _ = W5 m ρ c (Proc.devRef .tc main_arg1) := W6_of_ne m ρ c main_arg1 (by decide)
    _ = W4 m ρ c (Proc.devRef .tc main_arg1) := by host_keep hostOps2
    _ = W3 m ρ c (Proc.devRef .tc main_arg1) := W4_of_ne m ρ c main_arg1 (by decide)
    _ = W2 m ρ c (Proc.devRef .tc main_arg1) := by host_keep hostOps1
    _ = W1 m ρ c (Proc.devRef .tc main_arg1) := W2_of_ne m ρ c main_arg1 (by decide)
    _ = W0 m ρ c (Proc.devRef .tc main_arg1) := by host_keep hostOps0
    _ = m ((c : Thread nD τ).loc main_arg1) := rfl
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_keep hostOps3
    _ = W5 m ρ c (Proc.devRef .tc main_arg2) := W6_of_ne m ρ c main_arg2 (by decide)
    _ = W4 m ρ c (Proc.devRef .tc main_arg2) := by host_keep hostOps2
    _ = W3 m ρ c (Proc.devRef .tc main_arg2) := W4_of_ne m ρ c main_arg2 (by decide)
    _ = W2 m ρ c (Proc.devRef .tc main_arg2) := by host_keep hostOps1
    _ = W1 m ρ c (Proc.devRef .tc main_arg2) := W2_of_ne m ρ c main_arg2 (by decide)
    _ = W0 m ρ c (Proc.devRef .tc main_arg2) := by host_keep hostOps0
    _ = m ((c : Thread nD τ).loc main_arg2) := rfl
theorem W8_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := by host_keep hostOps3
    _ = W5 m ρ c (Proc.devRef .tc main_arg17) := W6_of_ne m ρ c main_arg17 (by decide)
    _ = W4 m ρ c (Proc.devRef .tc main_arg17) := by host_keep hostOps2
    _ = W3 m ρ c (Proc.devRef .tc main_arg17) := W4_of_ne m ρ c main_arg17 (by decide)
    _ = W2 m ρ c (Proc.devRef .tc main_arg17) := by host_keep hostOps1
    _ = W1 m ρ c (Proc.devRef .tc main_arg17) := W2_of_ne m ρ c main_arg17 (by decide)
    _ = W0 m ρ c (Proc.devRef .tc main_arg17) := by host_keep hostOps0
    _ = m ((c : Thread nD τ).loc main_arg17) := rfl
theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := by host_keep hostOps3
    _ = W5 m ρ c (Proc.devRef .tc main_arg19) := W6_of_ne m ρ c main_arg19 (by decide)
    _ = W4 m ρ c (Proc.devRef .tc main_arg19) := by host_keep hostOps2
    _ = W3 m ρ c (Proc.devRef .tc main_arg19) := W4_of_ne m ρ c main_arg19 (by decide)
    _ = W2 m ρ c (Proc.devRef .tc main_arg19) := by host_keep hostOps1
    _ = W1 m ρ c (Proc.devRef .tc main_arg19) := W2_of_ne m ρ c main_arg19 (by decide)
    _ = W0 m ρ c (Proc.devRef .tc main_arg19) := by host_keep hostOps0
    _ = m ((c : Thread nD τ).loc main_arg19) := rfl
theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := by host_keep hostOps5
    _ = W9 m ρ c (Proc.devRef .tc main_arg6) := W10_of_ne m ρ c main_arg6 (by decide)
    _ = W8 m ρ c (Proc.devRef .tc main_arg6) := by host_keep hostOps4
    _ = W7 m ρ c (Proc.devRef .tc main_arg6) := W8_of_ne m ρ c main_arg6 (by decide)
    _ = W6 m ρ c (Proc.devRef .tc main_arg6) := by host_keep hostOps3
    _ = W5 m ρ c (Proc.devRef .tc main_arg6) := W6_of_ne m ρ c main_arg6 (by decide)
    _ = W4 m ρ c (Proc.devRef .tc main_arg6) := by host_keep hostOps2
    _ = W3 m ρ c (Proc.devRef .tc main_arg6) := W4_of_ne m ρ c main_arg6 (by decide)
    _ = W2 m ρ c (Proc.devRef .tc main_arg6) := by host_keep hostOps1
    _ = W1 m ρ c (Proc.devRef .tc main_arg6) := W2_of_ne m ρ c main_arg6 (by decide)
    _ = W0 m ρ c (Proc.devRef .tc main_arg6) := by host_keep hostOps0
    _ = m ((c : Thread nD τ).loc main_arg6) := rfl
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keep hostOps4
    _ = W7 m ρ c (Proc.devRef .tc main_arg7) := W8_of_ne m ρ c main_arg7 (by decide)
    _ = W6 m ρ c (Proc.devRef .tc main_arg7) := by host_keep hostOps3
    _ = W5 m ρ c (Proc.devRef .tc main_arg7) := W6_of_ne m ρ c main_arg7 (by decide)
    _ = W4 m ρ c (Proc.devRef .tc main_arg7) := by host_keep hostOps2
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0
    _ = m ((c : Thread nD τ).loc main_arg7) := rfl

/-! ## The message pass: the rows of a node array gathered at the edges' sources (a negative source index counted from
    the end) and summed into the edges' targets, as the host operations between the regions spell it -/

/-- The host's message pass on a node array. -/
def msgK (src dst : (⟨S1600000, .i32⟩ : BufTy).Contents (Elt Ideal)) (M : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 M
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## The values at the boundaries -/

/-- The embedded node states. -/
def x0 (c : Dev nD) := Cert.GGNN.linA (m ((c : Thread nD τ).loc main_arg0)) (m ((c : Thread nD τ).loc main_arg4)) (Cert.GGNN.vec (m ((c : Thread nD τ).loc main_arg5)))
/-- The first gated layer's edge projection. -/
def e0 (c : Dev nD) := Cert.GGNN.linA (x0 m c) (m ((c : Thread nD τ).loc main_arg8)) (Cert.GGNN.vec (m ((c : Thread nD τ).loc main_arg9)))
/-- The node states after the first gated layer. -/
def x1 (c : Dev nD) := Cert.GGNN.gruA (msgK (m ((c : Thread nD τ).loc main_arg1)) (m ((c : Thread nD τ).loc main_arg2)) (e0 m c)) (x0 m c) (m ((c : Thread nD τ).loc main_arg10)) (Cert.GGNN.vec (m ((c : Thread nD τ).loc main_arg11))) (m ((c : Thread nD τ).loc main_arg12)) (Cert.GGNN.vec (m ((c : Thread nD τ).loc main_arg13)))
/-- The second gated layer's edge projection. -/
def e1 (c : Dev nD) := Cert.GGNN.linA (x1 m c) (m ((c : Thread nD τ).loc main_arg14)) (Cert.GGNN.vec (m ((c : Thread nD τ).loc main_arg15)))
/-- The node states after the second gated layer. -/
def x2 (c : Dev nD) := Cert.GGNN.gruA (msgK (m ((c : Thread nD τ).loc main_arg1)) (m ((c : Thread nD τ).loc main_arg2)) (e1 m c)) (x1 m c) (m ((c : Thread nD τ).loc main_arg16)) (Cert.GGNN.vec (m ((c : Thread nD τ).loc main_arg17))) (m ((c : Thread nD τ).loc main_arg18)) (Cert.GGNN.vec (m ((c : Thread nD τ).loc main_arg19)))

/-- A length-d bias reshaped to one row reads, as a vector, the bias. -/
theorem vec1_reshape {d : ℕ} (b : (⟨1, ![d]⟩ : Shape).Idx → EReal) (h : (⟨1, ![d]⟩ : Shape).ShapeCasts ⟨2, ![1, d]⟩) :
    Cert.GGNN.vec1 (fun i => shapeCast ⟨2, ![1, d]⟩ b h i) = Cert.GGNN.vec b :=
  funext fun j => shapeCast_a_1a_apply b h 0 j

/-! ## What each region leaves, boundary by boundary. The six hypotheses are the regions' values: each output array
    after the region's fifty points as the layer's function of the arrays the region was entered with. -/

section Chain

variable
  (hf0 : ∀ (V : (c : Dev nD) → (b : Ref sig .tc) → Buf (Elt Ideal) ((c : Thread nD τ).loc b)) (c : Dev nD), (dat0 (F := Ideal) V c).arrAt 3 cfg0.N = Cert.GGNN.linA (V c main_arg0) (V c main_arg4) (Cert.GGNN.vec1 (V c main_v0)))
  (hf1 : ∀ (V : (c : Dev nD) → (b : Ref sig .tc) → Buf (Elt Ideal) ((c : Thread nD τ).loc b)) (c : Dev nD), (dat1 (F := Ideal) V c).arrAt 3 cfg1.N = Cert.GGNN.linA (V c main_v1) (V c main_arg8) (Cert.GGNN.vec1 (V c main_v2)))
  (hf2 : ∀ (V : (c : Dev nD) → (b : Ref sig .tc) → Buf (Elt Ideal) ((c : Thread nD τ).loc b)) (c : Dev nD), (dat2 (F := Ideal) V c).arrAt 6 cfg2.N = Cert.GGNN.gruA (V c main_v13) (V c main_v1) (V c main_arg10) (Cert.GGNN.vec1 (V c main_v14)) (V c main_arg12) (Cert.GGNN.vec1 (V c main_v15)))
  (hf3 : ∀ (V : (c : Dev nD) → (b : Ref sig .tc) → Buf (Elt Ideal) ((c : Thread nD τ).loc b)) (c : Dev nD), (dat3 (F := Ideal) V c).arrAt 3 cfg3.N = Cert.GGNN.linA (V c main_v16) (V c main_arg14) (Cert.GGNN.vec1 (V c main_v17)))
  (hf4 : ∀ (V : (c : Dev nD) → (b : Ref sig .tc) → Buf (Elt Ideal) ((c : Thread nD τ).loc b)) (c : Dev nD), (dat4 (F := Ideal) V c).arrAt 6 cfg4.N = Cert.GGNN.gruA (V c main_v28) (V c main_v16) (V c main_arg16) (Cert.GGNN.vec1 (V c main_v29)) (V c main_arg18) (Cert.GGNN.vec1 (V c main_v30)))
  (hf5 : ∀ (V : (c : Dev nD) → (b : Ref sig .tc) → Buf (Elt Ideal) ((c : Thread nD τ).loc b)) (c : Dev nD), (dat5 (F := Ideal) V c).arrAt 3 cfg5.N = Cert.GGNN.readA (V c main_v31) (V c main_arg6) (Cert.GGNN.vec1 (V c main_v32)))

theorem W1_v0 (c : Dev nD) : Cert.GGNN.vec1 (W1 m ρ c (Proc.devRef .tc main_v0)) = Cert.GGNN.vec (m ((c : Thread nD τ).loc main_arg5)) := by
  have e : StableHlo.after hostOps0 (W0 m ρ c) (Proc.devRef .tc main_v0)
      = (fun i => shapeCast S1x128 (W0 m ρ c (Proc.devRef .tc main_arg5)) shapeCasts_S128_S1x128 i) := by
    simp only [hostOps0]; after_results_simp; try rfl
  show Cert.GGNN.vec1 (StableHlo.after hostOps0 (W0 m ρ c) (Proc.devRef .tc main_v0)) = _
  rw [e]
  exact vec1_reshape _ _

include hf0 in
theorem W2_v1 (c : Dev nD) : W2 m ρ c (Proc.devRef .tc main_v1) = x0 m c := by
  refine (W2_arr m ρ c 3).trans ((hf0 (V1 m ρ) c).trans ?_)
  show Cert.GGNN.linA (W1 m ρ c (Proc.devRef .tc main_arg0)) (W1 m ρ c (Proc.devRef .tc main_arg4)) (Cert.GGNN.vec1 (W1 m ρ c (Proc.devRef .tc main_v0))) = _
  rw [W1_arg0 m ρ c, W1_arg4 m ρ c, W1_v0 m ρ c]; rfl

theorem W3_v2 (c : Dev nD) : Cert.GGNN.vec1 (W3 m ρ c (Proc.devRef .tc main_v2)) = Cert.GGNN.vec (m ((c : Thread nD τ).loc main_arg9)) := by
  have e : StableHlo.after hostOps1 (W2 m ρ c) (Proc.devRef .tc main_v2)
      = (fun i => shapeCast S1x128 (W2 m ρ c (Proc.devRef .tc main_arg9)) shapeCasts_S128_S1x128 i) := by
    simp only [hostOps1]; after_results_simp; try rfl
  show Cert.GGNN.vec1 (StableHlo.after hostOps1 (W2 m ρ c) (Proc.devRef .tc main_v2)) = _
  rw [e, W2_arg9 m ρ c]
  exact vec1_reshape _ _

include hf0 in
theorem W3_v1 (c : Dev nD) : W3 m ρ c (Proc.devRef .tc main_v1) = x0 m c :=
  (show W3 m ρ c (Proc.devRef .tc main_v1) = W2 m ρ c (Proc.devRef .tc main_v1) from by host_keep hostOps1).trans (W2_v1 m ρ hf0 c)

include hf0 hf1 in
theorem W4_v3 (c : Dev nD) : W4 m ρ c (Proc.devRef .tc main_v3) = e0 m c := by
  refine (W4_arr m ρ c 3).trans ((hf1 (V3 m ρ) c).trans ?_)
  show Cert.GGNN.linA (W3 m ρ c (Proc.devRef .tc main_v1)) (W3 m ρ c (Proc.devRef .tc main_arg8)) (Cert.GGNN.vec1 (W3 m ρ c (Proc.devRef .tc main_v2))) = _
  rw [W3_v1 m ρ hf0 c, W3_arg8 m ρ c, W3_v2 m ρ c]; rfl

include hf0 in
theorem W5_v1 (c : Dev nD) : W5 m ρ c (Proc.devRef .tc main_v1) = x0 m c :=
  calc W5 m ρ c (Proc.devRef .tc main_v1)
    _ = W4 m ρ c (Proc.devRef .tc main_v1) := by host_keep hostOps2
    _ = W3 m ρ c (Proc.devRef .tc main_v1) := (W4_arr m ρ c 0).trans (((dat1 (V3 m ρ) c).arrAt_in 0 rfl _).trans (A_eq1 (V3 m ρ) c 0))
    _ = x0 m c := W3_v1 m ρ hf0 c

theorem W5_v13 (c : Dev nD) : W5 m ρ c (Proc.devRef .tc main_v13) = msgK (m ((c : Thread nD τ).loc main_arg1)) (m ((c : Thread nD τ).loc main_arg2)) (W4 m ρ c (Proc.devRef .tc main_v3)) := by
  have e : StableHlo.after hostOps2 (W4 m ρ c) (Proc.devRef .tc main_v13)
      = msgK (W4 m ρ c (Proc.devRef .tc main_arg1)) (W4 m ρ c (Proc.devRef .tc main_arg2)) (W4 m ρ c (Proc.devRef .tc main_v3)) := by
    simp only [hostOps2]; after_results_simp; try rfl
  show StableHlo.after hostOps2 (W4 m ρ c) (Proc.devRef .tc main_v13) = _
  rw [e, W4_arg1 m ρ c, W4_arg2 m ρ c]

theorem W5_v14 (c : Dev nD) : Cert.GGNN.vec1 (W5 m ρ c (Proc.devRef .tc main_v14)) = Cert.GGNN.vec (m ((c : Thread nD τ).loc main_arg11)) := by
  have e : StableHlo.after hostOps2 (W4 m ρ c) (Proc.devRef .tc main_v14)
      = (fun i => shapeCast S1x384 (W4 m ρ c (Proc.devRef .tc main_arg11)) shapeCasts_S384_S1x384 i) := by
    simp only [hostOps2]; after_results_simp; try rfl
  show Cert.GGNN.vec1 (StableHlo.after hostOps2 (W4 m ρ c) (Proc.devRef .tc main_v14)) = _
  rw [e, W4_arg11 m ρ c]
  exact vec1_reshape _ _

theorem W5_v15 (c : Dev nD) : Cert.GGNN.vec1 (W5 m ρ c (Proc.devRef .tc main_v15)) = Cert.GGNN.vec (m ((c : Thread nD τ).loc main_arg13)) := by
  have e : StableHlo.after hostOps2 (W4 m ρ c) (Proc.devRef .tc main_v15)
      = (fun i => shapeCast S1x384 (W4 m ρ c (Proc.devRef .tc main_arg13)) shapeCasts_S384_S1x384 i) := by
    simp only [hostOps2]; after_results_simp; try rfl
  show Cert.GGNN.vec1 (StableHlo.after hostOps2 (W4 m ρ c) (Proc.devRef .tc main_v15)) = _
  rw [e, W4_arg13 m ρ c]
  exact vec1_reshape _ _

include hf0 hf1 hf2 in
theorem W6_v16 (c : Dev nD) : W6 m ρ c (Proc.devRef .tc main_v16) = x1 m c := by
  refine (W6_arr m ρ c 6).trans ((hf2 (V5 m ρ) c).trans ?_)
  show Cert.GGNN.gruA (W5 m ρ c (Proc.devRef .tc main_v13)) (W5 m ρ c (Proc.devRef .tc main_v1)) (W5 m ρ c (Proc.devRef .tc main_arg10)) (Cert.GGNN.vec1 (W5 m ρ c (Proc.devRef .tc main_v14))) (W5 m ρ c (Proc.devRef .tc main_arg12)) (Cert.GGNN.vec1 (W5 m ρ c (Proc.devRef .tc main_v15))) = _
  rw [W5_v13 m ρ c, W4_v3 m ρ hf0 hf1 c, W5_v1 m ρ hf0 c, W5_arg10 m ρ c, W5_arg12 m ρ c, W5_v14 m ρ c, W5_v15 m ρ c]; rfl

theorem W7_v17 (c : Dev nD) : Cert.GGNN.vec1 (W7 m ρ c (Proc.devRef .tc main_v17)) = Cert.GGNN.vec (m ((c : Thread nD τ).loc main_arg15)) := by
  have e : StableHlo.after hostOps3 (W6 m ρ c) (Proc.devRef .tc main_v17)
      = (fun i => shapeCast S1x128 (W6 m ρ c (Proc.devRef .tc main_arg15)) shapeCasts_S128_S1x128 i) := by
    simp only [hostOps3]; after_results_simp; try rfl
  show Cert.GGNN.vec1 (StableHlo.after hostOps3 (W6 m ρ c) (Proc.devRef .tc main_v17)) = _
  rw [e, W6_arg15 m ρ c]
  exact vec1_reshape _ _

include hf0 hf1 hf2 in
theorem W7_v16 (c : Dev nD) : W7 m ρ c (Proc.devRef .tc main_v16) = x1 m c :=
  (show W7 m ρ c (Proc.devRef .tc main_v16) = W6 m ρ c (Proc.devRef .tc main_v16) from by host_keep hostOps3).trans (W6_v16 m ρ hf0 hf1 hf2 c)

include hf0 hf1 hf2 hf3 in
theorem W8_v18 (c : Dev nD) : W8 m ρ c (Proc.devRef .tc main_v18) = e1 m c := by
  refine (W8_arr m ρ c 3).trans ((hf3 (V7 m ρ) c).trans ?_)
  show Cert.GGNN.linA (W7 m ρ c (Proc.devRef .tc main_v16)) (W7 m ρ c (Proc.devRef .tc main_arg14)) (Cert.GGNN.vec1 (W7 m ρ c (Proc.devRef .tc main_v17))) = _
  rw [W7_v16 m ρ hf0 hf1 hf2 c, W7_arg14 m ρ c, W7_v17 m ρ c]; rfl

include hf0 hf1 hf2 in
theorem W9_v16 (c : Dev nD) : W9 m ρ c (Proc.devRef .tc main_v16) = x1 m c :=
  calc W9 m ρ c (Proc.devRef .tc main_v16)
    _ = W8 m ρ c (Proc.devRef .tc main_v16) := by host_keep hostOps4
    _ = W7 m ρ c (Proc.devRef .tc main_v16) := (W8_arr m ρ c 0).trans (((dat3 (V7 m ρ) c).arrAt_in 0 rfl _).trans (A_eq3 (V7 m ρ) c 0))
    _ = x1 m c := W7_v16 m ρ hf0 hf1 hf2 c

theorem W9_v28 (c : Dev nD) : W9 m ρ c (Proc.devRef .tc main_v28) = msgK (m ((c : Thread nD τ).loc main_arg1)) (m ((c : Thread nD τ).loc main_arg2)) (W8 m ρ c (Proc.devRef .tc main_v18)) := by
  have e : StableHlo.after hostOps4 (W8 m ρ c) (Proc.devRef .tc main_v28)
      = msgK (W8 m ρ c (Proc.devRef .tc main_arg1)) (W8 m ρ c (Proc.devRef .tc main_arg2)) (W8 m ρ c (Proc.devRef .tc main_v18)) := by
    simp only [hostOps4]; after_results_simp; try rfl
  show StableHlo.after hostOps4 (W8 m ρ c) (Proc.devRef .tc main_v28) = _
  rw [e, W8_arg1 m ρ c, W8_arg2 m ρ c]

theorem W9_v29 (c : Dev nD) : Cert.GGNN.vec1 (W9 m ρ c (Proc.devRef .tc main_v29)) = Cert.GGNN.vec (m ((c : Thread nD τ).loc main_arg17)) := by
  have e : StableHlo.after hostOps4 (W8 m ρ c) (Proc.devRef .tc main_v29)
      = (fun i => shapeCast S1x384 (W8 m ρ c (Proc.devRef .tc main_arg17)) shapeCasts_S384_S1x384 i) := by
    simp only [hostOps4]; after_results_simp; try rfl
  show Cert.GGNN.vec1 (StableHlo.after hostOps4 (W8 m ρ c) (Proc.devRef .tc main_v29)) = _
  rw [e, W8_arg17 m ρ c]
  exact vec1_reshape _ _

theorem W9_v30 (c : Dev nD) : Cert.GGNN.vec1 (W9 m ρ c (Proc.devRef .tc main_v30)) = Cert.GGNN.vec (m ((c : Thread nD τ).loc main_arg19)) := by
  have e : StableHlo.after hostOps4 (W8 m ρ c) (Proc.devRef .tc main_v30)
      = (fun i => shapeCast S1x384 (W8 m ρ c (Proc.devRef .tc main_arg19)) shapeCasts_S384_S1x384 i) := by
    simp only [hostOps4]; after_results_simp; try rfl
  show Cert.GGNN.vec1 (StableHlo.after hostOps4 (W8 m ρ c) (Proc.devRef .tc main_v30)) = _
  rw [e, W8_arg19 m ρ c]
  exact vec1_reshape _ _

include hf0 hf1 hf2 hf3 hf4 in
theorem W10_v31 (c : Dev nD) : W10 m ρ c (Proc.devRef .tc main_v31) = x2 m c := by
  refine (W10_arr m ρ c 6).trans ((hf4 (V9 m ρ) c).trans ?_)
  show Cert.GGNN.gruA (W9 m ρ c (Proc.devRef .tc main_v28)) (W9 m ρ c (Proc.devRef .tc main_v16)) (W9 m ρ c (Proc.devRef .tc main_arg16)) (Cert.GGNN.vec1 (W9 m ρ c (Proc.devRef .tc main_v29))) (W9 m ρ c (Proc.devRef .tc main_arg18)) (Cert.GGNN.vec1 (W9 m ρ c (Proc.devRef .tc main_v30))) = _
  rw [W9_v28 m ρ c, W8_v18 m ρ hf0 hf1 hf2 hf3 c, W9_v16 m ρ hf0 hf1 hf2 c, W9_arg16 m ρ c, W9_arg18 m ρ c, W9_v29 m ρ c, W9_v30 m ρ c]; rfl

theorem W11_v32 (c : Dev nD) : Cert.GGNN.vec1 (W11 m ρ c (Proc.devRef .tc main_v32)) = Cert.GGNN.vec (m ((c : Thread nD τ).loc main_arg7)) := by
  have e : StableHlo.after hostOps5 (W10 m ρ c) (Proc.devRef .tc main_v32)
      = (fun i => shapeCast S1x40 (W10 m ρ c (Proc.devRef .tc main_arg7)) shapeCasts_S40_S1x40 i) := by
    simp only [hostOps5]; after_results_simp; try rfl
  show Cert.GGNN.vec1 (StableHlo.after hostOps5 (W10 m ρ c) (Proc.devRef .tc main_v32)) = _
  rw [e, W10_arg7 m ρ c]
  exact vec1_reshape _ _

include hf0 hf1 hf2 hf3 hf4 hf5 in
/-- The result buffer at the last boundary: the read-out of the node states after the two gated layers. -/
theorem W12_v33 (c : Dev nD) : W12 m ρ c (Proc.devRef .tc main_v33) = Cert.GGNN.readA (x2 m c) (m ((c : Thread nD τ).loc main_arg6)) (Cert.GGNN.vec (m ((c : Thread nD τ).loc main_arg7))) := by
  refine (W12_arr m ρ c 3).trans ((hf5 (V11 m ρ) c).trans ?_)
  show Cert.GGNN.readA (W11 m ρ c (Proc.devRef .tc main_v31)) (W11 m ρ c (Proc.devRef .tc main_arg6)) (Cert.GGNN.vec1 (W11 m ρ c (Proc.devRef .tc main_v32))) = _
  rw [show W11 m ρ c (Proc.devRef .tc main_v31) = W10 m ρ c (Proc.devRef .tc main_v31) from by host_keep hostOps5,
    W10_v31 m ρ hf0 hf1 hf2 hf3 hf4 c, W11_arg6 m ρ c, W11_v32 m ρ c]

end Chain

end Cert.KernelIdeal.RegionValue

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«141311_j58110907515590_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.KLinPay.lean ====
/-
  The dense layer's tile at an entry.

  The body of a dense-layer tile takes a block x of 2000 rows, the whole weight matrix W and the bias row b, and
  stores the product of x with the transposed W into a zero accumulator, plus the bias row repeated over the rows.
  Over the extended reals a change of float format is the identity, a cast of a shape to itself is the identity, the
  transposed matrix read at (q, c) is W at (c, q), the product at (p, c) is the sum over q of x (p, q) · W (c, q),
  and the repeated row at (p, c) is b (0, c): entry (p, c) of the tile is the dense layer of row p of the block, at
  output c.  The three dense-layer bodies of the program differ only in a cast of x to its own shape.
-/
import proofs.«141311_j58110907515590_1_alg».proof.Proof.Gen.KernelIdeal.Skeleton
import proofs.«141311_j58110907515590_1_alg».proof.Proof.Spec
import proofs.«141311_j58110907515590_1_alg».proof.Proof.LibPlainDot
import proofs.«141311_j58110907515590_1_alg».proof.Proof.LibRowReduce
import Idealize.ShloMosaic.Lib.ValueLayout

noncomputable section

open scoped BigOperators

namespace Cert.KernelIdeal.RegionValue

open Cert.KernelIdeal Cert.KernelIdeal.Gen Idealize.ShloMosaic Idealize.ShloMosaic.ValueIdx

/-- Entry (p, c) of the payload of tile body 0 is the dense layer of row p of the block x against the rows of W,
    plus b. -/
theorem lin_pay0_apply (x0 : Vec Ideal S2000x128 .f32) (x1 : Vec Ideal S128x128 .f32) (x2 : Vec Ideal S1x128 .f32)
    (p : Fin 2000) (c : Fin 128) :
    Gen.k0_pay1 (F := Ideal) x0 x1 x2 (ix2 p c)
      = Cert.GGNN.affine (fun q : Fin 128 => x0 (ix2 p q)) (fun (j : Fin 128) (q : Fin 128) => x1 (ix2 j q))
          (fun j : Fin 128 => x2 (ix2 (0 : Fin 1) j)) c := by
  unfold Gen.k0_pay1
  dsimp only
  refine (addf_apply _ _ _).trans ?_
  unfold Cert.GGNN.affine
  refine congrArg₂ (· + ·) ?_ ?_
  · refine (Cert.LibPlainDot.matmul_zero_apply _ rfl none _ _ p c).trans ?_
    refine Finset.sum_congr rfl fun q _ => ?_
    refine congrArg₂ (· * ·) ?_ ?_
    · first
        | rfl
        | exact congrFun (shapeCast_self x0 _) (ix2 p q)
    · exact Cert.LibRowReduce.transpose_swap_apply _ _ q c
  · refine (broadcastTo_1b_ab_apply _ _ p c).trans ?_
    rw [shapeCast_self]

/-- Entry (p, c) of the payload of tile body 1 is the dense layer of row p of the block x against the rows of W,
    plus b. -/
theorem lin_pay1_apply (x0 : Vec Ideal S2000x128 .f32) (x1 : Vec Ideal S128x128 .f32) (x2 : Vec Ideal S1x128 .f32)
    (p : Fin 2000) (c : Fin 128) :
    Gen.k1_pay1 (F := Ideal) x0 x1 x2 (ix2 p c)
      = Cert.GGNN.affine (fun q : Fin 128 => x0 (ix2 p q)) (fun (j : Fin 128) (q : Fin 128) => x1 (ix2 j q))
          (fun j : Fin 128 => x2 (ix2 (0 : Fin 1) j)) c := by
  unfold Gen.k1_pay1
  dsimp only
  refine (addf_apply _ _ _).trans ?_
  unfold Cert.GGNN.affine
  refine congrArg₂ (· + ·) ?_ ?_
  · refine (Cert.LibPlainDot.matmul_zero_apply _ rfl none _ _ p c).trans ?_
    refine Finset.sum_congr rfl fun q _ => ?_
    refine congrArg₂ (· * ·) ?_ ?_
    · first
        | rfl
        | exact congrFun (shapeCast_self x0 _) (ix2 p q)
    · exact Cert.LibRowReduce.transpose_swap_apply _ _ q c
  · refine (broadcastTo_1b_ab_apply _ _ p c).trans ?_
    rw [shapeCast_self]

/-- Entry (p, c) of the payload of tile body 3 is the dense layer of row p of the block x against the rows of W,
    plus b. -/
theorem lin_pay3_apply (x0 : Vec Ideal S2000x128 .f32) (x1 : Vec Ideal S128x128 .f32) (x2 : Vec Ideal S1x128 .f32)
    (p : Fin 2000) (c : Fin 128) :
    Gen.k3_pay1 (F := Ideal) x0 x1 x2 (ix2 p c)
      = Cert.GGNN.affine (fun q : Fin 128 => x0 (ix2 p q)) (fun (j : Fin 128) (q : Fin 128) => x1 (ix2 j q))
          (fun j : Fin 128 => x2 (ix2 (0 : Fin 1) j)) c := by
  unfold Gen.k3_pay1
  dsimp only
  refine (addf_apply _ _ _).trans ?_
  unfold Cert.GGNN.affine
  refine congrArg₂ (· + ·) ?_ ?_
  · refine (Cert.LibPlainDot.matmul_zero_apply _ rfl none _ _ p c).trans ?_
    refine Finset.sum_congr rfl fun q _ => ?_
    refine congrArg₂ (· * ·) ?_ ?_
    · first
        | rfl
        | exact congrFun (shapeCast_self x0 _) (ix2 p q)
    · exact Cert.LibRowReduce.transpose_swap_apply _ _ q c
  · refine (broadcastTo_1b_ab_apply _ _ p c).trans ?_
    rw [shapeCast_self]

end Cert.KernelIdeal.RegionValue

end
-- ==== Proof.KLin0.lean ====
/-
  Dense-layer region 0: the output array after all fifty tiles is the dense layer of the whole input array.

  Tile t of the grid reads rows 2000·t … 2000·t + 1999 of the input array, the whole weight matrix and the whole bias
  row, and writes back the same rows of the output array.  Entry (p, c) of what it writes is the dense layer of row
  p of its block, which is row 2000·t + p of the input array; a dense layer is a function of one row, so the tile is
  exactly those rows of the dense layer of the whole array.  The fifty tiles of 2000 rows cover all 100000 rows — row
  r lies in tile r / 2000 — so the output array ends holding the dense layer of the whole array.
-/
import proofs.«141311_j58110907515590_1_alg».proof.Proof.Gen.KernelIdeal.Frame
import proofs.«141311_j58110907515590_1_alg».proof.Proof.Spec
import proofs.«141311_j58110907515590_1_alg».proof.Proof.KLinPay
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin_zero_off0 : (![0, 0] : Fin 2 → Nat) = fun _ => 0 := funext fun a => by fin_cases a <;> rfl

/-- The block index of each window at tile t: the input and the output move with the tile along the rows; the weights
    and the bias have one block. -/
theorem lin_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense layer of the whole input array as the region finds it. -/
abbrev lin_G0 (c : Dev nD) : S100000x128.Idx → EReal :=
  Cert.GGNN.linA (V c main_arg0 : S100000x128.Idx → EReal) (V c main_arg4 : S128x128.Idx → EReal)
    (Cert.GGNN.vec1 (V c main_v0 : S1x128.Idx → EReal))

/-- The input block of tile t at (p, q) is the input array at row 2000·t + p. -/
theorem lin_blk0_0 (c : Dev nD) (t : Fin cfg0.N) (p : Fin 2000) (q : Fin 128) (k : S100000x128.Idx)
    (hk0 : (k 0).val = 2000 * t.val + p.val) (hk1 : (k 1).val = q.val) :
    (iblk0 V c 0 t : Vec Ideal S2000x128 .f32) (ix2 p q) = (V c main_arg0 : S100000x128.Idx → EReal) k := by
  obtain ⟨e0, e1, -⟩ := lin_idx0 t
  unfold iblk0
  rw [View.read_apply]
  show V c main_arg0 _ = V c main_arg0 _
  congr 1
  funext a
  apply Fin.ext
  match a with
  | ⟨0, _⟩ => show win0_0.index t (0 : Fin 2) * 2000 + 1 * p.val = (k 0).val; rw [e0, hk0]; omega
  | ⟨1, _⟩ => show win0_0.index t (1 : Fin 2) * 128 + 1 * q.val = (k 1).val; rw [e1, hk1]; omega

/-- The weight block of every tile is the weight matrix. -/
theorem lin_blk0_1 (c : Dev nD) (t : Fin cfg0.N) (j : Fin 128) (q : Fin 128) :
    (iblk0 V c 1 t : Vec Ideal S128x128 .f32) (ix2 j q) = (V c main_arg4 : S128x128.Idx → EReal) (ix2 j q) := by
  obtain ⟨-, -, e2, e3, -⟩ := lin_idx0 t
  unfold iblk0
  rw [View.read_apply]
  show V c main_arg4 _ = V c main_arg4 _
  congr 1
  funext a
  apply Fin.ext
  match a with
  | ⟨0, _⟩ => show win0_1.index t (0 : Fin 2) * 128 + 1 * j.val = j.val; rw [e2]; omega
  | ⟨1, _⟩ => show win0_1.index t (1 : Fin 2) * 128 + 1 * q.val = q.val; rw [e3]; omega

/-- The bias block of every tile is the bias row. -/
theorem lin_blk0_2 (c : Dev nD) (t : Fin cfg0.N) (j : Fin 128) :
    (iblk0 V c 2 t : Vec Ideal S1x128 .f32) (ix2 (0 : Fin 1) j) = (V c main_v0 : S1x128.Idx → EReal) (ix2 (0 : Fin 1) j) := by
  obtain ⟨-, -, -, -, e4, e5, -⟩ := lin_idx0 t
  unfold iblk0
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; rw [e4]; omega
  | ⟨1, _⟩ => show win0_2.index t (1 : Fin 2) * 128 + 1 * j.val = j.val; rw [e5]; omega

/-- What tile t writes back is block t of the dense layer of the whole input array. -/
theorem lin_flushed0 (c : Dev nD) (t : Fin cfg0.N) :
    (dat0 (F := Ideal) V c).flushed 3 t = ((cfg0.win 3).blk t).view.read (Elt Ideal) (lin_G0 V c) := by
  show (cfg0.win 3).cut (grid0.coords t) ((dat0 (F := Ideal) V c).after 3 t) = _
  rw [after0_3]
  unfold out0_3
  rw [View.canon_unit_zero lin_zero_off0]
  simp only [View.ld_unit_zero (S := S2000x128) lin_zero_off0, View.ld_unit_zero (S := S128x128) lin_zero_off0,
    View.ld_unit_zero (S := S1x128) lin_zero_off0]
  obtain ⟨-, -, -, -, -, -, e6, e7⟩ := lin_idx0 t
  have hN : grid0.N = 50 := N_0
  have ht : t.val < 50 := lt_of_lt_of_eq t.isLt hN
  funext j
  obtain ⟨p, q, rfl⟩ : ∃ (p : Fin 2000) (q : Fin 128), j = ix2 p q := ⟨j 0, j 1, eq_ix2 j⟩
  have hp : p.val < 2000 := p.isLt
  have he : ((cfg0.win 3).blk t).view.emb (ix2 p q) = ix2 (⟨2000 * t.val + p.val, by omega⟩ : Fin 100000) q := by
    funext a
    apply Fin.ext
    match a with
    | ⟨0, _⟩ => show win0_3.index t (0 : Fin 2) * 2000 + 1 * p.val = 2000 * t.val + p.val; rw [e6]; omega
    | ⟨1, _⟩ => show win0_3.index t (1 : Fin 2) * 128 + 1 * q.val = q.val; rw [e7]; omega
  show k0_pay1 (F := Ideal) (iblk0 V c 0 t) (iblk0 V c 1 t) (iblk0 V c 2 t) (ix2 p q)
    = lin_G0 V c (((cfg0.win 3).blk t).view.emb (ix2 p q))
  refine (lin_pay0_apply _ _ _ p q).trans ?_
  refine Eq.trans ?_ (congrArg (lin_G0 V c) he).symm
  refine Eq.trans ?_ (Cert.GGNN.ofRows_apply _ _ _).symm
  unfold Cert.GGNN.affine
  refine congrArg₂ (· + ·) (Finset.sum_congr rfl fun r _ => congrArg₂ (· * ·) ?_ ?_) ?_
  · exact lin_blk0_0 V c t p r _ rfl rfl
  · exact lin_blk0_1 V c t q r
  · exact lin_blk0_2 V c t q

/-- An index of the output array is in tile t's block iff each coordinate is in the block's range on its axis. -/
theorem lin_mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- Every index of the output array is in some tile's block: row r is in tile r / 2000. -/
theorem lin_cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  obtain ⟨t, ht⟩ : ∃ t : Fin cfg0.N, t.val = (i 0).val / 2000 :=
    ⟨⟨(i 0).val / 2000, by show _ < grid0.N; rw [hN]; omega⟩, rfl⟩
  obtain ⟨-, -, -, -, -, -, e6, e7⟩ := lin_idx0 t
  refine ⟨t, flush0_3 t, ?_⟩
  rw [lin_mem_blk0]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 128 ≤ (i 1).val ∧ (i 1).val < win0_3.index t (1 : Fin 2) * 128 + 128
    rw [e7]; omega

/-- The output array after the region is the dense layer of the whole input array as the region finds it. -/
theorem final0 (V : (c : Dev nD) → (b : Ref sig .tc) → Buf (Elt Ideal) ((c : Thread nD τ).loc b)) (c : Dev nD) :
    (Gen.dat0 (F := Ideal) V c).arrAt 3 cfg0.N
      = Cert.GGNN.linA (V c main_arg0) (V c main_arg4) (Cert.GGNN.vec1 (V c main_v0)) :=
  (dat0 (F := Ideal) V c).arrAt_eq_of_cover 3 (lin_G0 V c) (fun t _ => lin_flushed0 V c t) lin_cover0

end Cert.KernelIdeal.RegionValue

end
-- ==== Proof.KLin1.lean ====
/-
  Dense-layer region 1: the output array after all fifty tiles is the dense layer of the whole input array.

  Tile t of the grid reads rows 2000·t … 2000·t + 1999 of the input array, the whole weight matrix and the whole bias
  row, and writes back the same rows of the output array.  Entry (p, c) of what it writes is the dense layer of row
  p of its block, which is row 2000·t + p of the input array; a dense layer is a function of one row, so the tile is
  exactly those rows of the dense layer of the whole array.  The fifty tiles of 2000 rows cover all 100000 rows — row
  r lies in tile r / 2000 — so the output array ends holding the dense layer of the whole array.
-/
import proofs.«141311_j58110907515590_1_alg».proof.Proof.Gen.KernelIdeal.Frame
import proofs.«141311_j58110907515590_1_alg».proof.Proof.Spec
import proofs.«141311_j58110907515590_1_alg».proof.Proof.KLinPay
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin_zero_off1 : (![0, 0] : Fin 2 → Nat) = fun _ => 0 := funext fun a => by fin_cases a <;> rfl

/-- The block index of each window at tile t: the input and the output move with the tile along the rows; the weights
    and the bias have one block. -/
theorem lin_idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense layer of the whole input array as the region finds it. -/
abbrev lin_G1 (c : Dev nD) : S100000x128.Idx → EReal :=
  Cert.GGNN.linA (V c main_v1 : S100000x128.Idx → EReal) (V c main_arg8 : S128x128.Idx → EReal)
    (Cert.GGNN.vec1 (V c main_v2 : S1x128.Idx → EReal))

/-- The input block of tile t at (p, q) is the input array at row 2000·t + p. -/
theorem lin_blk1_0 (c : Dev nD) (t : Fin cfg1.N) (p : Fin 2000) (q : Fin 128) (k : S100000x128.Idx)
    (hk0 : (k 0).val = 2000 * t.val + p.val) (hk1 : (k 1).val = q.val) :
    (iblk1 V c 0 t : Vec Ideal S2000x128 .f32) (ix2 p q) = (V c main_v1 : S100000x128.Idx → EReal) k := by
  obtain ⟨e0, e1, -⟩ := lin_idx1 t
  unfold iblk1
  rw [View.read_apply]
  show V c main_v1 _ = V c main_v1 _
  congr 1
  funext a
  apply Fin.ext
  match a with
  | ⟨0, _⟩ => show win1_0.index t (0 : Fin 2) * 2000 + 1 * p.val = (k 0).val; rw [e0, hk0]; omega
  | ⟨1, _⟩ => show win1_0.index t (1 : Fin 2) * 128 + 1 * q.val = (k 1).val; rw [e1, hk1]; omega

/-- The weight block of every tile is the weight matrix. -/
theorem lin_blk1_1 (c : Dev nD) (t : Fin cfg1.N) (j : Fin 128) (q : Fin 128) :
    (iblk1 V c 1 t : Vec Ideal S128x128 .f32) (ix2 j q) = (V c main_arg8 : S128x128.Idx → EReal) (ix2 j q) := by
  obtain ⟨-, -, e2, e3, -⟩ := lin_idx1 t
  unfold iblk1
  rw [View.read_apply]
  show V c main_arg8 _ = V c main_arg8 _
  congr 1
  funext a
  apply Fin.ext
  match a with
  | ⟨0, _⟩ => show win1_1.index t (0 : Fin 2) * 128 + 1 * j.val = j.val; rw [e2]; omega
  | ⟨1, _⟩ => show win1_1.index t (1 : Fin 2) * 128 + 1 * q.val = q.val; rw [e3]; omega

/-- The bias block of every tile is the bias row. -/
theorem lin_blk1_2 (c : Dev nD) (t : Fin cfg1.N) (j : Fin 128) :
    (iblk1 V c 2 t : Vec Ideal S1x128 .f32) (ix2 (0 : Fin 1) j) = (V c main_v2 : S1x128.Idx → EReal) (ix2 (0 : Fin 1) j) := by
  obtain ⟨-, -, -, -, e4, e5, -⟩ := lin_idx1 t
  unfold iblk1
  rw [View.read_apply]
  show V c main_v2 _ = V c main_v2 _
  congr 1
  funext a
  apply Fin.ext
  match a with
  | ⟨0, _⟩ => show win1_2.index t (0 : Fin 2) * 1 + 1 * (0 : Fin 1).val = (0 : Fin 1).val; rw [e4]; omega
  | ⟨1, _⟩ => show win1_2.index t (1 : Fin 2) * 128 + 1 * j.val = j.val; rw [e5]; omega

/-- What tile t writes back is block t of the dense layer of the whole input array. -/
theorem lin_flushed1 (c : Dev nD) (t : Fin cfg1.N) :
    (dat1 (F := Ideal) V c).flushed 3 t = ((cfg1.win 3).blk t).view.read (Elt Ideal) (lin_G1 V c) := by
  show (cfg1.win 3).cut (grid1.coords t) ((dat1 (F := Ideal) V c).after 3 t) = _
  rw [after1_3]
  unfold out1_3
  rw [View.canon_unit_zero lin_zero_off1]
  simp only [View.ld_unit_zero (S := S2000x128) lin_zero_off1, View.ld_unit_zero (S := S128x128) lin_zero_off1,
    View.ld_unit_zero (S := S1x128) lin_zero_off1]
  obtain ⟨-, -, -, -, -, -, e6, e7⟩ := lin_idx1 t
  have hN : grid1.N = 50 := N_1
  have ht : t.val < 50 := lt_of_lt_of_eq t.isLt hN
  funext j
  obtain ⟨p, q, rfl⟩ : ∃ (p : Fin 2000) (q : Fin 128), j = ix2 p q := ⟨j 0, j 1, eq_ix2 j⟩
  have hp : p.val < 2000 := p.isLt
  have he : ((cfg1.win 3).blk t).view.emb (ix2 p q) = ix2 (⟨2000 * t.val + p.val, by omega⟩ : Fin 100000) q := by
    funext a
    apply Fin.ext
    match a with
    | ⟨0, _⟩ => show win1_3.index t (0 : Fin 2) * 2000 + 1 * p.val = 2000 * t.val + p.val; rw [e6]; omega
    | ⟨1, _⟩ => show win1_3.index t (1 : Fin 2) * 128 + 1 * q.val = q.val; rw [e7]; omega
  show k1_pay1 (F := Ideal) (iblk1 V c 0 t) (iblk1 V c 1 t) (iblk1 V c 2 t) (ix2 p q)
    = lin_G1 V c (((cfg1.win 3).blk t).view.emb (ix2 p q))
  refine (lin_pay1_apply _ _ _ p q).trans ?_
  refine Eq.trans ?_ (congrArg (lin_G1 V c) he).symm
  refine Eq.trans ?_ (Cert.GGNN.ofRows_apply _ _ _).symm
  unfold Cert.GGNN.affine
  refine congrArg₂ (· + ·) (Finset.sum_congr rfl fun r _ => congrArg₂ (· * ·) ?_ ?_) ?_
  · exact lin_blk1_0 V c t p r _ rfl rfl
  · exact lin_blk1_1 V c t q r
  · exact lin_blk1_2 V c t q

/-- An index of the output array is in tile t's block iff each coordinate is in the block's range on its axis. -/
theorem lin_mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v3).slice (win1_3.rect t)).set ↔ _
  rw [View.set_slice_whole, Rect.mem_set_unit]
  exact Iff.rfl

/-- Every index of the output array is in some tile's block: row r is in tile r / 2000. -/
theorem lin_cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 50 := N_1
  obtain ⟨t, ht⟩ : ∃ t : Fin cfg1.N, t.val = (i 0).val / 2000 :=
    ⟨⟨(i 0).val / 2000, by show _ < grid1.N; rw [hN]; omega⟩, rfl⟩
  obtain ⟨-, -, -, -, -, -, e6, e7⟩ := lin_idx1 t
  refine ⟨t, flush1_3 t, ?_⟩
  rw [lin_mem_blk1]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 128 ≤ (i 1).val ∧ (i 1).val < win1_3.index t (1 : Fin 2) * 128 + 128
    rw [e7]; omega

/-- The output array after the region is the dense layer of the whole input array as the region finds it. -/
theorem final1 (V : (c : Dev nD) → (b : Ref sig .tc) → Buf (Elt Ideal) ((c : Thread nD τ).loc b)) (c : Dev nD) :
    (Gen.dat1 (F := Ideal) V c).arrAt 3 cfg1.N
      = Cert.GGNN.linA (V c main_v1) (V c main_arg8) (Cert.GGNN.vec1 (V c main_v2)) :=
  (dat1 (F := Ideal) V c).arrAt_eq_of_cover 3 (lin_G1 V c) (fun t _ => lin_flushed1 V c t) lin_cover1

end Cert.KernelIdeal.RegionValue

end
-- ==== Proof.KLin3.lean ====
/-
  Dense-layer region 3: the output array after all fifty tiles is the dense layer of the whole input array.

  Tile t of the grid reads rows 2000·t … 2000·t + 1999 of the input array, the whole weight matrix and the whole bias
  row, and writes back the same rows of the output array.  Entry (p, c) of what it writes is the dense layer of row
  p of its block, which is row 2000·t + p of the input array; a dense layer is a function of one row, so the tile is
  exactly those rows of the dense layer of the whole array.  The fifty tiles of 2000 rows cover all 100000 rows — row
  r lies in tile r / 2000 — so the output array ends holding the dense layer of the whole array.
-/
import proofs.«141311_j58110907515590_1_alg».proof.Proof.Gen.KernelIdeal.Frame
import proofs.«141311_j58110907515590_1_alg».proof.Proof.Spec
import proofs.«141311_j58110907515590_1_alg».proof.Proof.KLinPay
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin_zero_off3 : (![0, 0] : Fin 2 → Nat) = fun _ => 0 := funext fun a => by fin_cases a <;> rfl

/-- The block index of each window at tile t: the input and the output move with the tile along the rows; the weights
    and the bias have one block. -/
theorem lin_idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The dense layer of the whole input array as the region finds it. -/
abbrev lin_G3 (c : Dev nD) : S100000x128.Idx → EReal :=
  Cert.GGNN.linA (V c main_v16 : S100000x128.Idx → EReal) (V c main_arg14 : S128x128.Idx → EReal)
    (Cert.GGNN.vec1 (V c main_v17 : S1x128.Idx → EReal))

/-- The input block of tile t at (p, q) is the input array at row 2000·t + p. -/
theorem lin_blk3_0 (c : Dev nD) (t : Fin cfg3.N) (p : Fin 2000) (q : Fin 128) (k : S100000x128.Idx)
    (hk0 : (k 0).val = 2000 * t.val + p.val) (hk1 : (k 1).val = q.val) :
    (iblk3 V c 0 t : Vec Ideal S2000x128 .f32) (ix2 p q) = (V c main_v16 : S100000x128.Idx → EReal) k := by
  obtain ⟨e0, e1, -⟩ := lin_idx3 t
  unfold iblk3
  rw [View.read_apply]
  show V c main_v16 _ = V c main_v16 _
  congr 1
  funext a
  apply Fin.ext
  match a with
  | ⟨0, _⟩ => show win3_0.index t (0 : Fin 2) * 2000 + 1 * p.val = (k 0).val; rw [e0, hk0]; omega
  | ⟨1, _⟩ => show win3_0.index t (1 : Fin 2) * 128 + 1 * q.val = (k 1).val; rw [e1, hk1]; omega

/-- The weight block of every tile is the weight matrix. -/
theorem lin_blk3_1 (c : Dev nD) (t : Fin cfg3.N) (j : Fin 128) (q : Fin 128) :
    (iblk3 V c 1 t : Vec Ideal S128x128 .f32) (ix2 j q) = (V c main_arg14 : S128x128.Idx → EReal) (ix2 j q) := by
  obtain ⟨-, -, e2, e3, -⟩ := lin_idx3 t
  unfold iblk3
  rw [View.read_apply]
  show V c main_arg14 _ = V c main_arg14 _
  congr 1
  funext a
  apply Fin.ext
  match a with
  | ⟨0, _⟩ => show win3_1.index t (0 : Fin 2) * 128 + 1 * j.val = j.val; rw [e2]; omega
  | ⟨1, _⟩ => show win3_1.index t (1 : Fin 2) * 128 + 1 * q.val = q.val; rw [e3]; omega

/-- The bias block of every tile is the bias row. -/
theorem lin_blk3_2 (c : Dev nD) (t : Fin cfg3.N) (j : Fin 128) :
    (iblk3 V c 2 t : Vec Ideal S1x128 .f32) (ix2 (0 : Fin 1) j) = (V c main_v17 : S1x128.Idx → EReal) (ix2 (0 : Fin 1) j) := by
  obtain ⟨-, -, -, -, e4, e5, -⟩ := lin_idx3 t
  unfold iblk3
  rw [View.read_apply]
  show V c main_v17 _ = V c main_v17 _
  congr 1
  funext a
  apply Fin.ext
  match a with
  | ⟨0, _⟩ => show win3_2.index t (0 : Fin 2) * 1 + 1 * (0 : Fin 1).val = (0 : Fin 1).val; rw [e4]; omega
  | ⟨1, _⟩ => show win3_2.index t (1 : Fin 2) * 128 + 1 * j.val = j.val; rw [e5]; omega

/-- What tile t writes back is block t of the dense layer of the whole input array. -/
theorem lin_flushed3 (c : Dev nD) (t : Fin cfg3.N) :
    (dat3 (F := Ideal) V c).flushed 3 t = ((cfg3.win 3).blk t).view.read (Elt Ideal) (lin_G3 V c) := by
  show (cfg3.win 3).cut (grid3.coords t) ((dat3 (F := Ideal) V c).after 3 t) = _
  rw [after3_3]
  unfold out3_3
  rw [View.canon_unit_zero lin_zero_off3]
  simp only [View.ld_unit_zero (S := S2000x128) lin_zero_off3, View.ld_unit_zero (S := S128x128) lin_zero_off3,
    View.ld_unit_zero (S := S1x128) lin_zero_off3]
  obtain ⟨-, -, -, -, -, -, e6, e7⟩ := lin_idx3 t
  have hN : grid3.N = 50 := N_3
  have ht : t.val < 50 := lt_of_lt_of_eq t.isLt hN
  funext j
  obtain ⟨p, q, rfl⟩ : ∃ (p : Fin 2000) (q : Fin 128), j = ix2 p q := ⟨j 0, j 1, eq_ix2 j⟩
  have hp : p.val < 2000 := p.isLt
  have he : ((cfg3.win 3).blk t).view.emb (ix2 p q) = ix2 (⟨2000 * t.val + p.val, by omega⟩ : Fin 100000) q := by
    funext a
    apply Fin.ext
    match a with
    | ⟨0, _⟩ => show win3_3.index t (0 : Fin 2) * 2000 + 1 * p.val = 2000 * t.val + p.val; rw [e6]; omega
    | ⟨1, _⟩ => show win3_3.index t (1 : Fin 2) * 128 + 1 * q.val = q.val; rw [e7]; omega
  show k3_pay1 (F := Ideal) (iblk3 V c 0 t) (iblk3 V c 1 t) (iblk3 V c 2 t) (ix2 p q)
    = lin_G3 V c (((cfg3.win 3).blk t).view.emb (ix2 p q))
  refine (lin_pay3_apply _ _ _ p q).trans ?_
  refine Eq.trans ?_ (congrArg (lin_G3 V c) he).symm
  refine Eq.trans ?_ (Cert.GGNN.ofRows_apply _ _ _).symm
  unfold Cert.GGNN.affine
  refine congrArg₂ (· + ·) (Finset.sum_congr rfl fun r _ => congrArg₂ (· * ·) ?_ ?_) ?_
  · exact lin_blk3_0 V c t p r _ rfl rfl
  · exact lin_blk3_1 V c t q r
  · exact lin_blk3_2 V c t q

/-- An index of the output array is in tile t's block iff each coordinate is in the block's range on its axis. -/
theorem lin_mem_blk3 (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v18).slice (win3_3.rect t)).set ↔ _
  rw [View.set_slice_whole, Rect.mem_set_unit]
  exact Iff.rfl

/-- Every index of the output array is in some tile's block: row r is in tile r / 2000. -/
theorem lin_cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 50 := N_3
  obtain ⟨t, ht⟩ : ∃ t : Fin cfg3.N, t.val = (i 0).val / 2000 :=
    ⟨⟨(i 0).val / 2000, by show _ < grid3.N; rw [hN]; omega⟩, rfl⟩
  obtain ⟨-, -, -, -, -, -, e6, e7⟩ := lin_idx3 t
  refine ⟨t, flush3_3 t, ?_⟩
  rw [lin_mem_blk3]
  intro a
  match a with
  | ⟨0, _⟩ =>
    show win3_3.index t (0 : Fin 2) * 2000 ≤ (i 0).val ∧ (i 0).val < win3_3.index t (0 : Fin 2) * 2000 + 2000
    rw [e6, ht]; omega
  | ⟨1, _⟩ =>
    show win3_3.index t (1 : Fin 2) * 128 ≤ (i 1).val ∧ (i 1).val < win3_3.index t (1 : Fin 2) * 128 + 128
    rw [e7]; omega

/-- The output array after the region is the dense layer of the whole input array as the region finds it. -/
theorem final3 (V : (c : Dev nD) → (b : Ref sig .tc) → Buf (Elt Ideal) ((c : Thread nD τ).loc b)) (c : Dev nD) :
    (Gen.dat3 (F := Ideal) V c).arrAt 3 cfg3.N
      = Cert.GGNN.linA (V c main_v16) (V c main_arg14) (Cert.GGNN.vec1 (V c main_v17)) :=
  (dat3 (F := Ideal) V c).arrAt_eq_of_cover 3 (lin_G3 V c) (fun t _ => lin_flushed3 V c t) lin_cover3

end Cert.KernelIdeal.RegionValue

end
-- ==== Proof.KGruPay.lean ====
/-
  The gated cell's arithmetic read at one entry.

  A tile of 2000 rows goes through two dense layers of width 384 (each a product with the transposed weights plus the
  bias row), the 384 outputs are cut in three thirds of 128, and entry (p, c) of the result depends only on row p of the
  two inputs: it is the cell of the row's two dense layers at column c.  The lemmas here read, at an entry, the pieces
  of a dense layer (a matrix-unit product of the tile with the transposed weights into the zero accumulator; the
  broadcast bias row), a third of a 384-wide tile, and the three transcendental maps; they are stated over arbitrary
  tiles.
-/
import Idealize.ShloMosaic.Lib.Pipeline.Value
import Idealize.ShloMosaic.Lib.ValueLayout
import proofs.«141311_j58110907515590_1_alg».proof.Proof.Spec
import proofs.«141311_j58110907515590_1_alg».proof.Proof.LibPlainDot
import proofs.«141311_j58110907515590_1_alg».proof.Proof.LibRowReduce

noncomputable section

open scoped BigOperators

namespace Cert.KernelIdeal.RegionValue

open Idealize.ShloMosaic Idealize.ShloMosaic.ValueIdx Cert.GGNN

/-- The product of a 2000-row tile with the transposed [384, 128] weights, at entry (p, j): the tile's row p against
    row j of the weights.  Narrowing the operands' format changes nothing over the extended reals. -/
theorem mm_apply (D : DotDims ⟨2, ![2000, 128]⟩ ⟨2, ![128, 384]⟩ ⟨2, ![2000, 384]⟩) (hD : D = DotDims.plain 2000 128 384)
    (x : FVec Ideal ⟨2, ![2000, 128]⟩ .f32) (W : FVec Ideal ⟨2, ![384, 128]⟩ .f32)
    (hb hb' : FTy.bits .bf16 < FTy.bits .f32)
    (ht : (⟨2, ![384, 128]⟩ : Shape).Transposes [1, 0] ⟨2, ![128, 384]⟩) (p : Fin 2000) (j : Fin 384) :
    FloatOps.matmul D none (truncf .bf16 x hb) (transpose ⟨2, ![128, 384]⟩ [1, 0] (truncf .bf16 W hb') ht)
        (constant (F := Ideal) ⟨2, ![2000, 384]⟩ .f32 0x00000000#32) (ix2 p j)
      = ∑ q : Fin 128, x (ix2 p q) * W (ix2 j q) := by
  rw [Cert.LibPlainDot.matmul_zero_apply D hD]
  refine Finset.sum_congr rfl fun q _ => ?_
  rw [truncf_apply, Cert.LibRowReduce.transpose_swap_apply, truncf_apply]

/-- The bias row broadcast down the tile, at entry (p, j): the bias at j. -/
theorem bias_apply (b : (⟨2, ![1, 384]⟩ : Shape).Idx → EReal)
    (hbr : (⟨2, ![1, 384]⟩ : Shape).Broadcasts ⟨2, ![2000, 384]⟩) (p : Fin 2000) (j : Fin 384) :
    broadcastTo ⟨2, ![2000, 384]⟩ b hbr (ix2 p j) = b (ix2 (0 : Fin 1) j) :=
  broadcastTo_1b_ab_apply b hbr p j

/-- The j-th third of a 384-wide tile at entry (p, c) is the tile at column 128·j + c. -/
theorem third_apply {α : Type} (v : (⟨2, ![2000, 384]⟩ : Shape).Idx → α) (o : ℕ) (j : Fin 3) (ho : o = 128 * j.val)
    (h : (⟨2, ![2000, 384]⟩ : Shape).Slices ![0, o] ⟨2, ![2000, 128]⟩) (p : Fin 2000) (c : Fin 128) :
    extractStridedSlice ⟨2, ![2000, 128]⟩ ![0, o] v h (ix2 p c) = v (ix2 p (third j c)) := by
  refine extractStridedSlice_apply _ v h (ix2 p c) (ix2 p (third j c)) fun a => ?_
  match a with
  | ⟨0, _⟩ => show p.val = 0 + p.val; omega
  | ⟨1, _⟩ => show 128 * j.val + c.val = o + c.val; omega

theorem third0_apply {α : Type} (v : (⟨2, ![2000, 384]⟩ : Shape).Idx → α)
    (h : (⟨2, ![2000, 384]⟩ : Shape).Slices ![0, 0] ⟨2, ![2000, 128]⟩) (p : Fin 2000) (c : Fin 128) :
    extractStridedSlice ⟨2, ![2000, 128]⟩ ![0, 0] v h (ix2 p c) = v (ix2 p (third 0 c)) := third_apply v 0 0 rfl h p c
theorem third1_apply {α : Type} (v : (⟨2, ![2000, 384]⟩ : Shape).Idx → α)
    (h : (⟨2, ![2000, 384]⟩ : Shape).Slices ![0, 128] ⟨2, ![2000, 128]⟩) (p : Fin 2000) (c : Fin 128) :
    extractStridedSlice ⟨2, ![2000, 128]⟩ ![0, 128] v h (ix2 p c) = v (ix2 p (third 1 c)) := third_apply v 128 1 rfl h p c
theorem third2_apply {α : Type} (v : (⟨2, ![2000, 384]⟩ : Shape).Idx → α)
    (h : (⟨2, ![2000, 384]⟩ : Shape).Slices ![0, 256] ⟨2, ![2000, 128]⟩) (p : Fin 2000) (c : Fin 128) :
    extractStridedSlice ⟨2, ![2000, 128]⟩ ![0, 256] v h (ix2 p c) = v (ix2 p (third 2 c)) := third_apply v 256 2 rfl h p c

variable {s : Shape} {φ : FTy}

/-- The logistic, tanh and exponential maps act entry by entry. -/
theorem logistic_apply (a : FVec Ideal s φ) (i : s.Idx) : logistic a i = Ideal.logistic (a i) := rfl
theorem tanh_apply (a : FVec Ideal s φ) (i : s.Idx) : tanh a i = Ideal.tanh (a i) := rfl
theorem exp_apply (a : FVec Ideal s φ) (i : s.Idx) : exp a i = Ideal.exp (a i) := rfl

end Cert.KernelIdeal.RegionValue

end
-- ==== Proof.KGru2.lean ====
/-
  The first gated layer's kernel region, as one function of the arrays it finds.

  The region runs over 50 grid points; point t loads rows 2000·t … 2000·t + 1999 of the messages and of the states and
  the whole of the two weight matrices and the two bias rows, and writes back the same rows of the result.  Entry (p, c)
  of the tile it stores is the gated cell of row p of the two input tiles, through elu; row p of a tile is row
  2000·t + p of its array, and the 50 tiles cover the 100000 rows.  So the result array is, row by row, the gated layer
  of the messages' and the states' rows.
-/
import proofs.«141311_j58110907515590_1_alg».proof.Proof.Gen.KernelIdeal.Frame
import Idealize.ShloMosaic.Lib.Pipeline.Value
import proofs.«141311_j58110907515590_1_alg».proof.Proof.KGruPay

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Cert.GGNN
open Idealize.ShloMosaic.Pipeline (Dat)

/-- The printed dimension numbers of the tile-by-weights product are the plain ones. -/
theorem dot384_plain2 : dot_S2000x128_S128x384_S2000x384_1_0_0_1_n_n = DotDims.plain 2000 128 384 := rfl

/-- The cell before elu, at entry (p, c) of the tile. -/
theorem pre2_apply (x0 x1 : Vec Ideal S2000x128 .f32) (x2 x4 : Vec Ideal S384x128 .f32) (x3 x5 : Vec Ideal S1x384 .f32)
    (p : Fin 2000) (c : Fin 128) :
    Gen.k2_pay2 x0 x1 x2 x4 x3 x5 (ix2 p c)
      = cell (affine (row x0 p) (mat x2) (vec1 x3)) (affine (row x1 p) (mat x4) (vec1 x5)) (row x1 p) c := by
  unfold Gen.k2_pay2
  simp only [shapeCast_self, addf_apply, mulf_apply, subf_apply, broadcast_apply, logistic_apply, tanh_apply,
    third0_apply, third1_apply, third2_apply, mm_apply _ dot384_plain2, bias_apply]
  rfl

/-- The stored tile at entry (p, c): the gated cell of row p of the two input tiles, through elu. -/
theorem pay2_apply (x0 x1 : Vec Ideal S2000x128 .f32) (x2 x4 : Vec Ideal S384x128 .f32) (x3 x5 : Vec Ideal S1x384 .f32)
    (p : Fin 2000) (c : Fin 128) :
    Gen.k2_pay1 (Gen.k2_pay2 x0 x1 x2 x4 x3 x5) (Gen.k2_pay3 x0 x1 x2 x4 x3 x5) (Gen.k2_pay4 x0 x1 x2 x4 x3 x5) (ix2 p c)
      = gruRow (row x0 p) (row x1 p) (mat x2) (vec1 x3) (mat x4) (vec1 x5) c := by
  unfold Gen.k2_pay1 Gen.k2_pay3 Gen.k2_pay4
  simp only [select_apply, cmpf_apply, subf_apply, broadcast_apply, exp_apply, pre2_apply]
  rfl

theorem hz2 : (![0, 0] : Fin 2 → Nat) = fun _ => 0 := funext fun a => by fin_cases a <;> rfl

/-- The index maps over the grid: the row windows (messages, states, result) are at block t, the weights and biases
    at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- The messages' tile at point t is rows 2000·t … of the messages. -/
theorem blk2_0_apply (c : Dev nD) (t : Fin cfg2.N) (p : Fin 2000) (q : Fin 128) (r : Fin 100000)
    (hr : r.val = 2000 * t.val + p.val) :
    (iblk2 V c 0 t : Vec Ideal S2000x128 .f32) (ix2 p q) = (V c main_v13 : S100000x128.Idx → EReal) (ix2 r q) := by
  obtain ⟨e0, e1, -⟩ := idx_facts2 t
  unfold iblk2
  rw [View.read_apply]
  show V c main_v13 _ = V c main_v13 _
  refine congrArg (V c main_v13) (funext fun a => Fin.ext ?_)
  match a with
  | ⟨0, _⟩ => show win2_0.index t (0 : Fin 2) * 2000 + 1 * p.val = r.val; omega
  | ⟨1, _⟩ => show win2_0.index t (1 : Fin 2) * 128 + 1 * q.val = q.val; omega

/-- The states' tile at point t is rows 2000·t … of the states. -/
theorem blk2_1_apply (c : Dev nD) (t : Fin cfg2.N) (p : Fin 2000) (q : Fin 128) (r : Fin 100000)
    (hr : r.val = 2000 * t.val + p.val) :
    (iblk2 V c 1 t : Vec Ideal S2000x128 .f32) (ix2 p q) = (V c main_v1 : S100000x128.Idx → EReal) (ix2 r q) := by
  obtain ⟨-, -, e0, e1, -⟩ := idx_facts2 t
  unfold iblk2
  rw [View.read_apply]
  show V c main_v1 _ = V c main_v1 _
  refine congrArg (V c main_v1) (funext fun a => Fin.ext ?_)
  match a with
  | ⟨0, _⟩ => show win2_1.index t (0 : Fin 2) * 2000 + 1 * p.val = r.val; omega
  | ⟨1, _⟩ => show win2_1.index t (1 : Fin 2) * 128 + 1 * q.val = q.val; omega

/-- The weights' and the biases' one block is the whole array. -/
theorem blk2_2_eq (c : Dev nD) (t : Fin cfg2.N) : (iblk2 V c 2 t : Vec Ideal S384x128 .f32) = V c main_arg10 := by
  obtain ⟨-, -, -, -, e0, e1, -⟩ := idx_facts2 t
  funext y
  unfold iblk2
  rw [View.read_apply]
  show V c main_arg10 _ = V c main_arg10 _
  refine congrArg (V c main_arg10) (funext fun a => Fin.ext ?_)
  match a with
  | ⟨0, _⟩ => show win2_2.index t (0 : Fin 2) * 384 + 1 * (y 0).val = (y 0).val; omega
  | ⟨1, _⟩ => show win2_2.index t (1 : Fin 2) * 128 + 1 * (y 1).val = (y 1).val; omega

theorem blk2_3_eq (c : Dev nD) (t : Fin cfg2.N) : (iblk2 V c 3 t : Vec Ideal S1x384 .f32) = V c main_v14 := by
  obtain ⟨-, -, -, -, -, -, e0, e1, -⟩ := idx_facts2 t
  funext y
  unfold iblk2
  rw [View.read_apply]
  show V c main_v14 _ = V c main_v14 _
  refine congrArg (V c main_v14) (funext fun a => Fin.ext ?_)
  match a with
  | ⟨0, _⟩ => show win2_3.index t (0 : Fin 2) * 1 + 1 * (y 0).val = (y 0).val; omega
  | ⟨1, _⟩ => show win2_3.index t (1 : Fin 2) * 384 + 1 * (y 1).val = (y 1).val; omega

theorem blk2_4_eq (c : Dev nD) (t : Fin cfg2.N) : (iblk2 V c 4 t : Vec Ideal S384x128 .f32) = V c main_arg12 := by
  obtain ⟨-, -, -, -, -, -, -, -, e0, e1, -⟩ := idx_facts2 t
  funext y
  unfold iblk2
  rw [View.read_apply]
  show V c main_arg12 _ = V c main_arg12 _
  refine congrArg (V c main_arg12) (funext fun a => Fin.ext ?_)
  match a with
  | ⟨0, _⟩ => show win2_4.index t (0 : Fin 2) * 384 + 1 * (y 0).val = (y 0).val; omega
  | ⟨1, _⟩ => show win2_4.index t (1 : Fin 2) * 128 + 1 * (y 1).val = (y 1).val; omega

theorem blk2_5_eq (c : Dev nD) (t : Fin cfg2.N) : (iblk2 V c 5 t : Vec Ideal S1x384 .f32) = V c main_v15 := by
  obtain ⟨-, -, -, -, -, -, -, -, -, -, e0, e1, -⟩ := idx_facts2 t
  funext y
  unfold iblk2
  rw [View.read_apply]
  show V c main_v15 _ = V c main_v15 _
  refine congrArg (V c main_v15) (funext fun a => Fin.ext ?_)
  match a with
  | ⟨0, _⟩ => show win2_5.index t (0 : Fin 2) * 1 + 1 * (y 0).val = (y 0).val; omega
  | ⟨1, _⟩ => show win2_5.index t (1 : Fin 2) * 384 + 1 * (y 1).val = (y 1).val; omega

/-- What point t writes back is block t of the gated layer of the arrays the region finds. -/
theorem flushed2_eq (c : Dev nD) (t : Fin cfg2.N) :
    (Gen.dat2 (F := Ideal) V c).flushed 6 t
      = ((cfg2.win 6).blk t).view.read (Elt Ideal) (Cert.GGNN.gruA (V c main_v13) (V c main_v1) (V c main_arg10) (Cert.GGNN.vec1 (V c main_v14)) (V c main_arg12) (Cert.GGNN.vec1 (V c main_v15))) := by
  show (cfg2.win 6).cut (grid2.coords t) ((Gen.dat2 (F := Ideal) V c).after 6 t) = _
  rw [after2_6]
  unfold out2_6
  rw [View.canon_unit_zero hz2]
  simp only [View.ld_unit_zero (S := S2000x128) hz2, View.ld_unit_zero (S := S384x128) hz2, View.ld_unit_zero (S := S1x384) hz2]
  have hN : cfg2.N = 50 := N_2
  obtain ⟨-, -, -, -, -, -, -, -, -, -, -, -, e0, e1⟩ := idx_facts2 t
  funext j
  obtain ⟨p, q, rfl⟩ : ∃ (p : Fin 2000) (q : Fin 128), j = ix2 p q := ⟨j 0, j 1, eq_ix2 j⟩
  have ht : t.val < 50 := hN ▸ t.isLt
  have hr : 2000 * t.val + p.val < 100000 := by have := p.isLt; omega
  refine (pay2_apply (iblk2 V c 0 t) (iblk2 V c 1 t) (iblk2 V c 2 t) (iblk2 V c 4 t) (iblk2 V c 3 t) (iblk2 V c 5 t) p q).trans ?_
  have hemb : ((cfg2.win 6).blk t).view.emb (ix2 p q) = (ix2 (⟨2000 * t.val + p.val, hr⟩ : Fin 100000) q : S100000x128.Idx) := by
    funext a; apply Fin.ext
    match a with
    | ⟨0, _⟩ => show win2_6.index t (0 : Fin 2) * 2000 + 1 * p.val = 2000 * t.val + p.val; omega
    | ⟨1, _⟩ => show win2_6.index t (1 : Fin 2) * 128 + 1 * q.val = q.val; omega
  rw [View.read_apply, hemb]
  unfold Cert.GGNN.gruA
  rw [ofRows_apply]
  have h0 : row (iblk2 V c 0 t : Vec Ideal S2000x128 .f32) p = row (V c main_v13 : S100000x128.Idx → EReal) ⟨2000 * t.val + p.val, hr⟩ :=
    funext fun q' => blk2_0_apply V c t p q' _ rfl
  have h1 : row (iblk2 V c 1 t : Vec Ideal S2000x128 .f32) p = row (V c main_v1 : S100000x128.Idx → EReal) ⟨2000 * t.val + p.val, hr⟩ :=
    funext fun q' => blk2_1_apply V c t p q' _ rfl
  rw [h0, h1, blk2_2_eq V c t, blk2_3_eq V c t, blk2_4_eq V c t, blk2_5_eq V c t]
  rfl

/-- An index of the result array is in point t's block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v16).slice (win2_6.rect t)).set ↔ _
  rw [View.set_slice_whole, Rect.mem_set_unit]
  exact Iff.rfl

/-- Every row is in some point's block: row r in that of point r / 2000. -/
theorem cover2 (i : S100000x128.Idx) :
    ∃ t : Fin cfg2.N, (cfg2.win 6).flush t = true ∧ i ∈ ((cfg2.win 6).blk t).view.set := by
  have hN : cfg2.N = 50 := N_2
  have hi0 : (i 0).val < 100000 := (i 0).isLt
  have hi1 : (i 1).val < 128 := (i 1).isLt
  let t : Fin cfg2.N := ⟨(i 0).val / 2000, by rw [hN]; omega⟩
  have htv : t.val = (i 0).val / 2000 := rfl
  obtain ⟨-, -, -, -, -, -, -, -, -, -, -, -, e0, e1⟩ := idx_facts2 t
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The result array after the region: the gated layer of the messages and the states it found. -/
theorem final2 (V : (c : Dev nD) → (b : Ref sig .tc) → Buf (Elt Ideal) ((c : Thread nD τ).loc b)) (c : Dev nD) :
    (Gen.dat2 (F := Ideal) V c).arrAt 6 cfg2.N = Cert.GGNN.gruA (V c main_v13) (V c main_v1) (V c main_arg10) (Cert.GGNN.vec1 (V c main_v14)) (V c main_arg12) (Cert.GGNN.vec1 (V c main_v15)) :=
  (Gen.dat2 (F := Ideal) V c).arrAt_eq_of_cover 6 (Cert.GGNN.gruA (V c main_v13) (V c main_v1) (V c main_arg10) (Cert.GGNN.vec1 (V c main_v14)) (V c main_arg12) (Cert.GGNN.vec1 (V c main_v15)))
    (fun t _ => flushed2_eq V c t) cover2

end Cert.KernelIdeal.RegionValue

end
-- ==== Proof.KGru4.lean ====
/-
  The second gated layer's kernel region, as one function of the arrays it finds.

  The region runs over 50 grid points; point t loads rows 2000·t … 2000·t + 1999 of the messages and of the states and
  the whole of the two weight matrices and the two bias rows, and writes back the same rows of the result.  Entry (p, c)
  of the tile it stores is the gated cell of row p of the two input tiles, through elu; row p of a tile is row
  2000·t + p of its array, and the 50 tiles cover the 100000 rows.  So the result array is, row by row, the gated layer
  of the messages' and the states' rows.
-/
import proofs.«141311_j58110907515590_1_alg».proof.Proof.Gen.KernelIdeal.Frame
import Idealize.ShloMosaic.Lib.Pipeline.Value
import proofs.«141311_j58110907515590_1_alg».proof.Proof.KGruPay

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Cert.GGNN
open Idealize.ShloMosaic.Pipeline (Dat)

/-- The printed dimension numbers of the tile-by-weights product are the plain ones. -/
theorem dot384_plain4 : dot_S2000x128_S128x384_S2000x384_1_0_0_1_n_n = DotDims.plain 2000 128 384 := rfl

/-- The cell before elu, at entry (p, c) of the tile. -/
theorem pre4_apply (x0 x1 : Vec Ideal S2000x128 .f32) (x2 x4 : Vec Ideal S384x128 .f32) (x3 x5 : Vec Ideal S1x384 .f32)
    (p : Fin 2000) (c : Fin 128) :
    Gen.k4_pay2 x0 x1 x2 x4 x3 x5 (ix2 p c)
      = cell (affine (row x0 p) (mat x2) (vec1 x3)) (affine (row x1 p) (mat x4) (vec1 x5)) (row x1 p) c := by
  unfold Gen.k4_pay2
  simp only [shapeCast_self, addf_apply, mulf_apply, subf_apply, broadcast_apply, logistic_apply, tanh_apply,
    third0_apply, third1_apply, third2_apply, mm_apply _ dot384_plain4, bias_apply]
  rfl

/-- The stored tile at entry (p, c): the gated cell of row p of the two input tiles, through elu. -/
theorem pay4_apply (x0 x1 : Vec Ideal S2000x128 .f32) (x2 x4 : Vec Ideal S384x128 .f32) (x3 x5 : Vec Ideal S1x384 .f32)
    (p : Fin 2000) (c : Fin 128) :
    Gen.k4_pay1 (Gen.k4_pay2 x0 x1 x2 x4 x3 x5) (Gen.k4_pay3 x0 x1 x2 x4 x3 x5) (Gen.k4_pay4 x0 x1 x2 x4 x3 x5) (ix2 p c)
      = gruRow (row x0 p) (row x1 p) (mat x2) (vec1 x3) (mat x4) (vec1 x5) c := by
  unfold Gen.k4_pay1 Gen.k4_pay3 Gen.k4_pay4
  simp only [select_apply, cmpf_apply, subf_apply, broadcast_apply, exp_apply, pre4_apply]
  rfl

theorem hz4 : (![0, 0] : Fin 2 → Nat) = fun _ => 0 := funext fun a => by fin_cases a <;> rfl

/-- The index maps over the grid: the row windows (messages, states, result) are at block t, the weights and biases
    at block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b))

/-- The messages' tile at point t is rows 2000·t … of the messages. -/
theorem blk4_0_apply (c : Dev nD) (t : Fin cfg4.N) (p : Fin 2000) (q : Fin 128) (r : Fin 100000)
    (hr : r.val = 2000 * t.val + p.val) :
    (iblk4 V c 0 t : Vec Ideal S2000x128 .f32) (ix2 p q) = (V c main_v28 : S100000x128.Idx → EReal) (ix2 r q) := by
  obtain ⟨e0, e1, -⟩ := idx_facts4 t
  unfold iblk4
  rw [View.read_apply]
  show V c main_v28 _ = V c main_v28 _
  refine congrArg (V c main_v28) (funext fun a => Fin.ext ?_)
  match a with
  | ⟨0, _⟩ => show win4_0.index t (0 : Fin 2) * 2000 + 1 * p.val = r.val; omega
  | ⟨1, _⟩ => show win4_0.index t (1 : Fin 2) * 128 + 1 * q.val = q.val; omega

/-- The states' tile at point t is rows 2000·t … of the states. -/
theorem blk4_1_apply (c : Dev nD) (t : Fin cfg4.N) (p : Fin 2000) (q : Fin 128) (r : Fin 100000)
    (hr : r.val = 2000 * t.val + p.val) :
    (iblk4 V c 1 t : Vec Ideal S2000x128 .f32) (ix2 p q) = (V c main_v16 : S100000x128.Idx → EReal) (ix2 r q) := by
  obtain ⟨-, -, e0, e1, -⟩ := idx_facts4 t
  unfold iblk4
  rw [View.read_apply]
  show V c main_v16 _ = V c main_v16 _
  refine congrArg (V c main_v16) (funext fun a => Fin.ext ?_)
  match a with
  | ⟨0, _⟩ => show win4_1.index t (0 : Fin 2) * 2000 + 1 * p.val = r.val; omega
  | ⟨1, _⟩ => show win4_1.index t (1 : Fin 2) * 128 + 1 * q.val = q.val; omega

/-- The weights' and the biases' one block is the whole array. -/
theorem blk4_2_eq (c : Dev nD) (t : Fin cfg4.N) : (iblk4 V c 2 t : Vec Ideal S384x128 .f32) = V c main_arg16 := by
  obtain ⟨-, -, -, -, e0, e1, -⟩ := idx_facts4 t
  funext y
  unfold iblk4
  rw [View.read_apply]
  show V c main_arg16 _ = V c main_arg16 _
  refine congrArg (V c main_arg16) (funext fun a => Fin.ext ?_)
  match a with
  | ⟨0, _⟩ => show win4_2.index t (0 : Fin 2) * 384 + 1 * (y 0).val = (y 0).val; omega
  | ⟨1, _⟩ => show win4_2.index t (1 : Fin 2) * 128 + 1 * (y 1).val = (y 1).val; omega

theorem blk4_3_eq (c : Dev nD) (t : Fin cfg4.N) : (iblk4 V c 3 t : Vec Ideal S1x384 .f32) = V c main_v29 := by
  obtain ⟨-, -, -, -, -, -, e0, e1, -⟩ := idx_facts4 t
  funext y
  unfold iblk4
  rw [View.read_apply]
  show V c main_v29 _ = V c main_v29 _
  refine congrArg (V c main_v29) (funext fun a => Fin.ext ?_)
  match a with
  | ⟨0, _⟩ => show win4_3.index t (0 : Fin 2) * 1 + 1 * (y 0).val = (y 0).val; omega
  | ⟨1, _⟩ => show win4_3.index t (1 : Fin 2) * 384 + 1 * (y 1).val = (y 1).val; omega

theorem blk4_4_eq (c : Dev nD) (t : Fin cfg4.N) : (iblk4 V c 4 t : Vec Ideal S384x128 .f32) = V c main_arg18 := by
  obtain ⟨-, -, -, -, -, -, -, -, e0, e1, -⟩ := idx_facts4 t
  funext y
  unfold iblk4
  rw [View.read_apply]
  show V c main_arg18 _ = V c main_arg18 _
  refine congrArg (V c main_arg18) (funext fun a => Fin.ext ?_)
  match a with
  | ⟨0, _⟩ => show win4_4.index t (0 : Fin 2) * 384 + 1 * (y 0).val = (y 0).val; omega
  | ⟨1, _⟩ => show win4_4.index t (1 : Fin 2) * 128 + 1 * (y 1).val = (y 1).val; omega

theorem blk4_5_eq (c : Dev nD) (t : Fin cfg4.N) : (iblk4 V c 5 t : Vec Ideal S1x384 .f32) = V c main_v30 := by
  obtain ⟨-, -, -, -, -, -, -, -, -, -, e0, e1, -⟩ := idx_facts4 t
  funext y
  unfold iblk4
  rw [View.read_apply]
  show V c main_v30 _ = V c main_v30 _
  refine congrArg (V c main_v30) (funext fun a => Fin.ext ?_)
  match a with
  | ⟨0, _⟩ => show win4_5.index t (0 : Fin 2) * 1 + 1 * (y 0).val = (y 0).val; omega
  | ⟨1, _⟩ => show win4_5.index t (1 : Fin 2) * 384 + 1 * (y 1).val = (y 1).val; omega

/-- What point t writes back is block t of the gated layer of the arrays the region finds. -/
theorem flushed4_eq (c : Dev nD) (t : Fin cfg4.N) :
    (Gen.dat4 (F := Ideal) V c).flushed 6 t
      = ((cfg4.win 6).blk t).view.read (Elt Ideal) (Cert.GGNN.gruA (V c main_v28) (V c main_v16) (V c main_arg16) (Cert.GGNN.vec1 (V c main_v29)) (V c main_arg18) (Cert.GGNN.vec1 (V c main_v30))) := by
  show (cfg4.win 6).cut (grid4.coords t) ((Gen.dat4 (F := Ideal) V c).after 6 t) = _
  rw [after4_6]
  unfold out4_6
  rw [View.canon_unit_zero hz4]
  simp only [View.ld_unit_zero (S := S2000x128) hz4, View.ld_unit_zero (S := S384x128) hz4, View.ld_unit_zero (S := S1x384) hz4]
  have hN : cfg4.N = 50 := N_4
  obtain ⟨-, -, -, -, -, -, -, -, -, -, -, -, e0, e1⟩ := idx_facts4 t
  funext j
  obtain ⟨p, q, rfl⟩ : ∃ (p : Fin 2000) (q : Fin 128), j = ix2 p q := ⟨j 0, j 1, eq_ix2 j⟩
  have ht : t.val < 50 := hN ▸ t.isLt
  have hr : 2000 * t.val + p.val < 100000 := by have := p.isLt; omega
  refine (pay4_apply (iblk4 V c 0 t) (iblk4 V c 1 t) (iblk4 V c 2 t) (iblk4 V c 4 t) (iblk4 V c 3 t) (iblk4 V c 5 t) p q).trans ?_
  have hemb : ((cfg4.win 6).blk t).view.emb (ix2 p q) = (ix2 (⟨2000 * t.val + p.val, hr⟩ : Fin 100000) q : S100000x128.Idx) := by
    funext a; apply Fin.ext
    match a with
    | ⟨0, _⟩ => show win4_6.index t (0 : Fin 2) * 2000 + 1 * p.val = 2000 * t.val + p.val; omega
    | ⟨1, _⟩ => show win4_6.index t (1 : Fin 2) * 128 + 1 * q.val = q.val; omega
  rw [View.read_apply, hemb]
  unfold Cert.GGNN.gruA
  rw [ofRows_apply]
  have h0 : row (iblk4 V c 0 t : Vec Ideal S2000x128 .f32) p = row (V c main_v28 : S100000x128.Idx → EReal) ⟨2000 * t.val + p.val, hr⟩ :=
    funext fun q' => blk4_0_apply V c t p q' _ rfl
  have h1 : row (iblk4 V c 1 t : Vec Ideal S2000x128 .f32) p = row (V c main_v16 : S100000x128.Idx → EReal) ⟨2000 * t.val + p.val, hr⟩ :=
    funext fun q' => blk4_1_apply V c t p q' _ rfl
  rw [h0, h1, blk4_2_eq V c t, blk4_3_eq V c t, blk4_4_eq V c t, blk4_5_eq V c t]
  rfl

/-- An index of the result array is in point t's block iff each coordinate is in the block's range on its axis. -/
theorem mem_blk4 (t : Fin cfg4.N) (i : S100000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v31).slice (win4_6.rect t)).set ↔ _
  rw [View.set_slice_whole, Rect.mem_set_unit]
  exact Iff.rfl

/-- Every row is in some point's block: row r in that of point r / 2000. -/
theorem cover4 (i : S100000x128.Idx) :
    ∃ t : Fin cfg4.N, (cfg4.win 6).flush t = true ∧ i ∈ ((cfg4.win 6).blk t).view.set := by
  have hN : cfg4.N = 50 := N_4
  have hi0 : (i 0).val < 100000 := (i 0).isLt
  have hi1 : (i 1).val < 128 := (i 1).isLt
  let t : Fin cfg4.N := ⟨(i 0).val / 2000, by rw [hN]; omega⟩
  have htv : t.val = (i 0).val / 2000 := rfl
  obtain ⟨-, -, -, -, -, -, -, -, -, -, -, -, e0, e1⟩ := idx_facts4 t
  refine ⟨t, flush4_6 t, ?_⟩
  rw [mem_blk4]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 128 ≤ (i 1).val ∧ (i 1).val < win4_6.index t (1 : Fin 2) * 128 + 128; omega

/-- The result array after the region: the gated layer of the messages and the states it found. -/
theorem final4 (V : (c : Dev nD) → (b : Ref sig .tc) → Buf (Elt Ideal) ((c : Thread nD τ).loc b)) (c : Dev nD) :
    (Gen.dat4 (F := Ideal) V c).arrAt 6 cfg4.N = Cert.GGNN.gruA (V c main_v28) (V c main_v16) (V c main_arg16) (Cert.GGNN.vec1 (V c main_v29)) (V c main_arg18) (Cert.GGNN.vec1 (V c main_v30)) :=
  (Gen.dat4 (F := Ideal) V c).arrAt_eq_of_cover 6 (Cert.GGNN.gruA (V c main_v28) (V c main_v16) (V c main_arg16) (Cert.GGNN.vec1 (V c main_v29)) (V c main_arg18) (Cert.GGNN.vec1 (V c main_v30)))
    (fun t _ => flushed4_eq V c t) cover4

end Cert.KernelIdeal.RegionValue

end
-- ==== Proof.LibKeepdims.lean ====
/-
  A vector turned into a column, and a column repeated along its rows.

  A length-a vector cast to an [a, 1] array holds at (i, u) the vector's entry i, whatever the unit coordinate u.  An
  [a, 1] column broadcast to an [a, b] array holds at (p, c) the column's entry (p, 0): the same number along each
  row.  Together they are how a reduction along a row (a maximum, a sum) is put back beside every entry of that row.
-/
import Idealize.ShloMosaic.Lib.Pipeline.Value
import Idealize.ShloMosaic.Lib.ValueIdx

namespace Cert.LibKeepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a, 1] array broadcast to [a, b] reads, at (p, c), the operand's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.KRead5Pay.lean ====
/-
  The read-out tile at an index.

  On a tile of 2000 rows the body forms the logits l = x · Wᵀ + b (the row of x against each row of W, plus the bias
  row), takes each row's maximum μ, and leaves (l c − μ) − log ∑ⱼ e^(l j − μ): the log-softmax of the row's dense
  layer.  Changing the float format is the identity over the extended reals, a cast of a shape to itself is the
  identity, the transpose of W read at (q, c) is W at (c, q), and a row's maximum or sum cast to a column and
  repeated along the row is that one number beside every entry of the row.
-/
import proofs.«141311_j58110907515590_1_alg».proof.Proof.Gen.KernelIdeal.Skeleton
import proofs.«141311_j58110907515590_1_alg».proof.Proof.Spec
import proofs.«141311_j58110907515590_1_alg».proof.Proof.LibKeepdims
import proofs.«141311_j58110907515590_1_alg».proof.Proof.LibRowReduce
import proofs.«141311_j58110907515590_1_alg».proof.Proof.LibPlainDot
import Idealize.ShloMosaic.Lib.ValueLayout

noncomputable section

open scoped BigOperators

namespace Cert.KernelIdeal.RegionValue

open Cert.KernelIdeal Cert.KernelIdeal.Gen Idealize.ShloMosaic Idealize.ShloMosaic.ValueIdx

/-- A row's number, cast to a column and repeated along the row, is that number at every entry of the row. -/
theorem keepRow_apply (r : FVec Ideal S2000 .f32) (hs : S2000.ShapeCasts S2000x1) (hb : S2000x1.Broadcasts S2000x40)
    (p : Fin 2000) (c : Fin 40) :
    broadcastTo S2000x40 (shapeCast S2000x1 r hs) hb (ix2 p c) = r (ix1 p) :=
  (Cert.LibKeepdims.broadcastTo_a1_ab_apply (shapeCast S2000x1 r hs) hb p c).trans
    (Cert.LibKeepdims.shapeCast_a_a1_apply r hs p 0)

/-- The same with the logarithm taken on the column. -/
theorem keepRowLog_apply (r : FVec Ideal S2000 .f32) (hs : S2000.ShapeCasts S2000x1) (hb : S2000x1.Broadcasts S2000x40)
    (p : Fin 2000) (c : Fin 40) :
    broadcastTo S2000x40 (log (shapeCast S2000x1 r hs)) hb (ix2 p c) = Ideal.log (r (ix1 p)) :=
  (Cert.LibKeepdims.broadcastTo_a1_ab_apply (log (shapeCast S2000x1 r hs)) hb p c).trans
    (congrArg Ideal.log (Cert.LibKeepdims.shapeCast_a_a1_apply r hs p 0))

/-- The maximum of row p of a tile of logits: the fold of max from minus infinity over the row. -/
theorem rowMax5_apply (l : FVec Ideal S2000x40 .f32) (h : S2000x40.Reduces [1] S2000) (hφ : FKind.Formats .f32)
    (hacc : (0xFF800000#32 : BitVec 32) = FKind.maximumf.neutral .f32 hφ) (p : Fin 2000) :
    multiReduction .maximumf [1] S2000 l 0xFF800000#32 h hφ hacc (ix1 p)
      = (Finset.univ : Finset (Fin 40)).fold max Cert.GGNN.wNegInf (fun k => l (ix2 p k)) :=
  Cert.LibRowReduce.rowMax_apply l 0xFF800000#32 h hφ hacc p

/-- The sum of row p of a tile. -/
theorem rowSum5_apply (e : FVec Ideal S2000x40 .f32) (h : S2000x40.Reduces [1] S2000) (hφ : FKind.Formats .f32)
    (hacc : (0x00000000#32 : BitVec 32) = FKind.add.neutral .f32 hφ) (p : Fin 2000) :
    multiReduction .add [1] S2000 e 0x00000000#32 h hφ hacc (ix1 p) = ∑ k : Fin 40, e (ix2 p k) := by
  refine (Ideal.multiReduction_add_single e 0x00000000#32 h hφ hacc (ix1 p)).trans ?_
  refine Finset.sum_congr rfl fun k _ => congrArg e ?_
  exact Cert.LibRowReduce.lift_row h p k

/-- The tile of logits at (p, c): row p of x against row c of W, plus the bias. -/
theorem logits5_apply (x0 : FVec Ideal S2000x128 .f32) (x1 : FVec Ideal S40x128 .f32) (x2 : FVec Ideal S1x40 .f32)
    (h0 : S2000x128.ShapeCasts S2000x128) (hb : FTy.bits .bf16 < FTy.bits .f32)
    (ht : S40x128.Transposes [1, 0] S128x40) (h2 : S1x40.ShapeCasts S1x40) (hbr : S1x40.Broadcasts S2000x40)
    (p : Fin 2000) (c : Fin 40) :
    addf (matmul dot_S2000x128_S128x40_S2000x40_1_0_0_1_n_n none (truncf .bf16 (shapeCast S2000x128 x0 h0) hb)
        (transpose S128x40 [1, 0] (truncf .bf16 x1 hb) ht) (constant (F := Ideal) S2000x40 .f32 0x00000000#32))
      (broadcastTo S2000x40 (shapeCast S1x40 x2 h2) hbr) (ix2 p c)
      = Cert.GGNN.affine (fun q : Fin 128 => x0 (ix2 p q)) (fun (j : Fin 40) (q : Fin 128) => x1 (ix2 j q))
          (fun j : Fin 40 => x2 (ix2 0 j)) c := by
  rw [shapeCast_self, shapeCast_self]
  refine (addf_apply _ _ _).trans ?_
  unfold Cert.GGNN.affine
  refine congrArg₂ (· + ·) ?_ ?_
  · refine (Cert.LibPlainDot.matmul_zero_apply dot_S2000x128_S128x40_S2000x40_1_0_0_1_n_n rfl none _ _ p c).trans ?_
    refine Finset.sum_congr rfl fun q _ => ?_
    refine congrArg₂ (· * ·) rfl ?_
    exact Cert.LibRowReduce.transpose_swap_apply (truncf .bf16 x1 hb) ht q c
  · exact broadcastTo_1b_ab_apply x2 hbr p c

/-- The log-softmax the body takes of a tile of logits, at (p, c): with μ the maximum of row p,
    (l c − μ) − log ∑ⱼ e^(l j − μ). -/
theorem logSoftmax5_apply (l : FVec Ideal S2000x40 .f32) (h : S2000x40.Reduces [1] S2000) (hφ : FKind.Formats .f32)
    (hm : (0xFF800000#32 : BitVec 32) = FKind.maximumf.neutral .f32 hφ)
    (ha : (0x00000000#32 : BitVec 32) = FKind.add.neutral .f32 hφ)
    (hs : S2000.ShapeCasts S2000x1) (hb : S2000x1.Broadcasts S2000x40) (p : Fin 2000) (c : Fin 40) :
    subf (subf l (broadcastTo S2000x40 (shapeCast S2000x1 (multiReduction .maximumf [1] S2000 l 0xFF800000#32 h hφ hm) hs) hb))
      (broadcastTo S2000x40 (log (shapeCast S2000x1 (multiReduction .add [1] S2000
        (exp (subf l (broadcastTo S2000x40 (shapeCast S2000x1 (multiReduction .maximumf [1] S2000 l 0xFF800000#32 h hφ hm) hs) hb)))
        0x00000000#32 h hφ ha) hs)) hb) (ix2 p c)
      = Cert.GGNN.logSoftmaxRow (fun j : Fin 40 => l (ix2 p j)) c := by
  have hsh : ∀ k : Fin 40,
      subf l (broadcastTo S2000x40 (shapeCast S2000x1 (multiReduction .maximumf [1] S2000 l 0xFF800000#32 h hφ hm) hs) hb) (ix2 p k)
        = l (ix2 p k) - (Finset.univ : Finset (Fin 40)).fold max Cert.GGNN.wNegInf (fun j : Fin 40 => l (ix2 p j)) := fun k =>
    (subf_apply _ _ _).trans (congrArg (l (ix2 p k) - ·) ((keepRow_apply _ hs hb p k).trans (rowMax5_apply l h hφ hm p)))
  refine (subf_apply _ _ _).trans ?_
  unfold Cert.GGNN.logSoftmaxRow
  refine congrArg₂ (· - ·) (hsh c) ?_
  refine (keepRowLog_apply _ hs hb p c).trans (congrArg Ideal.log ?_)
  refine (rowSum5_apply _ h hφ ha p).trans (Finset.sum_congr rfl fun k _ => ?_)
  exact congrArg Ideal.exp (hsh k)

/-- THE TILE AT AN INDEX: the body's result at (p, c) is the log-softmax of row p's dense layer, at class c. -/
theorem pay5_apply (x0 : FVec Ideal S2000x128 .f32) (x1 : FVec Ideal S40x128 .f32) (x2 : FVec Ideal S1x40 .f32)
    (p : Fin 2000) (c : Fin 40) :
    k5_pay1 (F := Ideal) x0 x1 x2 (ix2 p c)
      = Cert.GGNN.logSoftmaxRow (Cert.GGNN.affine (fun q : Fin 128 => x0 (ix2 p q))
          (fun (j : Fin 40) (q : Fin 128) => x1 (ix2 j q)) (fun j : Fin 40 => x2 (ix2 0 j))) c := by
  unfold k5_pay1
  refine (logSoftmax5_apply _ _ _ _ _ _ _ p c).trans ?_
  refine congrArg (fun f => Cert.GGNN.logSoftmaxRow f c) (funext fun j => ?_)
  exact logits5_apply x0 x1 x2 _ _ _ _ _ p j

end Cert.KernelIdeal.RegionValue

end
-- ==== Proof.KRead5.lean ====
/-
  The read-out region's output array.

  The region runs over 50 points; point t takes rows 2000·t … 2000·t + 1999 of the node states, the whole weight
  matrix and the whole bias row, and writes back the same rows of the output.  A row of the tile's result depends on
  that one row of the states only — it is the log-softmax of the row's dense layer — so each tile written back is the
  same rows of ONE function of the whole arrays, and the 50 tiles cover all 100000 rows: row r lies in the tile of
  point r / 2000.
-/
import proofs.«141311_j58110907515590_1_alg».proof.Proof.Gen.KernelIdeal.Frame
import proofs.«141311_j58110907515590_1_alg».proof.Proof.KRead5Pay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The block indices over the grid: the states' and the output's tiles move with the point along the rows; the
    weights' and the bias's one block stays. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The states' tile at point t, at (p, q): the states' array at row 2000·t + p. -/
theorem statesTile_apply (c : Dev nD) (t : Fin cfg5.N) (p : Fin 2000) (q : Fin 128) (r : Fin 100000)
    (hr : r.val = 2000 * t.val + p.val) :
    (iblk5 V c 0 t : FVec Ideal S2000x128 .f32) (ix2 p q) = (V c main_v31 : S100000x128.Idx → EReal) (ix2 r q) := by
  obtain ⟨e0, e1, -⟩ := blockIdx5 t
  show V c main_v31 (((cfg5.win 0).blk t).view.emb (ix2 p q)) = V c main_v31 (ix2 r q)
  refine congrArg (V c main_v31) (funext fun a => Fin.ext ?_)
  match a with
  | ⟨0, _⟩ => show win5_0.index t (0 : Fin 2) * 2000 + 1 * p.val = r.val; omega
  | ⟨1, _⟩ => show win5_0.index t (1 : Fin 2) * 128 + 1 * q.val = q.val; omega

/-- The weights' one block is the weights' array. -/
theorem weightsTile_apply (c : Dev nD) (t : Fin cfg5.N) (j : Fin 40) (q : Fin 128) :
    (iblk5 V c 1 t : FVec Ideal S40x128 .f32) (ix2 j q) = (V c main_arg6 : S40x128.Idx → EReal) (ix2 j q) := by
  obtain ⟨-, -, e0, e1, -⟩ := blockIdx5 t
  show V c main_arg6 (((cfg5.win 1).blk t).view.emb (ix2 j q)) = V c main_arg6 (ix2 j q)
  refine congrArg (V c main_arg6) (funext fun a => Fin.ext ?_)
  match a with
  | ⟨0, _⟩ => show win5_1.index t (0 : Fin 2) * 40 + 1 * j.val = j.val; omega
  | ⟨1, _⟩ => show win5_1.index t (1 : Fin 2) * 128 + 1 * q.val = q.val; omega

/-- The bias's one block is the bias row. -/
theorem biasTile_apply (c : Dev nD) (t : Fin cfg5.N) (u : Fin 1) (j : Fin 40) :
    (iblk5 V c 2 t : FVec Ideal S1x40 .f32) (ix2 u j) = (V c main_v32 : S1x40.Idx → EReal) (ix2 u j) := by
  obtain ⟨-, -, -, -, e0, e1, -⟩ := blockIdx5 t
  show V c main_v32 (((cfg5.win 2).blk t).view.emb (ix2 u j)) = V c main_v32 (ix2 u j)
  refine congrArg (V c main_v32) (funext fun a => Fin.ext ?_)
  match a with
  | ⟨0, _⟩ => show win5_2.index t (0 : Fin 2) * 1 + 1 * u.val = u.val; omega
  | ⟨1, _⟩ => show win5_2.index t (1 : Fin 2) * 40 + 1 * j.val = j.val; omega

/-- The output's tile at point t sits at rows 2000·t … of the output. -/
theorem outTile_emb (t : Fin cfg5.N) (p : Fin 2000) (q : Fin 40) (r : Fin 100000) (hr : r.val = 2000 * t.val + p.val) :
    (((cfg5.win 3).blk t).view.emb (ix2 p q) : S100000x40.Idx) = ix2 r q := by
  obtain ⟨-, -, -, -, -, -, e0, e1⟩ := blockIdx5 t
  refine funext fun a => Fin.ext ?_
  match a with
  | ⟨0, _⟩ => show win5_3.index t (0 : Fin 2) * 2000 + 1 * p.val = r.val; omega
  | ⟨1, _⟩ => show win5_3.index t (1 : Fin 2) * 40 + 1 * q.val = q.val; omega

/-- WHAT POINT t WRITES BACK is tile t of the read-out of the whole arrays. -/
theorem flushed5_eq (c : Dev nD) (t : Fin cfg5.N) :
    (dat5 (F := Ideal) V c).flushed 3 t = ((cfg5.win 3).blk t).view.read (Elt Ideal)
      (Cert.GGNN.readA (V c main_v31) (V c main_arg6) (Cert.GGNN.vec1 (V c main_v32))) := by
  show (cfg5.win 3).cut (grid5.coords t) ((dat5 V c).after 3 t) = _
  rw [after5_3]
  unfold out5_3
  rw [View.canon_unit_zero zeroOffsets5]
  simp only [View.ld_unit_zero (S := S2000x128) zeroOffsets5, View.ld_unit_zero (S := S40x128) zeroOffsets5,
    View.ld_unit_zero (S := S1x40) zeroOffsets5]
  funext j
  obtain ⟨p, q, rfl⟩ : ∃ (p : Fin 2000) (q : Fin 40), j = ix2 p q := ⟨j 0, j 1, eq_ix2 j⟩
  have hN : cfg5.N = 50 := N_5
  have hr : 2000 * t.val + p.val < 100000 := by have := t.isLt; have := p.isLt; omega
  show k5_pay1 (F := Ideal) (iblk5 V c 0 t) (iblk5 V c 1 t) (iblk5 V c 2 t) (ix2 p q)
    = Cert.GGNN.readA (V c main_v31) (V c main_arg6) (Cert.GGNN.vec1 (V c main_v32)) (((cfg5.win 3).blk t).view.emb (ix2 p q))
  rw [outTile_emb t p q ⟨2000 * t.val + p.val, hr⟩ rfl]
  refine (pay5_apply (iblk5 V c 0 t) (iblk5 V c 1 t) (iblk5 V c 2 t) p q).trans ?_
  unfold Cert.GGNN.readA
  rw [Cert.GGNN.ofRows_apply]
  refine congrArg (fun f => Cert.GGNN.logSoftmaxRow f q) ?_
  unfold Cert.GGNN.affine Cert.GGNN.row Cert.GGNN.mat Cert.GGNN.vec1
  funext d
  refine congrArg₂ (· + ·) (Finset.sum_congr rfl fun k _ => congrArg₂ (· * ·) ?_ ?_) ?_
  · exact statesTile_apply V c t p k ⟨2000 * t.val + p.val, hr⟩ rfl
  · exact weightsTile_apply V c t d k
  · exact biasTile_apply V c t 0 d

/-- An index of the output is in point t's tile iff each coordinate is in the tile's range on its axis. -/
theorem mem_outTile (t : Fin cfg5.N) (i : S100000x40.Idx) :
    i ∈ ((cfg5.win 3).blk t).view.set ↔ ∀ a : Fin 2, win5_3.index t a * S2000x40.size a ≤ (i a).val
      ∧ (i a).val < win5_3.index t a * S2000x40.size a + S2000x40.size a := by
  show i ∈ ((View.whole main_v33).slice (win5_3.rect t)).set ↔ _
  rw [View.set_slice_whole, Rect.mem_set_unit]
  exact Iff.rfl

/-- Every row of the output lies in some point's tile: row r in the tile of point r / 2000. -/
theorem cover5 (i : S100000x40.Idx) :
    ∃ t : Fin cfg5.N, (cfg5.win 3).flush t = true ∧ i ∈ ((cfg5.win 3).blk t).view.set := by
  have hN : cfg5.N = 50 := N_5
  have hi0 : (i 0).val < 100000 := (i 0).isLt
  have hi1 : (i 1).val < 40 := (i 1).isLt
  have ht : (i 0).val / 2000 < cfg5.N := by rw [hN]; omega
  obtain ⟨-, -, -, -, -, -, e0, e1⟩ := blockIdx5 ⟨(i 0).val / 2000, ht⟩
  refine ⟨⟨(i 0).val / 2000, ht⟩, flush5_3 _, ?_⟩
  rw [mem_outTile]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_3.index ⟨(i 0).val / 2000, ht⟩ (1 : Fin 2) * 40 ≤ (i 1).val
      ∧ (i 1).val < win5_3.index ⟨(i 0).val / 2000, ht⟩ (1 : Fin 2) * 40 + 40
    rw [e1]; omega

/-- THE OUTPUT ARRAY after all 50 points: the read-out of the whole arrays — every row's dense layer into 40 classes
    and its log-softmax. -/
theorem final5 (V : (c : Dev nD) → (b : Ref sig .tc) → Buf (Elt Ideal) ((c : Thread nD τ).loc b)) (c : Dev nD) :
    (Gen.dat5 (F := Ideal) V c).arrAt 3 cfg5.N = Cert.GGNN.readA (V c main_v31) (V c main_arg6) (Cert.GGNN.vec1 (V c main_v32)) :=
  (dat5 (F := Ideal) V c).arrAt_eq_of_cover 3 _ (fun t _ => flushed5_eq V c t) cover5

end Cert.KernelIdeal.RegionValue

end
-- ==== Proof.LibLineParts.lean ====
/-
  A straight line of host operations run in parts, and contents carried through a typed reference.

  * `after_append`: the buffer contents after a line `a ++ b` of host operations are the contents after `b` run from the
    contents after `a`.  A long line can so be read in stretches — the first up to the values a later stretch needs, the
    later stretch over ANY contents of those buffers — which keeps each stretch's composed term small.
  * `ofBuf_toBuf`: an outlined helper's lines address their buffers through typed references, moving a value to the
    buffer's own type when it is written and back when it is read; the value moved there and back is the value.  (For a
    single move at a literal reference, state `(TRef.of r).toBuf Y = Y` over a variable `Y` and prove it by `rfl`.)
-/
import Idealize.ShloMosaic.Lib.StableHlo.Run

namespace Cert.LibLineParts

open Idealize.ShloMosaic Idealize.ShloMosaic.StableHlo

variable {τ : Topo} {sig : RefSig} {Val : EltTy → Type}

/-- A line run in two parts. -/
theorem after_append : ∀ (a b : List (HloOp τ sig Val)) (V : Valuation τ sig Val),
    after (a ++ b) V = after b (after a V)
  | [], _, _ => rfl
  | o :: a, b, V => after_append a b (o.result V)

/-- Contents moved to a typed reference's buffer type and back are the contents. -/
theorem ofBuf_toBuf {T : BufTy} (x : TRef sig T) (Y : T.Contents Val) : x.ofBuf (x.toBuf Y) = Y := by
  obtain ⟨r, h, h2, h3⟩ := x
  subst h
  rfl

end Cert.LibLineParts
-- ==== Proof.RefRun.lean ====
/-
  The reference network's host program as ONE straight line of its operations, cut into eight stages,
  and its run: every weakly fair execution terminates with each buffer at the fold of the operations
  over the launch contents.

  The stages: the embedding (an affine map); per gated layer the edge message (an affine map), the
  gather of source rows and their sum into destination rows, and the gated recurrent update followed by
  the exponential linear unit; the read-out affine map followed by the row-wise log-softmax.  The
  outlined helpers (the unit, its two selects, the log-softmax) are listed inline at their call
  sites, each line over that call's own buffers.
-/
import proofs.«141311_j58110907515590_1_alg».proof.Proof.Gen.ReferenceIdeal
import proofs.«141311_j58110907515590_1_alg».proof.Proof.LibLineParts
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stage 0: the embedding, x0 = h · embed_Wᵀ + embed_b. (5 operations) -/
abbrev seg0 : List (HloOp τ sig (Elt F)) :=
  [ StableHlo.unary main_arg4 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S100000x128 ![0, 1] bcast_S1x128_S100000x128_0_1 : (⟨S1x128, .f32⟩ : BufTy).Contents (Elt F) → (⟨S100000x128, .f32⟩ : BufTy).Contents (Elt F)),
    StableHlo.binary main_v1 main_v3 main_v4 (addf : (⟨S100000x128, .f32⟩ : BufTy).Contents (Elt F) → (⟨S100000x128, .f32⟩ : BufTy).Contents (Elt F) → (⟨S100000x128, .f32⟩ : BufTy).Contents (Elt F)) ]

/-- Stage 1: layer 0's edge message, m = x · Wᵀ + b. (5 operations) -/
abbrev seg1 : List (HloOp τ sig (Elt F)) :=
  [ StableHlo.unary main_arg8 main_v5 ((transpose S128x128 [1, 0] · transposes_S128x128_S128x128_1_0) : (⟨S128x128, .f32⟩ : BufTy).Contents (Elt F) → (⟨S128x128, .f32⟩ : BufTy).Contents (Elt F)),
    StableHlo.binary main_v4 main_v5 main_v6 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S100000x128 ![0, 1] bcast_S1x128_S100000x128_0_1 : (⟨S1x128, .f32⟩ : BufTy).Contents (Elt F) → (⟨S100000x128, .f32⟩ : BufTy).Contents (Elt F)),
    StableHlo.binary main_v6 main_v8 main_v9 (addf : (⟨S100000x128, .f32⟩ : BufTy).Contents (Elt F) → (⟨S100000x128, .f32⟩ : BufTy).Contents (Elt F) → (⟨S100000x128, .f32⟩ : BufTy).Contents (Elt F)) ]

/-- Stage 2: layer 0's index fix-up of the sources, the gather of the message rows and their sum into the destination rows. (13 operations) -/
abbrev seg2 : List (HloOp τ sig (Elt F)) :=
  [ StableHlo.nullary main_c (constantI S_ 32 0#32),
    StableHlo.unary main_c main_v10 (broadcastInDim S1600000 ![] bcast_S_S1600000 : (⟨S_, .i32⟩ : BufTy).Contents (Elt F) → (⟨S1600000, .i32⟩ : BufTy).Contents (Elt F)),
    StableHlo.binary main_arg1 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v12 (broadcastInDim S1600000 ![] bcast_S_S1600000 : (⟨S_, .i32⟩ : BufTy).Contents (Elt F) → (⟨S1600000, .i32⟩ : BufTy).Contents (Elt F)),
    StableHlo.binary main_arg1 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_arg1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)),
    StableHlo.binary main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_arg2 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Stage 3: layer 0's two gate affine maps, the six slices, the gates, the convex update and the exponential linear unit. (58 operations) -/
abbrev seg3 : List (HloOp τ sig (Elt F)) :=
  [ StableHlo.unary main_arg10 main_v20 ((transpose S128x384 [1, 0] · transposes_S384x128_S128x384_1_0) : (⟨S384x128, .f32⟩ : BufTy).Contents (Elt F) → (⟨S128x384, .f32⟩ : BufTy).Contents (Elt F)),
    StableHlo.binary main_v19 main_v20 main_v21 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg11 main_v22 (broadcastInDim S1x384 ![1] bcast_S384_S1x384_1 : (⟨S384, .f32⟩ : BufTy).Contents (Elt F) → (⟨S1x384, .f32⟩ : BufTy).Contents (Elt F)),
    StableHlo.unary main_v22 main_v23 (broadcastInDim S100000x384 ![0, 1] bcast_S1x384_S100000x384_0_1 : (⟨S1x384, .f32⟩ : BufTy).Contents (Elt F) → (⟨S100000x384, .f32⟩ : BufTy).Contents (Elt F)),
    StableHlo.binary main_v21 main_v23 main_v24 (addf : (⟨S100000x384, .f32⟩ : BufTy).Contents (Elt F) → (⟨S100000x384, .f32⟩ : BufTy).Contents (Elt F) → (⟨S100000x384, .f32⟩ : BufTy).Contents (Elt F)),
    StableHlo.unary main_arg12 main_v25 ((transpose S128x384 [1, 0] · transposes_S384x128_S128x384_1_0) : (⟨S384x128, .f32⟩ : BufTy).Contents (Elt F) → (⟨S128x384, .f32⟩ : BufTy).Contents (Elt F)),
    StableHlo.binary main_v4 main_v25 main_v26 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg13 main_v27 (broadcastInDim S1x384 ![1] bcast_S384_S1x384_1 : (⟨S384, .f32⟩ : BufTy).Contents (Elt F) → (⟨S1x384, .f32⟩ : BufTy).Contents (Elt F)),
    StableHlo.unary main_v27 main_v28 (broadcastInDim S100000x384 ![0, 1] bcast_S1x384_S100000x384_0_1 : (⟨S1x384, .f32⟩ : BufTy).Contents (Elt F) → (⟨S100000x384, .f32⟩ : BufTy).Contents (Elt F)),
    StableHlo.binary main_v26 main_v28 main_v29 (addf : (⟨S100000x384, .f32⟩ : BufTy).Contents (Elt F) → (⟨S100000x384, .f32⟩ : BufTy).Contents (Elt F) → (⟨S100000x384, .f32⟩ : BufTy).Contents (Elt F)),
    StableHlo.unary main_v24 main_v30 ((extractStridedSlice S100000x128 ![0, 0] · slices_S100000x384_S100000x128_0_0) : (⟨S100000x384, .f32⟩ : BufTy).Contents (Elt F) → (⟨S100000x128, .f32⟩ : BufTy).Contents (Elt F)),
    StableHlo.unary main_v24 main_v31 ((extractStridedSlice S100000x128 ![0, 128] · slices_S100000x384_S100000x128_0_128) : (⟨S100000x384, .f32⟩ : BufTy).Contents (Elt F) → (⟨S100000x128, .f32⟩ : BufTy).Contents (Elt F)),
    StableHlo.unary main_v24 main_v32 ((extractStridedSlice S100000x128 ![0, 256] · slices_S100000x384_S100000x128_0_256) : (⟨S100000x384, .f32⟩ : BufTy).Contents (Elt F) → (⟨S100000x128, .f32⟩ : BufTy).Contents (Elt F)),
    StableHlo.unary main_v29 main_v33 ((extractStridedSlice S100000x128 ![0, 0] · slices_S100000x384_S100000x128_0_0) : (⟨S100000x384, .f32⟩ : BufTy).Contents (Elt F) → (⟨S100000x128, .f32⟩ : BufTy).Contents (Elt F)),
    StableHlo.unary main_v29 main_v34 ((extractStridedSlice S100000x128 ![0, 128] · slices_S100000x384_S100000x128_0_128) : (⟨S100000x384, .f32⟩ : BufTy).Contents (Elt F) → (⟨S100000x128, .f32⟩ : BufTy).Contents (Elt F)),
    StableHlo.unary main_v29 main_v35 ((extractStridedSlice S100000x128 ![0, 256] · slices_S100000x384_S100000x128_0_256) : (⟨S100000x384, .f32⟩ : BufTy).Contents (Elt F) → (⟨S100000x128, .f32⟩ : BufTy).Contents (Elt F)),
    StableHlo.binary main_v30 main_v33 main_v36 (addf : (⟨S100000x128, .f32⟩ : BufTy).Contents (Elt F) → (⟨S100000x128, .f32⟩ : BufTy).Contents (Elt F) → (⟨S100000x128, .f32⟩ : BufTy).Contents (Elt F)),
    StableHlo.unary main_v36 main_v37 (Host.negf : (⟨S100000x128, .f32⟩ : BufTy).Contents (Elt F) → (⟨S100000x128, .f32⟩ : BufTy).Contents (Elt F)),
    StableHlo.unary main_v37 main_v38 (Host.exp : (⟨S100000x128, .f32⟩ : BufTy).Contents (Elt F) → (⟨S100000x128, .f32⟩ : BufTy).Contents (Elt F)),
    StableHlo.nullary main_cst_1 (constant S_ .f32 0x3F800000#32),
    StableHlo.unary main_cst_1 main_v39 (broadcastInDim S100000x128 ![] bcast_S_S100000x128 : (⟨S_, .f32⟩ : BufTy).Contents (Elt F) → (⟨S100000x128, .f32⟩ : BufTy).Contents (Elt F)),
    StableHlo.binary main_v39 main_v38 main_v40 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3F800000#32),
    StableHlo.unary main_cst_2 main_v41 (broadcastInDim S100000x128 ![] bcast_S_S100000x128 : (⟨S_, .f32⟩ : BufTy).Contents (Elt F) → (⟨S100000x128, .f32⟩ : BufTy).Contents (Elt F)),
    StableHlo.binary main_v41 main_v40 main_v42 (Host.divf : (⟨S100000x128, .f32⟩ : BufTy).Contents (Elt F) → (⟨S100000x128, .f32⟩ : BufTy).Contents (Elt F) → (⟨S100000x128, .f32⟩ : BufTy).Contents (Elt F)),
    StableHlo.binary main_v31 main_v34 main_v43 (addf : (⟨S100000x128, .f32⟩ : BufTy).Contents (Elt F) → (⟨S100000x128, .f32⟩ : BufTy).Contents (Elt F) → (⟨S100000x128, .f32⟩ : BufTy).Contents (Elt F)),
    StableHlo.unary main_v43 main_v44 (Host.negf : (⟨S100000x128, .f32⟩ : BufTy).Contents (Elt F) → (⟨S100000x128, .f32⟩ : BufTy).Contents (Elt F)),
    StableHlo.unary main_v44 main_v45 (Host.exp : (⟨S100000x128, .f32⟩ : BufTy).Contents (Elt F) → (⟨S100000x128, .f32⟩ : BufTy).Contents (Elt F)),
    StableHlo.nullary main_cst_3 (constant S_ .f32 0x3F800000#32),
    StableHlo.unary main_cst_3 main_v46 (broadcastInDim S100000x128 ![] bcast_S_S100000x128 : (⟨S_, .f32⟩ : BufTy).Contents (Elt F) → (⟨S100000x128, .f32⟩ : BufTy).Contents (Elt F)),
    StableHlo.binary main_v46 main_v45 main_v47 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3F800000#32),
    StableHlo.unary main_cst_4 main_v48 (broadcastInDim S100000x128 ![] bcast_S_S100000x128 : (⟨S_, .f32⟩ : BufTy).Contents (Elt F) → (⟨S100000x128, .f32⟩ : BufTy).Contents (Elt F)),
    StableHlo.binary main_v48 main_v47 main_v49 (Host.divf : (⟨S100000x128, .f32⟩ : BufTy).Contents (Elt F) → (⟨S100000x128, .f32⟩ : BufTy).Contents (Elt F) → (⟨S100000x128, .f32⟩ : BufTy).Contents (Elt F)),
    StableHlo.binary main_v42 main_v35 main_v50 (mulf : (⟨S100000x128, .f32⟩ : BufTy).Contents (Elt F) → (⟨S100000x128, .f32⟩ : BufTy).Contents (Elt F) → (⟨S100000x128, .f32⟩ : BufTy).Contents (Elt F)),
    StableHlo.binary main_v32 main_v50 main_v51 (addf : (⟨S100000x128, .f32⟩ : BufTy).Contents (Elt F) → (⟨S100000x128, .f32⟩ : BufTy).Contents (Elt F) → (⟨S100000x128, .f32⟩ : BufTy).Contents (Elt F)),
    StableHlo.unary main_v51 main_v52 (Host.tanh : (⟨S100000x128, .f32⟩ : BufTy).Contents (Elt F) → (⟨S100000x128, .f32⟩ : BufTy).Contents (Elt F)),
    StableHlo.nullary main_cst_5 (constant S_ .f32 0x3F800000#32),
    StableHlo.unary main_cst_5 main_v53 (broadcastInDim S100000x128 ![] bcast_S_S100000x128 : (⟨S_, .f32⟩ : BufTy).Contents (Elt F) → (⟨S100000x128, .f32⟩ : BufTy).Contents (Elt F)),
    StableHlo.binary main_v53 main_v49 main_v54 (subf : (⟨S100000x128, .f32⟩ : BufTy).Contents (Elt F) → (⟨S100000x128, .f32⟩ : BufTy).Contents (Elt F) → (⟨S100000x128, .f32⟩ : BufTy).Contents (Elt F)),
    StableHlo.binary main_v54 main_v52 main_v55 (mulf : (⟨S100000x128, .f32⟩ : BufTy).Contents (Elt F) → (⟨S100000x128, .f32⟩ : BufTy).Contents (Elt F) → (⟨S100000x128, .f32⟩ : BufTy).Contents (Elt F)),
    StableHlo.binary main_v49 main_v4 main_v56 (mulf : (⟨S100000x128, .f32⟩ : BufTy).Contents (Elt F) → (⟨S100000x128, .f32⟩ : BufTy).Contents (Elt F) → (⟨S100000x128, .f32⟩ : BufTy).Contents (Elt F)),
    StableHlo.binary main_v55 main_v56 main_v57 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v57 : StableHlo.TRef sig ⟨S100000x128, .f32⟩) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v57 : StableHlo.TRef sig ⟨S100000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v57 : StableHlo.TRef sig ⟨S100000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v57 : StableHlo.TRef sig ⟨S100000x128, .f32⟩) main_call0.v7 main_call0.call1.v0 select ]

/-- Stage 4: layer 1's edge message. (5 operations) -/
abbrev seg4 : List (HloOp τ sig (Elt F)) :=
  [ StableHlo.unary main_arg14 main_v59 ((transpose S128x128 [1, 0] · transposes_S128x128_S128x128_1_0) : (⟨S128x128, .f32⟩ : BufTy).Contents (Elt F) → (⟨S128x128, .f32⟩ : BufTy).Contents (Elt F)),
    StableHlo.binary main_v58 main_v59 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- Stage 5: layer 1's gather and sum. (13 operations) -/
abbrev seg5 : List (HloOp τ sig (Elt F)) :=
  [ StableHlo.nullary main_c_6 (constantI S_ 32 0#32),
    StableHlo.unary main_c_6 main_v64 (broadcastInDim S1600000 ![] bcast_S_S1600000 : (⟨S_, .i32⟩ : BufTy).Contents (Elt F) → (⟨S1600000, .i32⟩ : BufTy).Contents (Elt F)),
    StableHlo.binary main_arg1 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v66 (broadcastInDim S1600000 ![] bcast_S_S1600000 : (⟨S_, .i32⟩ : BufTy).Contents (Elt F) → (⟨S1600000, .i32⟩ : BufTy).Contents (Elt F)),
    StableHlo.binary main_arg1 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_arg1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v63 main_v69 main_v70 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v71 (broadcastInDim S100000x128 ![] bcast_S_S100000x128 : (⟨S_, .f32⟩ : BufTy).Contents (Elt F) → (⟨S100000x128, .f32⟩ : BufTy).Contents (Elt F)),
    StableHlo.unary main_arg2 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Stage 6: layer 1's gated update and the exponential linear unit. (58 operations) -/
abbrev seg6 : List (HloOp τ sig (Elt F)) :=
  [ StableHlo.unary main_arg16 main_v74 ((transpose S128x384 [1, 0] · transposes_S384x128_S128x384_1_0) : (⟨S384x128, .f32⟩ : BufTy).Contents (Elt F) → (⟨S128x384, .f32⟩ : BufTy).Contents (Elt F)),
    StableHlo.binary main_v73 main_v74 main_v75 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg17 main_v76 (broadcastInDim S1x384 ![1] bcast_S384_S1x384_1 : (⟨S384, .f32⟩ : BufTy).Contents (Elt F) → (⟨S1x384, .f32⟩ : BufTy).Contents (Elt F)),
    StableHlo.unary main_v76 main_v77 (broadcastInDim S100000x384 ![0, 1] bcast_S1x384_S100000x384_0_1 : (⟨S1x384, .f32⟩ : BufTy).Contents (Elt F) → (⟨S100000x384, .f32⟩ : BufTy).Contents (Elt F)),
    StableHlo.binary main_v75 main_v77 main_v78 (addf : (⟨S100000x384, .f32⟩ : BufTy).Contents (Elt F) → (⟨S100000x384, .f32⟩ : BufTy).Contents (Elt F) → (⟨S100000x384, .f32⟩ : BufTy).Contents (Elt F)),
    StableHlo.unary main_arg18 main_v79 ((transpose S128x384 [1, 0] · transposes_S384x128_S128x384_1_0) : (⟨S384x128, .f32⟩ : BufTy).Contents (Elt F) → (⟨S128x384, .f32⟩ : BufTy).Contents (Elt F)),
    StableHlo.binary main_v58 main_v79 main_v80 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    StableHlo.unary main_arg19 main_v81 (broadcastInDim S1x384 ![1] bcast_S384_S1x384_1 : (⟨S384, .f32⟩ : BufTy).Contents (Elt F) → (⟨S1x384, .f32⟩ : BufTy).Contents (Elt F)),
    StableHlo.unary main_v81 main_v82 (broadcastInDim S100000x384 ![0, 1] bcast_S1x384_S100000x384_0_1 : (⟨S1x384, .f32⟩ : BufTy).Contents (Elt F) → (⟨S100000x384, .f32⟩ : BufTy).Contents (Elt F)),
    StableHlo.binary main_v80 main_v82 main_v83 (addf : (⟨S100000x384, .f32⟩ : BufTy).Contents (Elt F) → (⟨S100000x384, .f32⟩ : BufTy).Contents (Elt F) → (⟨S100000x384, .f32⟩ : BufTy).Contents (Elt F)),
    StableHlo.unary main_v78 main_v84 ((extractStridedSlice S100000x128 ![0, 0] · slices_S100000x384_S100000x128_0_0) : (⟨S100000x384, .f32⟩ : BufTy).Contents (Elt F) → (⟨S100000x128, .f32⟩ : BufTy).Contents (Elt F)),
    StableHlo.unary main_v78 main_v85 ((extractStridedSlice S100000x128 ![0, 128] · slices_S100000x384_S100000x128_0_128) : (⟨S100000x384, .f32⟩ : BufTy).Contents (Elt F) → (⟨S100000x128, .f32⟩ : BufTy).Contents (Elt F)),
    StableHlo.unary main_v78 main_v86 ((extractStridedSlice S100000x128 ![0, 256] · slices_S100000x384_S100000x128_0_256) : (⟨S100000x384, .f32⟩ : BufTy).Contents (Elt F) → (⟨S100000x128, .f32⟩ : BufTy).Contents (Elt F)),
    StableHlo.unary main_v83 main_v87 ((extractStridedSlice S100000x128 ![0, 0] · slices_S100000x384_S100000x128_0_0) : (⟨S100000x384, .f32⟩ : BufTy).Contents (Elt F) → (⟨S100000x128, .f32⟩ : BufTy).Contents (Elt F)),
    StableHlo.unary main_v83 main_v88 ((extractStridedSlice S100000x128 ![0, 128] · slices_S100000x384_S100000x128_0_128) : (⟨S100000x384, .f32⟩ : BufTy).Contents (Elt F) → (⟨S100000x128, .f32⟩ : BufTy).Contents (Elt F)),
    StableHlo.unary main_v83 main_v89 ((extractStridedSlice S100000x128 ![0, 256] · slices_S100000x384_S100000x128_0_256) : (⟨S100000x384, .f32⟩ : BufTy).Contents (Elt F) → (⟨S100000x128, .f32⟩ : BufTy).Contents (Elt F)),
    StableHlo.binary main_v84 main_v87 main_v90 (addf : (⟨S100000x128, .f32⟩ : BufTy).Contents (Elt F) → (⟨S100000x128, .f32⟩ : BufTy).Contents (Elt F) → (⟨S100000x128, .f32⟩ : BufTy).Contents (Elt F)),
    StableHlo.unary main_v90 main_v91 (Host.negf : (⟨S100000x128, .f32⟩ : BufTy).Contents (Elt F) → (⟨S100000x128, .f32⟩ : BufTy).Contents (Elt F)),
    StableHlo.unary main_v91 main_v92 (Host.exp : (⟨S100000x128, .f32⟩ : BufTy).Contents (Elt F) → (⟨S100000x128, .f32⟩ : BufTy).Contents (Elt F)),
    StableHlo.nullary main_cst_9 (constant S_ .f32 0x3F800000#32),
    StableHlo.unary main_cst_9 main_v93 (broadcastInDim S100000x128 ![] bcast_S_S100000x128 : (⟨S_, .f32⟩ : BufTy).Contents (Elt F) → (⟨S100000x128, .f32⟩ : BufTy).Contents (Elt F)),
    StableHlo.binary main_v93 main_v92 main_v94 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3F800000#32),
    StableHlo.unary main_cst_10 main_v95 (broadcastInDim S100000x128 ![] bcast_S_S100000x128 : (⟨S_, .f32⟩ : BufTy).Contents (Elt F) → (⟨S100000x128, .f32⟩ : BufTy).Contents (Elt F)),
    StableHlo.binary main_v95 main_v94 main_v96 (Host.divf : (⟨S100000x128, .f32⟩ : BufTy).Contents (Elt F) → (⟨S100000x128, .f32⟩ : BufTy).Contents (Elt F) → (⟨S100000x128, .f32⟩ : BufTy).Contents (Elt F)),
    StableHlo.binary main_v85 main_v88 main_v97 (addf : (⟨S100000x128, .f32⟩ : BufTy).Contents (Elt F) → (⟨S100000x128, .f32⟩ : BufTy).Contents (Elt F) → (⟨S100000x128, .f32⟩ : BufTy).Contents (Elt F)),
    StableHlo.unary main_v97 main_v98 (Host.negf : (⟨S100000x128, .f32⟩ : BufTy).Contents (Elt F) → (⟨S100000x128, .f32⟩ : BufTy).Contents (Elt F)),
    StableHlo.unary main_v98 main_v99 (Host.exp : (⟨S100000x128, .f32⟩ : BufTy).Contents (Elt F) → (⟨S100000x128, .f32⟩ : BufTy).Contents (Elt F)),
    StableHlo.nullary main_cst_11 (constant S_ .f32 0x3F800000#32),
    StableHlo.unary main_cst_11 main_v100 (broadcastInDim S100000x128 ![] bcast_S_S100000x128 : (⟨S_, .f32⟩ : BufTy).Contents (Elt F) → (⟨S100000x128, .f32⟩ : BufTy).Contents (Elt F)),
    StableHlo.binary main_v100 main_v99 main_v101 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3F800000#32),
    StableHlo.unary main_cst_12 main_v102 (broadcastInDim S100000x128 ![] bcast_S_S100000x128 : (⟨S_, .f32⟩ : BufTy).Contents (Elt F) → (⟨S100000x128, .f32⟩ : BufTy).Contents (Elt F)),
    StableHlo.binary main_v102 main_v101 main_v103 (Host.divf : (⟨S100000x128, .f32⟩ : BufTy).Contents (Elt F) → (⟨S100000x128, .f32⟩ : BufTy).Contents (Elt F) → (⟨S100000x128, .f32⟩ : BufTy).Contents (Elt F)),
    StableHlo.binary main_v96 main_v89 main_v104 (mulf : (⟨S100000x128, .f32⟩ : BufTy).Contents (Elt F) → (⟨S100000x128, .f32⟩ : BufTy).Contents (Elt F) → (⟨S100000x128, .f32⟩ : BufTy).Contents (Elt F)),
    StableHlo.binary main_v86 main_v104 main_v105 (addf : (⟨S100000x128, .f32⟩ : BufTy).Contents (Elt F) → (⟨S100000x128, .f32⟩ : BufTy).Contents (Elt F) → (⟨S100000x128, .f32⟩ : BufTy).Contents (Elt F)),
    StableHlo.unary main_v105 main_v106 (Host.tanh : (⟨S100000x128, .f32⟩ : BufTy).Contents (Elt F) → (⟨S100000x128, .f32⟩ : BufTy).Contents (Elt F)),
    StableHlo.nullary main_cst_13 (constant S_ .f32 0x3F800000#32),
    StableHlo.unary main_cst_13 main_v107 (broadcastInDim S100000x128 ![] bcast_S_S100000x128 : (⟨S_, .f32⟩ : BufTy).Contents (Elt F) → (⟨S100000x128, .f32⟩ : BufTy).Contents (Elt F)),
    StableHlo.binary main_v107 main_v103 main_v108 (subf : (⟨S100000x128, .f32⟩ : BufTy).Contents (Elt F) → (⟨S100000x128, .f32⟩ : BufTy).Contents (Elt F) → (⟨S100000x128, .f32⟩ : BufTy).Contents (Elt F)),
    StableHlo.binary main_v108 main_v106 main_v109 (mulf : (⟨S100000x128, .f32⟩ : BufTy).Contents (Elt F) → (⟨S100000x128, .f32⟩ : BufTy).Contents (Elt F) → (⟨S100000x128, .f32⟩ : BufTy).Contents (Elt F)),
    StableHlo.binary main_v103 main_v58 main_v110 (mulf : (⟨S100000x128, .f32⟩ : BufTy).Contents (Elt F) → (⟨S100000x128, .f32⟩ : BufTy).Contents (Elt F) → (⟨S100000x128, .f32⟩ : BufTy).Contents (Elt F)),
    StableHlo.binary main_v109 main_v110 main_v111 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v111 : StableHlo.TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v111 : StableHlo.TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v111 : StableHlo.TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v111 : StableHlo.TRef sig ⟨S100000x128, .f32⟩) main_call1.v7 main_call1.call1.v0 select ]

/-- Stage 7: the read-out affine map and the row-wise log-softmax. (20 operations) -/
abbrev seg7 : List (HloOp τ sig (Elt F)) :=
  [ StableHlo.unary main_arg6 main_v113 ((transpose S128x40 [1, 0] · transposes_S40x128_S128x40_1_0) : (⟨S40x128, .f32⟩ : BufTy).Contents (Elt F) → (⟨S128x40, .f32⟩ : BufTy).Contents (Elt F)),
    StableHlo.binary main_v112 main_v113 main_v114 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg7 main_v115 (broadcastInDim S1x40 ![1] bcast_S40_S1x40_1 : (⟨S40, .f32⟩ : BufTy).Contents (Elt F) → (⟨S1x40, .f32⟩ : BufTy).Contents (Elt F)),
    StableHlo.unary main_v115 main_v116 (broadcastInDim S100000x40 ![0, 1] bcast_S1x40_S100000x40_0_1 : (⟨S1x40, .f32⟩ : BufTy).Contents (Elt F) → (⟨S100000x40, .f32⟩ : BufTy).Contents (Elt F)),
    StableHlo.binary main_v114 main_v116 main_v117 (addf : (⟨S100000x40, .f32⟩ : BufTy).Contents (Elt F) → (⟨S100000x40, .f32⟩ : BufTy).Contents (Elt F) → (⟨S100000x40, .f32⟩ : BufTy).Contents (Elt F)),
    StableHlo.TRef.nullary main_call2.cst (constant S_ .f32 0xFF800000#32),
    StableHlo.TRef.binary (.of main_v117 : StableHlo.TRef sig ⟨S100000x40, .f32⟩) main_call2.cst main_call2.v0 (fun x v => Host.reduce FloatOps.maximumf x v reducesTo_S100000x40_S100000_d1 h_S_),
    StableHlo.TRef.nullary main_call2.cst_0 (constant S_ .f32 0xFF800000#32),
    StableHlo.TRef.unary main_call2.cst_0 main_call2.v1 (broadcastInDim S100000 ![] bcast_S_S100000),
    StableHlo.TRef.binary main_call2.v1 main_call2.v0 main_call2.v2 maximumf,
    StableHlo.TRef.unary main_call2.v2 main_call2.v3 (broadcastInDim S100000x1 ![0] bcast_S100000_S100000x1_0),
    StableHlo.TRef.unary main_call2.v3 main_call2.v4 (broadcastInDim S100000x40 ![0, 1] bcast_S100000x1_S100000x40_0_1),
    StableHlo.TRef.binary (.of main_v117 : StableHlo.TRef sig ⟨S100000x40, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S100000x40_S100000_d1 h_S_),
    StableHlo.TRef.unary main_call2.v7 main_call2.v8 (broadcastInDim S100000x1 ![0] bcast_S100000_S100000x1_0),
    StableHlo.TRef.unary main_call2.v8 main_call2.v9 Host.log,
    StableHlo.TRef.unary main_call2.v9 main_call2.v10 (broadcastInDim S100000x40 ![0, 1] bcast_S100000x1_S100000x40_0_1),
    StableHlo.TRef.binary main_call2.v5 main_call2.v10 main_call2.v11 subf ]

/-- The whole line: the eight stages in order. -/
abbrev ops : List (HloOp τ sig (Elt F)) := seg0 ++ seg1 ++ seg2 ++ seg3 ++ seg4 ++ seg5 ++ seg6 ++ seg7

theorem seg0_sub : (seg0 : List (HloOp τ sig (Elt F))).Forall fun op => op.bufs ⊆ tcRefs τ sig :=
  ⟨unary_bufs_sub .., binary_bufs_sub .., unary_bufs_sub .., unary_bufs_sub .., binary_bufs_sub ..⟩
theorem seg0_fresh : (seg0 : List (HloOp τ sig (Elt F))).Forall fun op => op.fresh = ∅ :=
  ⟨rfl, rfl, rfl, rfl, rfl⟩

theorem seg1_sub : (seg1 : List (HloOp τ sig (Elt F))).Forall fun op => op.bufs ⊆ tcRefs τ sig :=
  ⟨unary_bufs_sub .., binary_bufs_sub .., unary_bufs_sub .., unary_bufs_sub .., binary_bufs_sub ..⟩
theorem seg1_fresh : (seg1 : List (HloOp τ sig (Elt F))).Forall fun op => op.fresh = ∅ :=
  ⟨rfl, rfl, rfl, rfl, rfl⟩

theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem seg2_fresh : (seg2 : List (HloOp τ sig (Elt F))).Forall fun op => op.fresh = ∅ :=
  ⟨rfl, rfl, rfl, rfl, rfl, rfl, rfl, rfl, rfl, rfl, rfl, rfl, rfl⟩

theorem seg3_sub : (seg3 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem seg4_sub : (seg4 : List (HloOp τ sig (Elt F))).Forall fun op => op.bufs ⊆ tcRefs τ sig :=
  ⟨unary_bufs_sub .., binary_bufs_sub .., unary_bufs_sub .., unary_bufs_sub .., binary_bufs_sub ..⟩
theorem seg4_fresh : (seg4 : List (HloOp τ sig (Elt F))).Forall fun op => op.fresh = ∅ :=
  ⟨rfl, rfl, rfl, rfl, rfl⟩

theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem seg5_fresh : (seg5 : List (HloOp τ sig (Elt F))).Forall fun op => op.fresh = ∅ :=
  ⟨rfl, rfl, rfl, rfl, rfl, rfl, rfl, rfl, rfl, rfl, rfl, rfl, rfl⟩

theorem seg6_sub : (seg6 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem seg7_sub : (seg7 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
set_option maxHeartbeats 4000000 in
/-- @main is that line: its three windows, the helpers' bodies unfolded at their calls, are one chain of steps. -/
theorem main_eq (c : Dev nD) : main (F := F) c = seq ops := rfl

/-- Every operation of the line touches TensorCore references only. -/
theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨List.forall_append.mpr ⟨List.forall_append.mpr ⟨seg0_sub, seg1_sub⟩, seg2_sub⟩, seg3_sub⟩, seg4_sub⟩, seg5_sub⟩, seg6_sub⟩, seg7_sub⟩

/-- Every operation of the line determines its results. -/
theorem ops_fresh : ∀ op ∈ (ops : List (HloOp τ sig (Elt F))), op.fresh = ∅ :=
  List.forall_iff_forall_mem.mp (List.forall_append.mpr ⟨List.forall_append.mpr ⟨List.forall_append.mpr ⟨List.forall_append.mpr ⟨List.forall_append.mpr
    ⟨List.forall_append.mpr ⟨List.forall_append.mpr ⟨seg0_fresh, seg1_fresh⟩, seg2_fresh⟩, seg3_fresh⟩, seg4_fresh⟩, seg5_fresh⟩, seg6_fresh⟩, seg7_fresh⟩)

/-- The line run in its stages: the contents after the whole line are the stages' folds composed. -/
theorem after_ops (V : Valuation τ sig (Elt F)) :
    after ops V = after seg7 (after seg6 (after seg5 (after seg4 (after seg3 (after seg2 (after seg1 (after seg0 V))))))) := by
  simp only [ops, Cert.LibLineParts.after_append]

/-- On the device, for any float values, from any memory with zero counters: every weakly fair execution of @main
    terminates with each buffer at the fold of the line over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefValue

end
-- ==== Proof.RefTerms.lean ====
/-
  The reference program's eight stages as functions of their inputs, at the ideal instance.

  Each definition composes, in the program's own order, the operations the program applies between the stage's
  inputs and its result: a dense layer (transpose the weights, multiply, broadcast the bias to a row and then to every
  row, add), the message pass (fix up negative source indices, gather the source rows, sum them into the target rows
  of a zero array), the gated cell (two dense layers of width 384, their six 128-wide slices, two logistic gates
  written 1 / (1 + e^(−·)), a tanh, the convex mix with the state) followed by elu, and the read-out (a dense layer
  into 40 classes followed by the log-softmax of each row).
-/
import Idealize.ShloMosaic.PureOps.Ideal
import proofs.«141311_j58110907515590_1_alg».proof.ReferenceIdeal

noncomputable section

namespace Cert.ReferenceIdeal.RefValue

open Cert.ReferenceIdeal Idealize.ShloMosaic Idealize.SL.Sem

variable [Facts]
open Facts₀ Facts

/-- The contents of a length-1600000 array of 32-bit integers. -/
abbrev I32s : Type := (⟨S1600000, .i32⟩ : BufTy).Contents (Elt Ideal)

/-! ## Dense layers -/

/-- A dense layer of width 128 on [100000, 128]: x · Wᵀ + b. -/
def stLinE (X : FVec Ideal S100000x128 .f32) (W : FVec Ideal S128x128 .f32) (b : FVec Ideal S128 .f32) :
    FVec Ideal S100000x128 .f32 :=
  addf
    (Host.dotGeneral dot_S100000x128_S128x128_S100000x128_1_0_0_1_n_n none X
      (transpose S128x128 [1, 0] W transposes_S128x128_S128x128_1_0))
    (broadcastInDim S100000x128 ![0, 1] bcast_S1x128_S100000x128_0_1
      (broadcastInDim S1x128 ![1] bcast_S128_S1x128_1 b))

/-- A dense layer of width 384 on [100000, 128]: x · Wᵀ + b. -/
def stAffine384 (X : FVec Ideal S100000x128 .f32) (W : FVec Ideal S384x128 .f32) (b : FVec Ideal S384 .f32) :
    FVec Ideal S100000x384 .f32 :=
  addf
    (Host.dotGeneral dot_S100000x128_S128x384_S100000x384_1_0_0_1_n_n none X
      (transpose S128x384 [1, 0] W transposes_S384x128_S128x384_1_0))
    (broadcastInDim S100000x384 ![0, 1] bcast_S1x384_S100000x384_0_1
      (broadcastInDim S1x384 ![1] bcast_S384_S1x384_1 b))

/-- A dense layer of width 40 on [100000, 128]: x · Wᵀ + b. -/
def stAffine40 (X : FVec Ideal S100000x128 .f32) (W : FVec Ideal S40x128 .f32) (b : FVec Ideal S40 .f32) :
    FVec Ideal S100000x40 .f32 :=
  addf
    (Host.dotGeneral dot_S100000x128_S128x40_S100000x40_1_0_0_1_n_n none X
      (transpose S128x40 [1, 0] W transposes_S40x128_S128x40_1_0))
    (broadcastInDim S100000x40 ![0, 1] bcast_S1x40_S100000x40_0_1
      (broadcastInDim S1x40 ![1] bcast_S40_S1x40_1 b))

/-! ## The message pass -/

/-- The source indices with the negative ones moved up by 100000, as a column. -/
def stSrcCol (src : I32s) : (⟨S1600000x1, .i32⟩ : BufTy).Contents (Elt Ideal) :=
  broadcastInDim S1600000x1 ![0] bcast_S1600000_S1600000x1_0
    (select
      (cmpi .slt src (broadcastInDim S1600000 ![] bcast_S_S1600000 (constantI S_ 32 0#32)))
      (addi src (broadcastInDim S1600000 ![] bcast_S_S1600000 (constantI S_ 32 100000#32)))
      src)

/-- The message pass: gather the rows of M at the sources, sum them into the rows of a zero array at the targets. -/
def stMsg (src dst : I32s) (M : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 M (stSrcCol src))

/-! ## The gated cell -/

/-- The [100000, 128] array of the float word b. -/
def stFill (b : BitVec 32) : FVec Ideal S100000x128 .f32 :=
  broadcastInDim S100000x128 ![] bcast_S_S100000x128 (constant (F := Ideal) S_ .f32 b)

/-- The logistic gate as the program spells it: 1 / (1 + e^(−(x + y))). -/
def stSig (x y : FVec Ideal S100000x128 .f32) : FVec Ideal S100000x128 .f32 :=
  Host.divf (stFill 0x3F800000#32) (addf (stFill 0x3F800000#32) (Host.exp (Host.negf (addf x y))))

/-- The three 128-wide slices of a [100000, 384] array. -/
def stSl0 (g : FVec Ideal S100000x384 .f32) : FVec Ideal S100000x128 .f32 :=
  extractStridedSlice S100000x128 ![0, 0] g slices_S100000x384_S100000x128_0_0
def stSl1 (g : FVec Ideal S100000x384 .f32) : FVec Ideal S100000x128 .f32 :=
  extractStridedSlice S100000x128 ![0, 128] g slices_S100000x384_S100000x128_0_128
def stSl2 (g : FVec Ideal S100000x384 .f32) : FVec Ideal S100000x128 .f32 :=
  extractStridedSlice S100000x128 ![0, 256] g slices_S100000x384_S100000x128_0_256

/-- The gates on the two pre-activations and the state: (1 − z) · tanh (gi₂ + r · gh₂) + z · h. -/
def stCell (gi gh : FVec Ideal S100000x384 .f32) (H : FVec Ideal S100000x128 .f32) : FVec Ideal S100000x128 .f32 :=
  addf
    (mulf (subf (stFill 0x3F800000#32) (stSig (stSl1 gi) (stSl1 gh)))
      (Host.tanh (addf (stSl2 gi) (mulf (stSig (stSl0 gi) (stSl0 gh)) (stSl2 gh)))))
    (mulf (stSig (stSl1 gi) (stSl1 gh)) H)

/-- elu as the program spells it: where y > 0, y; elsewhere 1 · (e^(y off the positive side, 0 on it) − 1). -/
def stElu (Y : FVec Ideal S100000x128 .f32) : FVec Ideal S100000x128 .f32 :=
  select (cmpf .ogt Y (stFill 0x00000000#32)) Y
    (mulf (stFill 0x3F800000#32)
      (Host.expm1
        (select (cmpf .ogt Y (stFill 0x00000000#32))
          (broadcastInDim S100000x128 ![] bcast_S_S100000x128 (id (constant (F := Ideal) S_ .f32 0x00000000#32)))
          Y)))

/-- A gated layer: the cell on the dense layers of the messages and of the state, then elu. -/
def stGru (A H : FVec Ideal S100000x128 .f32) (Wih : FVec Ideal S384x128 .f32) (bih : FVec Ideal S384 .f32)
    (Whh : FVec Ideal S384x128 .f32) (bhh : FVec Ideal S384 .f32) : FVec Ideal S100000x128 .f32 :=
  stElu (stCell (stAffine384 A Wih bih) (stAffine384 H Whh bhh) H)

/-! ## The read-out -/

/-- The row maxima of the logits, as the program computes them: the maximum of −∞ and the host's row maximum from −∞. -/
def stRowMax (L : FVec Ideal S100000x40 .f32) : FVec Ideal S100000 .f32 :=
  maximumf
    (broadcastInDim S100000 ![] bcast_S_S100000 (constant (F := Ideal) S_ .f32 0xFF800000#32))
    (Host.reduce (FloatOps.maximumf (F := Ideal) (φ := .f32)) L (constant (F := Ideal) S_ .f32 0xFF800000#32)
      reducesTo_S100000x40_S100000_d1 h_S_)

/-- The logits with their row maximum taken off. -/
def stShift (L : FVec Ideal S100000x40 .f32) : FVec Ideal S100000x40 .f32 :=
  subf L
    (broadcastInDim S100000x40 ![0, 1] bcast_S100000x1_S100000x40_0_1
      (broadcastInDim S100000x1 ![0] bcast_S100000_S100000x1_0 (stRowMax L)))

/-- The log-softmax of each row. -/
def stLogSoftmax (L : FVec Ideal S100000x40 .f32) : FVec Ideal S100000x40 .f32 :=
  subf (stShift L)
    (broadcastInDim S100000x40 ![0, 1] bcast_S100000x1_S100000x40_0_1
      (Host.log
        (broadcastInDim S100000x1 ![0] bcast_S100000_S100000x1_0
          (Host.reduceAdd (Host.exp (stShift L)) (constant (F := Ideal) S_ .f32 0x00000000#32)
            reducesTo_S100000x40_S100000_d1 h_S_))))

/-- The read-out: a dense layer into 40 classes and the log-softmax of each row. -/
def stRead (X : FVec Ideal S100000x128 .f32) (W : FVec Ideal S40x128 .f32) (b : FVec Ideal S40 .f32) :
    FVec Ideal S100000x40 .f32 :=
  stLogSoftmax (stAffine40 X W b)

end Cert.ReferenceIdeal.RefValue

end
-- ==== Proof.RefRead.lean ====
/-
  What the reference network's line leaves in its result buffer and in its arguments' buffers.

  Stage by stage: from ANY contents of the buffers, a stage's result buffer ends at that stage's function of its
  inputs' contents (an affine map; the gather of source rows summed into destination rows; the gated update
  followed by the exponential linear unit; the affine read-out followed by the row-wise log-softmax), and every
  buffer the stage does not write keeps its contents.  Chained, the result buffer of the whole line holds the
  eight functions composed over the launch contents of the arguments, and each argument's buffer is unchanged.
-/
import proofs.«141311_j58110907515590_1_alg».proof.Proof.RefRun
import proofs.«141311_j58110907515590_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## What each stage writes, and that it leaves the rest -/

/-- An operation writing the one buffer `y`, a member of the list `W`, writes inside `W`. -/
theorem writes_sub_of_mem {Val : EltTy → Type} {W : List (Ref sig .tc)} (op : HloOp τ sig Val) (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

section Keep

variable {F : FTy → Type} [FloatOps F]

/-- The buffers stage 0 writes. -/
abbrev W0 : List (Ref sig .tc) :=
  [main_v0, main_v1, main_v2, main_v3, main_v4]
theorem seg0_writes : (seg0 : List (HloOp τ sig (Elt F))).Forall fun op => op.writes ⊆ (W0.map (Proc.devRef (τ := τ) .tc)).toFinset :=
  ⟨writes_sub_of_mem _ main_v0 rfl (by decide),
   writes_sub_of_mem _ main_v1 rfl (by decide),
   writes_sub_of_mem _ main_v2 rfl (by decide),
   writes_sub_of_mem _ main_v3 rfl (by decide),
   writes_sub_of_mem _ main_v4 rfl (by decide)⟩
/-- Stage 0 leaves every buffer it does not write. -/
theorem seg0_keep (V : Valuation τ sig (Elt F)) (b : Ref sig .tc) (hb : b ∉ W0) :
    after seg0 V (Proc.devRef .tc b) = V (Proc.devRef .tc b) :=
  after_of_writes_sub seg0 V seg0_writes hb

/-- The buffers stage 1 writes. -/
abbrev W1 : List (Ref sig .tc) :=
  [main_v5, main_v6, main_v7, main_v8, main_v9]
theorem seg1_writes : (seg1 : List (HloOp τ sig (Elt F))).Forall fun op => op.writes ⊆ (W1.map (Proc.devRef (τ := τ) .tc)).toFinset :=
  ⟨writes_sub_of_mem _ main_v5 rfl (by decide),
   writes_sub_of_mem _ main_v6 rfl (by decide),
   writes_sub_of_mem _ main_v7 rfl (by decide),
   writes_sub_of_mem _ main_v8 rfl (by decide),
   writes_sub_of_mem _ main_v9 rfl (by decide)⟩
/-- Stage 1 leaves every buffer it does not write. -/
theorem seg1_keep (V : Valuation τ sig (Elt F)) (b : Ref sig .tc) (hb : b ∉ W1) :
    after seg1 V (Proc.devRef .tc b) = V (Proc.devRef .tc b) :=
  after_of_writes_sub seg1 V seg1_writes hb

/-- The buffers stage 2 writes. -/
abbrev W2 : List (Ref sig .tc) :=
  [main_c, main_v10, main_v11, main_c_0, main_v12, main_v13, main_v14, main_v15, main_v16, main_cst, main_v17, main_v18, main_v19]
theorem seg2_writes : (seg2 : List (HloOp τ sig (Elt F))).Forall fun op => op.writes ⊆ (W2.map (Proc.devRef (τ := τ) .tc)).toFinset :=
  ⟨writes_sub_of_mem _ main_c rfl (by decide),
   writes_sub_of_mem _ main_v10 rfl (by decide),
   writes_sub_of_mem _ main_v11 rfl (by decide),
   writes_sub_of_mem _ main_c_0 rfl (by decide),
   writes_sub_of_mem _ main_v12 rfl (by decide),
   writes_sub_of_mem _ main_v13 rfl (by decide),
   writes_sub_of_mem _ main_v14 rfl (by decide),
   writes_sub_of_mem _ main_v15 rfl (by decide),
   writes_sub_of_mem _ main_v16 rfl (by decide),
   writes_sub_of_mem _ main_cst rfl (by decide),
   writes_sub_of_mem _ main_v17 rfl (by decide),
   writes_sub_of_mem _ main_v18 rfl (by decide),
   writes_sub_of_mem _ main_v19 rfl (by decide)⟩
/-- Stage 2 leaves every buffer it does not write. -/
theorem seg2_keep (V : Valuation τ sig (Elt F)) (b : Ref sig .tc) (hb : b ∉ W2) :
    after seg2 V (Proc.devRef .tc b) = V (Proc.devRef .tc b) :=
  after_of_writes_sub seg2 V seg2_writes hb

/-- The buffers stage 3 writes. -/
abbrev W3 : List (Ref sig .tc) :=
  [main_v20, main_v21, main_v22, main_v23, main_v24, main_v25, main_v26, main_v27, main_v28, main_v29, main_v30, main_v31, main_v32, main_v33, main_v34, main_v35, main_v36, main_v37, main_v38, main_cst_1, main_v39, main_v40, main_cst_2, main_v41, main_v42, main_v43, main_v44, main_v45, main_cst_3, main_v46, main_v47, main_cst_4, main_v48, main_v49, main_v50, main_v51, main_v52, main_cst_5, main_v53, main_v54, main_v55, main_v56, main_v57, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v58]
theorem seg3_writes : (seg3 : List (HloOp τ sig (Elt F))).Forall fun op => op.writes ⊆ (W3.map (Proc.devRef (τ := τ) .tc)).toFinset :=
  ⟨writes_sub_of_mem _ main_v20 rfl (by decide),
   writes_sub_of_mem _ main_v21 rfl (by decide),
   writes_sub_of_mem _ main_v22 rfl (by decide),
   writes_sub_of_mem _ main_v23 rfl (by decide),
   writes_sub_of_mem _ main_v24 rfl (by decide),
   writes_sub_of_mem _ main_v25 rfl (by decide),
   writes_sub_of_mem _ main_v26 rfl (by decide),
   writes_sub_of_mem _ main_v27 rfl (by decide),
   writes_sub_of_mem _ main_v28 rfl (by decide),
   writes_sub_of_mem _ main_v29 rfl (by decide),
   writes_sub_of_mem _ main_v30 rfl (by decide),
   writes_sub_of_mem _ main_v31 rfl (by decide),
   writes_sub_of_mem _ main_v32 rfl (by decide),
   writes_sub_of_mem _ main_v33 rfl (by decide),
   writes_sub_of_mem _ main_v34 rfl (by decide),
   writes_sub_of_mem _ main_v35 rfl (by decide),
   writes_sub_of_mem _ main_v36 rfl (by decide),
   writes_sub_of_mem _ main_v37 rfl (by decide),
   writes_sub_of_mem _ main_v38 rfl (by decide),
   writes_sub_of_mem _ main_cst_1 rfl (by decide),
   writes_sub_of_mem _ main_v39 rfl (by decide),
   writes_sub_of_mem _ main_v40 rfl (by decide),
   writes_sub_of_mem _ main_cst_2 rfl (by decide),
   writes_sub_of_mem _ main_v41 rfl (by decide),
   writes_sub_of_mem _ main_v42 rfl (by decide),
   writes_sub_of_mem _ main_v43 rfl (by decide),
   writes_sub_of_mem _ main_v44 rfl (by decide),
   writes_sub_of_mem _ main_v45 rfl (by decide),
   writes_sub_of_mem _ main_cst_3 rfl (by decide),
   writes_sub_of_mem _ main_v46 rfl (by decide),
   writes_sub_of_mem _ main_v47 rfl (by decide),
   writes_sub_of_mem _ main_cst_4 rfl (by decide),
   writes_sub_of_mem _ main_v48 rfl (by decide),
   writes_sub_of_mem _ main_v49 rfl (by decide),
   writes_sub_of_mem _ main_v50 rfl (by decide),
   writes_sub_of_mem _ main_v51 rfl (by decide),
   writes_sub_of_mem _ main_v52 rfl (by decide),
   writes_sub_of_mem _ main_cst_5 rfl (by decide),
   writes_sub_of_mem _ main_v53 rfl (by decide),
   writes_sub_of_mem _ main_v54 rfl (by decide),
   writes_sub_of_mem _ main_v55 rfl (by decide),
   writes_sub_of_mem _ main_v56 rfl (by decide),
   writes_sub_of_mem _ main_v57 rfl (by decide),
   writes_sub_of_mem _ main_call0_cst rfl (by decide),
   writes_sub_of_mem _ main_call0_v0 rfl (by decide),
   writes_sub_of_mem _ main_call0_v1 rfl (by decide),
   writes_sub_of_mem _ main_call0_cst_0 rfl (by decide),
   writes_sub_of_mem _ main_call0_v2 rfl (by decide),
   writes_sub_of_mem _ main_call0_v3 rfl (by decide),
   writes_sub_of_mem _ main_call0_cst_1 rfl (by decide),
   writes_sub_of_mem _ main_call0_call0_v0 rfl (by decide),
   writes_sub_of_mem _ main_call0_call0_v1 rfl (by decide),
   writes_sub_of_mem _ main_call0_v4 rfl (by decide),
   writes_sub_of_mem _ main_call0_v5 rfl (by decide),
   writes_sub_of_mem _ main_call0_cst_2 rfl (by decide),
   writes_sub_of_mem _ main_call0_v6 rfl (by decide),
   writes_sub_of_mem _ main_call0_v7 rfl (by decide),
   writes_sub_of_mem _ main_v58 rfl (by decide)⟩
/-- Stage 3 leaves every buffer it does not write. -/
theorem seg3_keep (V : Valuation τ sig (Elt F)) (b : Ref sig .tc) (hb : b ∉ W3) :
    after seg3 V (Proc.devRef .tc b) = V (Proc.devRef .tc b) :=
  after_of_writes_sub seg3 V seg3_writes hb

/-- The buffers stage 4 writes. -/
abbrev W4 : List (Ref sig .tc) :=
  [main_v59, main_v60, main_v61, main_v62, main_v63]
theorem seg4_writes : (seg4 : List (HloOp τ sig (Elt F))).Forall fun op => op.writes ⊆ (W4.map (Proc.devRef (τ := τ) .tc)).toFinset :=
  ⟨writes_sub_of_mem _ main_v59 rfl (by decide),
   writes_sub_of_mem _ main_v60 rfl (by decide),
   writes_sub_of_mem _ main_v61 rfl (by decide),
   writes_sub_of_mem _ main_v62 rfl (by decide),
   writes_sub_of_mem _ main_v63 rfl (by decide)⟩
/-- Stage 4 leaves every buffer it does not write. -/
theorem seg4_keep (V : Valuation τ sig (Elt F)) (b : Ref sig .tc) (hb : b ∉ W4) :
    after seg4 V (Proc.devRef .tc b) = V (Proc.devRef .tc b) :=
  after_of_writes_sub seg4 V seg4_writes hb

/-- The buffers stage 5 writes. -/
abbrev W5 : List (Ref sig .tc) :=
  [main_c_6, main_v64, main_v65, main_c_7, main_v66, main_v67, main_v68, main_v69, main_v70, main_cst_8, main_v71, main_v72, main_v73]
theorem seg5_writes : (seg5 : List (HloOp τ sig (Elt F))).Forall fun op => op.writes ⊆ (W5.map (Proc.devRef (τ := τ) .tc)).toFinset :=
  ⟨writes_sub_of_mem _ main_c_6 rfl (by decide),
   writes_sub_of_mem _ main_v64 rfl (by decide),
   writes_sub_of_mem _ main_v65 rfl (by decide),
   writes_sub_of_mem _ main_c_7 rfl (by decide),
   writes_sub_of_mem _ main_v66 rfl (by decide),
   writes_sub_of_mem _ main_v67 rfl (by decide),
   writes_sub_of_mem _ main_v68 rfl (by decide),
   writes_sub_of_mem _ main_v69 rfl (by decide),
   writes_sub_of_mem _ main_v70 rfl (by decide),
   writes_sub_of_mem _ main_cst_8 rfl (by decide),
   writes_sub_of_mem _ main_v71 rfl (by decide),
   writes_sub_of_mem _ main_v72 rfl (by decide),
   writes_sub_of_mem _ main_v73 rfl (by decide)⟩
/-- Stage 5 leaves every buffer it does not write. -/
theorem seg5_keep (V : Valuation τ sig (Elt F)) (b : Ref sig .tc) (hb : b ∉ W5) :
    after seg5 V (Proc.devRef .tc b) = V (Proc.devRef .tc b) :=
  after_of_writes_sub seg5 V seg5_writes hb

/-- The buffers stage 6 writes. -/
abbrev W6 : List (Ref sig .tc) :=
  [main_v74, main_v75, main_v76, main_v77, main_v78, main_v79, main_v80, main_v81, main_v82, main_v83, main_v84, main_v85, main_v86, main_v87, main_v88, main_v89, main_v90, main_v91, main_v92, main_cst_9, main_v93, main_v94, main_cst_10, main_v95, main_v96, main_v97, main_v98, main_v99, main_cst_11, main_v100, main_v101, main_cst_12, main_v102, main_v103, main_v104, main_v105, main_v106, main_cst_13, main_v107, main_v108, main_v109, main_v110, main_v111, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v112]
theorem seg6_writes : (seg6 : List (HloOp τ sig (Elt F))).Forall fun op => op.writes ⊆ (W6.map (Proc.devRef (τ := τ) .tc)).toFinset :=
  ⟨writes_sub_of_mem _ main_v74 rfl (by decide),
   writes_sub_of_mem _ main_v75 rfl (by decide),
   writes_sub_of_mem _ main_v76 rfl (by decide),
   writes_sub_of_mem _ main_v77 rfl (by decide),
   writes_sub_of_mem _ main_v78 rfl (by decide),
   writes_sub_of_mem _ main_v79 rfl (by decide),
   writes_sub_of_mem _ main_v80 rfl (by decide),
   writes_sub_of_mem _ main_v81 rfl (by decide),
   writes_sub_of_mem _ main_v82 rfl (by decide),
   writes_sub_of_mem _ main_v83 rfl (by decide),
   writes_sub_of_mem _ main_v84 rfl (by decide),
   writes_sub_of_mem _ main_v85 rfl (by decide),
   writes_sub_of_mem _ main_v86 rfl (by decide),
   writes_sub_of_mem _ main_v87 rfl (by decide),
   writes_sub_of_mem _ main_v88 rfl (by decide),
   writes_sub_of_mem _ main_v89 rfl (by decide),
   writes_sub_of_mem _ main_v90 rfl (by decide),
   writes_sub_of_mem _ main_v91 rfl (by decide),
   writes_sub_of_mem _ main_v92 rfl (by decide),
   writes_sub_of_mem _ main_cst_9 rfl (by decide),
   writes_sub_of_mem _ main_v93 rfl (by decide),
   writes_sub_of_mem _ main_v94 rfl (by decide),
   writes_sub_of_mem _ main_cst_10 rfl (by decide),
   writes_sub_of_mem _ main_v95 rfl (by decide),
   writes_sub_of_mem _ main_v96 rfl (by decide),
   writes_sub_of_mem _ main_v97 rfl (by decide),
   writes_sub_of_mem _ main_v98 rfl (by decide),
   writes_sub_of_mem _ main_v99 rfl (by decide),
   writes_sub_of_mem _ main_cst_11 rfl (by decide),
   writes_sub_of_mem _ main_v100 rfl (by decide),
   writes_sub_of_mem _ main_v101 rfl (by decide),
   writes_sub_of_mem _ main_cst_12 rfl (by decide),
   writes_sub_of_mem _ main_v102 rfl (by decide),
   writes_sub_of_mem _ main_v103 rfl (by decide),
   writes_sub_of_mem _ main_v104 rfl (by decide),
   writes_sub_of_mem _ main_v105 rfl (by decide),
   writes_sub_of_mem _ main_v106 rfl (by decide),
   writes_sub_of_mem _ main_cst_13 rfl (by decide),
   writes_sub_of_mem _ main_v107 rfl (by decide),
   writes_sub_of_mem _ main_v108 rfl (by decide),
   writes_sub_of_mem _ main_v109 rfl (by decide),
   writes_sub_of_mem _ main_v110 rfl (by decide),
   writes_sub_of_mem _ main_v111 rfl (by decide),
   writes_sub_of_mem _ main_call1_cst rfl (by decide),
   writes_sub_of_mem _ main_call1_v0 rfl (by decide),
   writes_sub_of_mem _ main_call1_v1 rfl (by decide),
   writes_sub_of_mem _ main_call1_cst_0 rfl (by decide),
   writes_sub_of_mem _ main_call1_v2 rfl (by decide),
   writes_sub_of_mem _ main_call1_v3 rfl (by decide),
   writes_sub_of_mem _ main_call1_cst_1 rfl (by decide),
   writes_sub_of_mem _ main_call1_call0_v0 rfl (by decide),
   writes_sub_of_mem _ main_call1_call0_v1 rfl (by decide),
   writes_sub_of_mem _ main_call1_v4 rfl (by decide),
   writes_sub_of_mem _ main_call1_v5 rfl (by decide),
   writes_sub_of_mem _ main_call1_cst_2 rfl (by decide),
   writes_sub_of_mem _ main_call1_v6 rfl (by decide),
   writes_sub_of_mem _ main_call1_v7 rfl (by decide),
   writes_sub_of_mem _ main_v112 rfl (by decide)⟩
/-- Stage 6 leaves every buffer it does not write. -/
theorem seg6_keep (V : Valuation τ sig (Elt F)) (b : Ref sig .tc) (hb : b ∉ W6) :
    after seg6 V (Proc.devRef .tc b) = V (Proc.devRef .tc b) :=
  after_of_writes_sub seg6 V seg6_writes hb

/-- The buffers stage 7 writes. -/
abbrev W7 : List (Ref sig .tc) :=
  [main_v113, main_v114, main_v115, main_v116, main_v117, main_call2_cst, main_call2_v0, main_call2_cst_0, main_call2_v1, main_call2_v2, main_call2_v3, main_call2_v4, main_call2_v5, main_call2_v6, main_call2_cst_1, main_call2_v7, main_call2_v8, main_call2_v9, main_call2_v10, main_v118]
theorem seg7_writes : (seg7 : List (HloOp τ sig (Elt F))).Forall fun op => op.writes ⊆ (W7.map (Proc.devRef (τ := τ) .tc)).toFinset :=
  ⟨writes_sub_of_mem _ main_v113 rfl (by decide),
   writes_sub_of_mem _ main_v114 rfl (by decide),
   writes_sub_of_mem _ main_v115 rfl (by decide),
   writes_sub_of_mem _ main_v116 rfl (by decide),
   writes_sub_of_mem _ main_v117 rfl (by decide),
   writes_sub_of_mem _ main_call2_cst rfl (by decide),
   writes_sub_of_mem _ main_call2_v0 rfl (by decide),
   writes_sub_of_mem _ main_call2_cst_0 rfl (by decide),
   writes_sub_of_mem _ main_call2_v1 rfl (by decide),
   writes_sub_of_mem _ main_call2_v2 rfl (by decide),
   writes_sub_of_mem _ main_call2_v3 rfl (by decide),
   writes_sub_of_mem _ main_call2_v4 rfl (by decide),
   writes_sub_of_mem _ main_call2_v5 rfl (by decide),
   writes_sub_of_mem _ main_call2_v6 rfl (by decide),
   writes_sub_of_mem _ main_call2_cst_1 rfl (by decide),
   writes_sub_of_mem _ main_call2_v7 rfl (by decide),
   writes_sub_of_mem _ main_call2_v8 rfl (by decide),
   writes_sub_of_mem _ main_call2_v9 rfl (by decide),
   writes_sub_of_mem _ main_call2_v10 rfl (by decide),
   writes_sub_of_mem _ main_v118 rfl (by decide)⟩
/-- Stage 7 leaves every buffer it does not write. -/
theorem seg7_keep (V : Valuation τ sig (Elt F)) (b : Ref sig .tc) (hb : b ∉ W7) :
    after seg7 V (Proc.devRef .tc b) = V (Proc.devRef .tc b) :=
  after_of_writes_sub seg7 V seg7_writes hb

end Keep

/-! ## Each stage's result, from any contents -/

set_option maxRecDepth 100000 in
set_option maxHeartbeats 4000000 in
theorem seg0_out (V : Valuation τ sig (Elt Ideal)) :
    after seg0 V (Proc.devRef .tc main_v4) = stLinE (V (Proc.devRef .tc main_arg0)) (V (Proc.devRef .tc main_arg4)) (V (Proc.devRef .tc main_arg5)) := by
  simp only [seg0]
  after_results_simp
  rfl

set_option maxRecDepth 100000 in
set_option maxHeartbeats 4000000 in
theorem seg1_out (V : Valuation τ sig (Elt Ideal)) :
    after seg1 V (Proc.devRef .tc main_v9) = stLinE (V (Proc.devRef .tc main_v4)) (V (Proc.devRef .tc main_arg8)) (V (Proc.devRef .tc main_arg9)) := by
  simp only [seg1]
  after_results_simp
  rfl

set_option maxRecDepth 100000 in
set_option maxHeartbeats 4000000 in
theorem seg2_out (V : Valuation τ sig (Elt Ideal)) :
    after seg2 V (Proc.devRef .tc main_v19) = stMsg (V (Proc.devRef .tc main_arg1)) (V (Proc.devRef .tc main_arg2)) (V (Proc.devRef .tc main_v9)) := by
  simp only [seg2]
  after_results_simp
  rfl

set_option maxRecDepth 100000 in
set_option maxHeartbeats 4000000 in
theorem seg3_out (V : Valuation τ sig (Elt Ideal)) :
    after seg3 V (Proc.devRef .tc main_v58) = stGru (V (Proc.devRef .tc main_v19)) (V (Proc.devRef .tc main_v4)) (V (Proc.devRef .tc main_arg10)) (V (Proc.devRef .tc main_arg11)) (V (Proc.devRef .tc main_arg12)) (V (Proc.devRef .tc main_arg13)) := by
  simp only [seg3]
  after_results_simp
  rfl

set_option maxRecDepth 100000 in
set_option maxHeartbeats 4000000 in
theorem seg4_out (V : Valuation τ sig (Elt Ideal)) :
    after seg4 V (Proc.devRef .tc main_v63) = stLinE (V (Proc.devRef .tc main_v58)) (V (Proc.devRef .tc main_arg14)) (V (Proc.devRef .tc main_arg15)) := by
  simp only [seg4]
  after_results_simp
  rfl

set_option maxRecDepth 100000 in
set_option maxHeartbeats 4000000 in
theorem seg5_out (V : Valuation τ sig (Elt Ideal)) :
    after seg5 V (Proc.devRef .tc main_v73) = stMsg (V (Proc.devRef .tc main_arg1)) (V (Proc.devRef .tc main_arg2)) (V (Proc.devRef .tc main_v63)) := by
  simp only [seg5]
  after_results_simp
  rfl

set_option maxRecDepth 100000 in
set_option maxHeartbeats 4000000 in
theorem seg6_out (V : Valuation τ sig (Elt Ideal)) :
    after seg6 V (Proc.devRef .tc main_v112) = stGru (V (Proc.devRef .tc main_v73)) (V (Proc.devRef .tc main_v58)) (V (Proc.devRef .tc main_arg16)) (V (Proc.devRef .tc main_arg17)) (V (Proc.devRef .tc main_arg18)) (V (Proc.devRef .tc main_arg19)) := by
  simp only [seg6]
  after_results_simp
  rfl

/-- Contents read through the typed reference of the read-out's logits, and written through that of the result:
    the contents themselves (the references are literal, the transport is along a reflexive equation). -/
theorem ofBuf_v117 (h1 h2 h3) (Y : FVec Ideal S100000x40 .f32) :
    (TRef.of (T := ⟨S100000x40, .f32⟩) main_v117 h1 h2 h3).ofBuf (Val := Elt Ideal) Y = Y := rfl
theorem toBuf_v118 (h1 h2 h3) (Y : FVec Ideal S100000x40 .f32) :
    (TRef.of (T := ⟨S100000x40, .f32⟩) main_v118 h1 h2 h3).toBuf (Val := Elt Ideal) Y = Y := rfl

set_option maxRecDepth 100000 in
set_option maxHeartbeats 4000000 in
theorem seg7_out (V : Valuation τ sig (Elt Ideal)) :
    after seg7 V (Proc.devRef .tc main_v118) = stRead (V (Proc.devRef .tc main_v112)) (V (Proc.devRef .tc main_arg6)) (V (Proc.devRef .tc main_arg7)) := by
  simp only [seg7]
  after_results_simp
  simp only [Cert.LibLineParts.ofBuf_toBuf, ofBuf_v117, toBuf_v118]
  unfold stRead stLogSoftmax stShift stRowMax stAffine40
  rfl

/-! ## The stages chained -/

section Chain

/-- Stage k's fold as a function on contents, kept folded while the stages are chained. -/
def r0 (V : Valuation τ sig (Elt Ideal)) : Valuation τ sig (Elt Ideal) := after seg0 V
def r1 (V : Valuation τ sig (Elt Ideal)) : Valuation τ sig (Elt Ideal) := after seg1 V
def r2 (V : Valuation τ sig (Elt Ideal)) : Valuation τ sig (Elt Ideal) := after seg2 V
def r3 (V : Valuation τ sig (Elt Ideal)) : Valuation τ sig (Elt Ideal) := after seg3 V
def r4 (V : Valuation τ sig (Elt Ideal)) : Valuation τ sig (Elt Ideal) := after seg4 V
def r5 (V : Valuation τ sig (Elt Ideal)) : Valuation τ sig (Elt Ideal) := after seg5 V
def r6 (V : Valuation τ sig (Elt Ideal)) : Valuation τ sig (Elt Ideal) := after seg6 V
def r7 (V : Valuation τ sig (Elt Ideal)) : Valuation τ sig (Elt Ideal) := after seg7 V
theorem r0_out (V : Valuation τ sig (Elt Ideal)) :
    r0 V (no_index (Proc.devRef .tc main_v4)) = stLinE (V (Proc.devRef .tc main_arg0)) (V (Proc.devRef .tc main_arg4)) (V (Proc.devRef .tc main_arg5)) := seg0_out V
theorem r0_keep (V : Valuation τ sig (Elt Ideal)) (b : Ref sig .tc) (hb : b ∉ W0) :
    r0 V (no_index (Proc.devRef .tc b)) = V (Proc.devRef .tc b) := seg0_keep V b hb
theorem r1_out (V : Valuation τ sig (Elt Ideal)) :
    r1 V (no_index (Proc.devRef .tc main_v9)) = stLinE (V (Proc.devRef .tc main_v4)) (V (Proc.devRef .tc main_arg8)) (V (Proc.devRef .tc main_arg9)) := seg1_out V
theorem r1_keep (V : Valuation τ sig (Elt Ideal)) (b : Ref sig .tc) (hb : b ∉ W1) :
    r1 V (no_index (Proc.devRef .tc b)) = V (Proc.devRef .tc b) := seg1_keep V b hb
theorem r2_out (V : Valuation τ sig (Elt Ideal)) :
    r2 V (no_index (Proc.devRef .tc main_v19)) = stMsg (V (Proc.devRef .tc main_arg1)) (V (Proc.devRef .tc main_arg2)) (V (Proc.devRef .tc main_v9)) := seg2_out V
theorem r2_keep (V : Valuation τ sig (Elt Ideal)) (b : Ref sig .tc) (hb : b ∉ W2) :
    r2 V (no_index (Proc.devRef .tc b)) = V (Proc.devRef .tc b) := seg2_keep V b hb
theorem r3_out (V : Valuation τ sig (Elt Ideal)) :
    r3 V (no_index (Proc.devRef .tc main_v58)) = stGru (V (Proc.devRef .tc main_v19)) (V (Proc.devRef .tc main_v4)) (V (Proc.devRef .tc main_arg10)) (V (Proc.devRef .tc main_arg11)) (V (Proc.devRef .tc main_arg12)) (V (Proc.devRef .tc main_arg13)) := seg3_out V
theorem r3_keep (V : Valuation τ sig (Elt Ideal)) (b : Ref sig .tc) (hb : b ∉ W3) :
    r3 V (no_index (Proc.devRef .tc b)) = V (Proc.devRef .tc b) := seg3_keep V b hb
theorem r4_out (V : Valuation τ sig (Elt Ideal)) :
    r4 V (no_index (Proc.devRef .tc main_v63)) = stLinE (V (Proc.devRef .tc main_v58)) (V (Proc.devRef .tc main_arg14)) (V (Proc.devRef .tc main_arg15)) := seg4_out V
theorem r4_keep (V : Valuation τ sig (Elt Ideal)) (b : Ref sig .tc) (hb : b ∉ W4) :
    r4 V (no_index (Proc.devRef .tc b)) = V (Proc.devRef .tc b) := seg4_keep V b hb
theorem r5_out (V : Valuation τ sig (Elt Ideal)) :
    r5 V (no_index (Proc.devRef .tc main_v73)) = stMsg (V (Proc.devRef .tc main_arg1)) (V (Proc.devRef .tc main_arg2)) (V (Proc.devRef .tc main_v63)) := seg5_out V
theorem r5_keep (V : Valuation τ sig (Elt Ideal)) (b : Ref sig .tc) (hb : b ∉ W5) :
    r5 V (no_index (Proc.devRef .tc b)) = V (Proc.devRef .tc b) := seg5_keep V b hb
theorem r6_out (V : Valuation τ sig (Elt Ideal)) :
    r6 V (no_index (Proc.devRef .tc main_v112)) = stGru (V (Proc.devRef .tc main_v73)) (V (Proc.devRef .tc main_v58)) (V (Proc.devRef .tc main_arg16)) (V (Proc.devRef .tc main_arg17)) (V (Proc.devRef .tc main_arg18)) (V (Proc.devRef .tc main_arg19)) := seg6_out V
theorem r6_keep (V : Valuation τ sig (Elt Ideal)) (b : Ref sig .tc) (hb : b ∉ W6) :
    r6 V (no_index (Proc.devRef .tc b)) = V (Proc.devRef .tc b) := seg6_keep V b hb
theorem r7_out (V : Valuation τ sig (Elt Ideal)) :
    r7 V (no_index (Proc.devRef .tc main_v118)) = stRead (V (Proc.devRef .tc main_v112)) (V (Proc.devRef .tc main_arg6)) (V (Proc.devRef .tc main_arg7)) := seg7_out V
theorem r7_keep (V : Valuation τ sig (Elt Ideal)) (b : Ref sig .tc) (hb : b ∉ W7) :
    r7 V (no_index (Proc.devRef .tc b)) = V (Proc.devRef .tc b) := seg7_keep V b hb
theorem after_ops_r (V : Valuation τ sig (Elt Ideal)) : after ops V = r7 (r6 (r5 (r4 (r3 (r2 (r1 (r0 V))))))) := after_ops V

/-- The network on the launch contents of its arguments: the embedding, two gated layers (edge message, gather and
    sum, gated update and unit), the read-out with its log-softmax. -/
abbrev refOut (m : (ℓ : Loc nD τ sig) → Buf (Elt Ideal) ℓ) (d : Dev nD) : FVec Ideal S100000x40 .f32 :=
  stRead (stGru (stMsg (m ((d.tc : Thread nD τ).loc main_arg1)) (m ((d.tc : Thread nD τ).loc main_arg2)) (stLinE (stGru (stMsg (m ((d.tc : Thread nD τ).loc main_arg1)) (m ((d.tc : Thread nD τ).loc main_arg2)) (stLinE (stLinE (m ((d.tc : Thread nD τ).loc main_arg0)) (m ((d.tc : Thread nD τ).loc main_arg4)) (m ((d.tc : Thread nD τ).loc main_arg5))) (m ((d.tc : Thread nD τ).loc main_arg8)) (m ((d.tc : Thread nD τ).loc main_arg9)))) (stLinE (m ((d.tc : Thread nD τ).loc main_arg0)) (m ((d.tc : Thread nD τ).loc main_arg4)) (m ((d.tc : Thread nD τ).loc main_arg5))) (m ((d.tc : Thread nD τ).loc main_arg10)) (m ((d.tc : Thread nD τ).loc main_arg11)) (m ((d.tc : Thread nD τ).loc main_arg12)) (m ((d.tc : Thread nD τ).loc main_arg13))) (m ((d.tc : Thread nD τ).loc main_arg14)) (m ((d.tc : Thread nD τ).loc main_arg15)))) (stGru (stMsg (m ((d.tc : Thread nD τ).loc main_arg1)) (m ((d.tc : Thread nD τ).loc main_arg2)) (stLinE (stLinE (m ((d.tc : Thread nD τ).loc main_arg0)) (m ((d.tc : Thread nD τ).loc main_arg4)) (m ((d.tc : Thread nD τ).loc main_arg5))) (m ((d.tc : Thread nD τ).loc main_arg8)) (m ((d.tc : Thread nD τ).loc main_arg9)))) (stLinE (m ((d.tc : Thread nD τ).loc main_arg0)) (m ((d.tc : Thread nD τ).loc main_arg4)) (m ((d.tc : Thread nD τ).loc main_arg5))) (m ((d.tc : Thread nD τ).loc main_arg10)) (m ((d.tc : Thread nD τ).loc main_arg11)) (m ((d.tc : Thread nD τ).loc main_arg12)) (m ((d.tc : Thread nD τ).loc main_arg13))) (m ((d.tc : Thread nD τ).loc main_arg16)) (m ((d.tc : Thread nD τ).loc main_arg17)) (m ((d.tc : Thread nD τ).loc main_arg18)) (m ((d.tc : Thread nD τ).loc main_arg19))) (m ((d.tc : Thread nD τ).loc main_arg6)) (m ((d.tc : Thread nD τ).loc main_arg7))

set_option maxRecDepth 100000 in
set_option maxHeartbeats 4000000 in
/-- The result buffer after the whole line, from the launch contents. -/
theorem result_eq (m : (ℓ : Loc nD τ sig) → Buf (Elt Ideal) ℓ) (d : Dev nD) :
    after ops (launchContents m d) (Proc.devRef .tc main_v118) = refOut m d := by
  rw [after_ops_r]
  simp (disch := decide) only [r0_out, r1_out, r2_out, r3_out, r4_out, r5_out, r6_out, r7_out,
    r0_keep, r1_keep, r2_keep, r3_keep, r4_keep, r5_keep, r6_keep, r7_keep]

end Chain

/-- A buffer no stage writes keeps its contents through the whole line. -/
theorem ops_keep {F : FTy → Type} [FloatOps F] (V : Valuation τ sig (Elt F)) (b : Ref sig .tc)
    (h0 : b ∉ W0) (h1 : b ∉ W1) (h2 : b ∉ W2) (h3 : b ∉ W3) (h4 : b ∉ W4) (h5 : b ∉ W5) (h6 : b ∉ W6) (h7 : b ∉ W7) :
    after ops V (Proc.devRef .tc b) = V (Proc.devRef .tc b) := by
  rw [after_ops, seg7_keep _ b h7, seg6_keep _ b h6, seg5_keep _ b h5, seg4_keep _ b h4, seg3_keep _ b h3,
    seg2_keep _ b h2, seg1_keep _ b h1, seg0_keep _ b h0]

/-- Each argument's buffer ends as launched. -/
theorem arg0_keep {F : FTy → Type} [FloatOps F] (m : (ℓ : Loc nD τ sig) → Buf (Elt F) ℓ) (d : Dev nD) :
    after ops (launchContents m d) (Proc.devRef .tc main_arg0) = m ((d.tc : Thread nD τ).loc main_arg0) :=
  ops_keep _ main_arg0 (by decide) (by decide) (by decide) (by decide) (by decide) (by decide) (by decide) (by decide)
theorem arg1_keep {F : FTy → Type} [FloatOps F] (m : (ℓ : Loc nD τ sig) → Buf (Elt F) ℓ) (d : Dev nD) :
    after ops (launchContents m d) (Proc.devRef .tc main_arg1) = m ((d.tc : Thread nD τ).loc main_arg1) :=
  ops_keep _ main_arg1 (by decide) (by decide) (by decide) (by decide) (by decide) (by decide) (by decide) (by decide)
theorem arg2_keep {F : FTy → Type} [FloatOps F] (m : (ℓ : Loc nD τ sig) → Buf (Elt F) ℓ) (d : Dev nD) :
    after ops (launchContents m d) (Proc.devRef .tc main_arg2) = m ((d.tc : Thread nD τ).loc main_arg2) :=
  ops_keep _ main_arg2 (by decide) (by decide) (by decide) (by decide) (by decide) (by decide) (by decide) (by decide)
theorem arg3_keep {F : FTy → Type} [FloatOps F] (m : (ℓ : Loc nD τ sig) → Buf (Elt F) ℓ) (d : Dev nD) :
    after ops (launchContents m d) (Proc.devRef .tc main_arg3) = m ((d.tc : Thread nD τ).loc main_arg3) :=
  ops_keep _ main_arg3 (by decide) (by decide) (by decide) (by decide) (by decide) (by decide) (by decide) (by decide)
theorem arg4_keep {F : FTy → Type} [FloatOps F] (m : (ℓ : Loc nD τ sig) → Buf (Elt F) ℓ) (d : Dev nD) :
    after ops (launchContents m d) (Proc.devRef .tc main_arg4) = m ((d.tc : Thread nD τ).loc main_arg4) :=
  ops_keep _ main_arg4 (by decide) (by decide) (by decide) (by decide) (by decide) (by decide) (by decide) (by decide)
theorem arg5_keep {F : FTy → Type} [FloatOps F] (m : (ℓ : Loc nD τ sig) → Buf (Elt F) ℓ) (d : Dev nD) :
    after ops (launchContents m d) (Proc.devRef .tc main_arg5) = m ((d.tc : Thread nD τ).loc main_arg5) :=
  ops_keep _ main_arg5 (by decide) (by decide) (by decide) (by decide) (by decide) (by decide) (by decide) (by decide)
theorem arg6_keep {F : FTy → Type} [FloatOps F] (m : (ℓ : Loc nD τ sig) → Buf (Elt F) ℓ) (d : Dev nD) :
    after ops (launchContents m d) (Proc.devRef .tc main_arg6) = m ((d.tc : Thread nD τ).loc main_arg6) :=
  ops_keep _ main_arg6 (by decide) (by decide) (by decide) (by decide) (by decide) (by decide) (by decide) (by decide)
theorem arg7_keep {F : FTy → Type} [FloatOps F] (m : (ℓ : Loc nD τ sig) → Buf (Elt F) ℓ) (d : Dev nD) :
    after ops (launchContents m d) (Proc.devRef .tc main_arg7) = m ((d.tc : Thread nD τ).loc main_arg7) :=
  ops_keep _ main_arg7 (by decide) (by decide) (by decide) (by decide) (by decide) (by decide) (by decide) (by decide)
theorem arg8_keep {F : FTy → Type} [FloatOps F] (m : (ℓ : Loc nD τ sig) → Buf (Elt F) ℓ) (d : Dev nD) :
    after ops (launchContents m d) (Proc.devRef .tc main_arg8) = m ((d.tc : Thread nD τ).loc main_arg8) :=
  ops_keep _ main_arg8 (by decide) (by decide) (by decide) (by decide) (by decide) (by decide) (by decide) (by decide)
theorem arg9_keep {F : FTy → Type} [FloatOps F] (m : (ℓ : Loc nD τ sig) → Buf (Elt F) ℓ) (d : Dev nD) :
    after ops (launchContents m d) (Proc.devRef .tc main_arg9) = m ((d.tc : Thread nD τ).loc main_arg9) :=
  ops_keep _ main_arg9 (by decide) (by decide) (by decide) (by decide) (by decide) (by decide) (by decide) (by decide)
theorem arg10_keep {F : FTy → Type} [FloatOps F] (m : (ℓ : Loc nD τ sig) → Buf (Elt F) ℓ) (d : Dev nD) :
    after ops (launchContents m d) (Proc.devRef .tc main_arg10) = m ((d.tc : Thread nD τ).loc main_arg10) :=
  ops_keep _ main_arg10 (by decide) (by decide) (by decide) (by decide) (by decide) (by decide) (by decide) (by decide)
theorem arg11_keep {F : FTy → Type} [FloatOps F] (m : (ℓ : Loc nD τ sig) → Buf (Elt F) ℓ) (d : Dev nD) :
    after ops (launchContents m d) (Proc.devRef .tc main_arg11) = m ((d.tc : Thread nD τ).loc main_arg11) :=
  ops_keep _ main_arg11 (by decide) (by decide) (by decide) (by decide) (by decide) (by decide) (by decide) (by decide)
theorem arg12_keep {F : FTy → Type} [FloatOps F] (m : (ℓ : Loc nD τ sig) → Buf (Elt F) ℓ) (d : Dev nD) :
    after ops (launchContents m d) (Proc.devRef .tc main_arg12) = m ((d.tc : Thread nD τ).loc main_arg12) :=
  ops_keep _ main_arg12 (by decide) (by decide) (by decide) (by decide) (by decide) (by decide) (by decide) (by decide)
theorem arg13_keep {F : FTy → Type} [FloatOps F] (m : (ℓ : Loc nD τ sig) → Buf (Elt F) ℓ) (d : Dev nD) :
    after ops (launchContents m d) (Proc.devRef .tc main_arg13) = m ((d.tc : Thread nD τ).loc main_arg13) :=
  ops_keep _ main_arg13 (by decide) (by decide) (by decide) (by decide) (by decide) (by decide) (by decide) (by decide)
theorem arg14_keep {F : FTy → Type} [FloatOps F] (m : (ℓ : Loc nD τ sig) → Buf (Elt F) ℓ) (d : Dev nD) :
    after ops (launchContents m d) (Proc.devRef .tc main_arg14) = m ((d.tc : Thread nD τ).loc main_arg14) :=
  ops_keep _ main_arg14 (by decide) (by decide) (by decide) (by decide) (by decide) (by decide) (by decide) (by decide)
theorem arg15_keep {F : FTy → Type} [FloatOps F] (m : (ℓ : Loc nD τ sig) → Buf (Elt F) ℓ) (d : Dev nD) :
    after ops (launchContents m d) (Proc.devRef .tc main_arg15) = m ((d.tc : Thread nD τ).loc main_arg15) :=
  ops_keep _ main_arg15 (by decide) (by decide) (by decide) (by decide) (by decide) (by decide) (by decide) (by decide)
theorem arg16_keep {F : FTy → Type} [FloatOps F] (m : (ℓ : Loc nD τ sig) → Buf (Elt F) ℓ) (d : Dev nD) :
    after ops (launchContents m d) (Proc.devRef .tc main_arg16) = m ((d.tc : Thread nD τ).loc main_arg16) :=
  ops_keep _ main_arg16 (by decide) (by decide) (by decide) (by decide) (by decide) (by decide) (by decide) (by decide)
theorem arg17_keep {F : FTy → Type} [FloatOps F] (m : (ℓ : Loc nD τ sig) → Buf (Elt F) ℓ) (d : Dev nD) :
    after ops (launchContents m d) (Proc.devRef .tc main_arg17) = m ((d.tc : Thread nD τ).loc main_arg17) :=
  ops_keep _ main_arg17 (by decide) (by decide) (by decide) (by decide) (by decide) (by decide) (by decide) (by decide)
theorem arg18_keep {F : FTy → Type} [FloatOps F] (m : (ℓ : Loc nD τ sig) → Buf (Elt F) ℓ) (d : Dev nD) :
    after ops (launchContents m d) (Proc.devRef .tc main_arg18) = m ((d.tc : Thread nD τ).loc main_arg18) :=
  ops_keep _ main_arg18 (by decide) (by decide) (by decide) (by decide) (by decide) (by decide) (by decide) (by decide)
theorem arg19_keep {F : FTy → Type} [FloatOps F] (m : (ℓ : Loc nD τ sig) → Buf (Elt F) ℓ) (d : Dev nD) :
    after ops (launchContents m d) (Proc.devRef .tc main_arg19) = m ((d.tc : Thread nD τ).loc main_arg19) :=
  ops_keep _ main_arg19 (by decide) (by decide) (by decide) (by decide) (by decide) (by decide) (by decide) (by decide)

/-- On the device, from any memory with zero counters: every weakly fair execution of @main terminates with the result
    buffer at the network of the arguments' launch contents and every argument's buffer unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v118).trans (result_eq m c),
      (h c main_arg0).trans (arg0_keep m c),
      (h c main_arg1).trans (arg1_keep m c),
      (h c main_arg2).trans (arg2_keep m c),
      (h c main_arg3).trans (arg3_keep m c),
      (h c main_arg4).trans (arg4_keep m c),
      (h c main_arg5).trans (arg5_keep m c),
      (h c main_arg6).trans (arg6_keep m c),
      (h c main_arg7).trans (arg7_keep m c),
      (h c main_arg8).trans (arg8_keep m c),
      (h c main_arg9).trans (arg9_keep m c),
      (h c main_arg10).trans (arg10_keep m c),
      (h c main_arg11).trans (arg11_keep m c),
      (h c main_arg12).trans (arg12_keep m c),
      (h c main_arg13).trans (arg13_keep m c),
      (h c main_arg14).trans (arg14_keep m c),
      (h c main_arg15).trans (arg15_keep m c),
      (h c main_arg16).trans (arg16_keep m c),
      (h c main_arg17).trans (arg17_keep m c),
      (h c main_arg18).trans (arg18_keep m c),
      (h c main_arg19).trans (arg19_keep m c)⟩)
    (run_all m ρ)

end Cert.ReferenceIdeal.RefValue

end
-- ==== Proof.LibActivations.lean ====
/-
  The two activations, in the two spellings the programs use, at one extended real.

  leaky y is y on the non-negative side and c · y on the negative side. One program tests y > 0, the other
  y ≥ 0; they differ only at y = 0, where c · 0 = 0 = y, so the two tests give one function, for every
  constant c and every extended real y.

  elu y is y where y > 0 and e^y − 1 elsewhere. One program writes exp y − 1 with the float word of 1; the
  other first replaces y by 0 on the positive side, takes e^· − 1 of that, and multiplies by the word of 1;
  off the positive side the replacement is y itself and 1 · z = z, so again one function.
  The float words 0x00000000 and 0x3F800000 are the reals 0 and 1.
-/
import Idealize.ShloMosaic.PureOps.Ideal
import Idealize.ShloMosaic.PureOps.Ideal.Laws
import Idealize.ShloMosaic.Lib.ValueIdx

noncomputable section

namespace Cert.LibActivations

open Idealize.ShloMosaic Idealize.ShloMosaic.ValueIdx

/-- The f32 word of 1.0 is the real 1. -/
theorem one_word : Ideal.ofBits .f32 0x3F800000#32 = 1 := by
  simp [Ideal.ofBits, Ideal.ieee, -EReal.coe_mul]; norm_num

/-- The f32 word of 0.0 is the real 0. -/
theorem zero_word : Ideal.ofBits .f32 0x00000000#32 = 0 := Ideal.ofBits_zero_f32

/-- The strict comparison with zero as a bit. -/
theorem cmp_ogt_zero (y : EReal) : Ideal.cmp .ogt y 0 = BitVec.ofBool (decide (0 < y)) := rfl

/-- The weak comparison with zero as a bit. -/
theorem cmp_oge_zero (y : EReal) : Ideal.cmp .oge y 0 = BitVec.ofBool (decide (0 ≤ y)) := rfl

/-- A select on a decided proposition's bit is the conditional. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- leaky with the strict test is leaky with the weak test: they differ only at 0, where c · 0 = 0. -/
theorem leaky_forms (y c : EReal) :
    Scalar.select (Ideal.cmp .ogt y (Ideal.ofBits .f32 0x00000000#32)) y (c * y)
      = Scalar.select (Ideal.cmp .oge y (Ideal.ofBits .f32 0x00000000#32)) y (c * y) := by
  rw [zero_word, cmp_ogt_zero, cmp_oge_zero, select_ofBool, select_ofBool]
  by_cases h : 0 < y
  · rw [if_pos h, if_pos h.le]
  · rw [if_neg h]
    by_cases h0 : 0 ≤ y
    · have e : y = 0 := le_antisymm (not_lt.mp h) h0
      rw [if_pos h0, e, mul_zero]
    · rw [if_neg h0]

/-- elu written exp y − 1 is elu written 1 · (e^{y off the positive side} − 1). -/
theorem elu_forms (y : EReal) :
    Scalar.select (Ideal.cmp .ogt y (Ideal.ofBits .f32 0x00000000#32)) y (Ideal.exp y - Ideal.ofBits .f32 0x3F800000#32)
      = Scalar.select (Ideal.cmp .ogt y (Ideal.ofBits .f32 0x00000000#32)) y
          (Ideal.ofBits .f32 0x3F800000#32
            * (Ideal.exp (Scalar.select (Ideal.cmp .ogt y (Ideal.ofBits .f32 0x00000000#32)) (Ideal.ofBits .f32 0x00000000#32) y) - 1)) := by
  rw [zero_word, one_word, cmp_ogt_zero, select_ofBool, select_ofBool, select_ofBool]
  by_cases h : 0 < y
  · rw [if_pos h, if_pos h]
  · rw [if_neg h, if_neg h, if_neg h, one_mul]

end Cert.LibActivations

end
-- ==== Proof.RefLaws.lean ====
/-
  Each stage of the reference program is the network's function of that stage's inputs.

  Read at one entry (p, c): the transposed weights at (q, c) are the weights at (c, q), so the host product is the
  sum over q of x (p, q) · W (c, q); the bias broadcast first to one row and then to every row is b c; a slice of a
  384-wide row at offset 128 · j reads the j-th third; the program's 1 / (1 + e^(−x)) is the logistic function; its elu,
  which first clears the positive side and multiplies by one, is the plain elu; the row maximum taken from −∞ (twice)
  is the fold of max from −∞, and the row sum from 0 is the plain sum.
-/
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws
import proofs.«141311_j58110907515590_1_alg».proof.Proof.Spec
import proofs.«141311_j58110907515590_1_alg».proof.Proof.LibPlainDot
import proofs.«141311_j58110907515590_1_alg».proof.Proof.LibRowReduce
import proofs.«141311_j58110907515590_1_alg».proof.Proof.LibActivations
import proofs.«141311_j58110907515590_1_alg».proof.Proof.RefTerms

noncomputable section

open scoped BigOperators

namespace Cert.ReferenceIdeal.RefValue

open Cert.ReferenceIdeal Idealize.ShloMosaic Idealize.ShloMosaic.ValueIdx

/-! ## A dense layer at one entry -/

section Dense
variable {n k d : ℕ}

/-- A bias broadcast to one row and then to every row reads, at (p, c), the bias at c. -/
theorem bias_apply
    (hb1 : (⟨1, ![d]⟩ : Shape).BroadcastsInDim ⟨2, ![1, d]⟩ (![1] : Fin 1 → Fin (⟨2, ![1, d]⟩ : Shape).rank))
    (hb2 : (⟨2, ![1, d]⟩ : Shape).BroadcastsInDim ⟨2, ![n, d]⟩ (![0, 1] : Fin 2 → Fin (⟨2, ![n, d]⟩ : Shape).rank))
    (b : (⟨1, ![d]⟩ : Shape).Idx → EReal) (p : Fin n) (c : Fin d) :
    broadcastInDim ⟨2, ![n, d]⟩ ![0, 1] hb2 (broadcastInDim ⟨2, ![1, d]⟩ ![1] hb1 b) (ix2 p c) = b (ix1 c) := by
  refine (broadcastInDim_apply ![0, 1] hb2 _ (ix2 p c) (ix2 (0 : Fin 1) c) fun a => ?_).trans ?_
  · match a with
    | ⟨0, _⟩ =>
      show (0 : ℕ) = if (1 : ℕ) = 1 then 0 else p.val
      rw [if_pos rfl]
    | ⟨1, _⟩ =>
      show c.val = if d = 1 then 0 else c.val
      split
      · have := c.isLt; omega
      · rfl
  · refine broadcastInDim_apply ![1] hb1 b (ix2 (0 : Fin 1) c) (ix1 c) fun a => ?_
    match a with
    | ⟨0, _⟩ =>
      show c.val = if d = 1 then 0 else c.val
      split
      · have := c.isLt; omega
      · rfl

/-- x · Wᵀ + b at (p, c): the row of x against row c of W, plus b c. -/
theorem dense_apply (D : DotDims ⟨2, ![n, k]⟩ ⟨2, ![k, d]⟩ ⟨2, ![n, d]⟩) (hD : D = DotDims.plain n k d)
    (hT : (⟨2, ![d, k]⟩ : Shape).Transposes [1, 0] ⟨2, ![k, d]⟩)
    (hb1 : (⟨1, ![d]⟩ : Shape).BroadcastsInDim ⟨2, ![1, d]⟩ (![1] : Fin 1 → Fin (⟨2, ![1, d]⟩ : Shape).rank))
    (hb2 : (⟨2, ![1, d]⟩ : Shape).BroadcastsInDim ⟨2, ![n, d]⟩ (![0, 1] : Fin 2 → Fin (⟨2, ![n, d]⟩ : Shape).rank))
    (X : FVec Ideal ⟨2, ![n, k]⟩ .f32) (W : FVec Ideal ⟨2, ![d, k]⟩ .f32) (b : FVec Ideal ⟨1, ![d]⟩ .f32)
    (p : Fin n) (c : Fin d) :
    addf (Host.dotGeneral D none X (transpose ⟨2, ![k, d]⟩ [1, 0] W hT))
        (broadcastInDim ⟨2, ![n, d]⟩ ![0, 1] hb2 (broadcastInDim ⟨2, ![1, d]⟩ ![1] hb1 b)) (ix2 p c)
      = Cert.GGNN.affine (Cert.GGNN.row X p) (Cert.GGNN.mat W) (Cert.GGNN.vec b) c := by
  rw [addf_apply, bias_apply hb1 hb2 b p c]
  refine congrArg (· + b (ix1 c)) ?_
  refine (Cert.LibPlainDot.dotGeneral_apply D hD none .single X _ p c).trans ?_
  refine Finset.sum_congr rfl fun q _ => ?_
  refine congrArg (X (ix2 p q) * ·) ?_
  exact Cert.LibRowReduce.transpose_swap_apply W hT q c

end Dense

variable [Facts]
open Facts₀ Facts

theorem stLinE_apply (X : FVec Ideal S100000x128 .f32) (W : FVec Ideal S128x128 .f32) (b : FVec Ideal S128 .f32)
    (p : Fin 100000) (c : Fin 128) :
    stLinE X W b (ix2 p c) = Cert.GGNN.affine (Cert.GGNN.row X p) (Cert.GGNN.mat W) (Cert.GGNN.vec b) c :=
  dense_apply dot_S100000x128_S128x128_S100000x128_1_0_0_1_n_n rfl transposes_S128x128_S128x128_1_0
    bcast_S128_S1x128_1 bcast_S1x128_S100000x128_0_1 X W b p c

theorem stAffine384_apply (X : FVec Ideal S100000x128 .f32) (W : FVec Ideal S384x128 .f32) (b : FVec Ideal S384 .f32)
    (p : Fin 100000) (j : Fin 384) :
    stAffine384 X W b (ix2 p j) = Cert.GGNN.affine (Cert.GGNN.row X p) (Cert.GGNN.mat W) (Cert.GGNN.vec b) j :=
  dense_apply dot_S100000x128_S128x384_S100000x384_1_0_0_1_n_n rfl transposes_S384x128_S128x384_1_0
    bcast_S384_S1x384_1 bcast_S1x384_S100000x384_0_1 X W b p j

theorem stAffine40_apply (X : FVec Ideal S100000x128 .f32) (W : FVec Ideal S40x128 .f32) (b : FVec Ideal S40 .f32)
    (p : Fin 100000) (j : Fin 40) :
    stAffine40 X W b (ix2 p j) = Cert.GGNN.affine (Cert.GGNN.row X p) (Cert.GGNN.mat W) (Cert.GGNN.vec b) j :=
  dense_apply dot_S100000x128_S128x40_S100000x40_1_0_0_1_n_n rfl transposes_S40x128_S128x40_1_0
    bcast_S40_S1x40_1 bcast_S1x40_S100000x40_0_1 X W b p j

/-- Stage S0 (and S1, S4): a dense layer of width 128. -/
theorem stLinE_eq (X : FVec Ideal S100000x128 .f32) (W : FVec Ideal S128x128 .f32) (b : FVec Ideal S128 .f32) :
    stLinE X W b = Cert.GGNN.linA X W (Cert.GGNN.vec b) := by
  funext i
  obtain ⟨p, c, rfl⟩ : ∃ (p : Fin 100000) (c : Fin 128), i = ix2 p c := ⟨i 0, i 1, eq_ix2 i⟩
  exact stLinE_apply X W b p c

/-! ## The gated cell at one entry -/

/-- An array filled with the float word b reads that word everywhere. -/
theorem stFill_apply (b : BitVec 32) (i : S100000x128.Idx) : stFill b i = Ideal.ofBits .f32 b := rfl

/-- The program's 1 / (1 + e^(−(x + y))) is the logistic function of x + y. -/
theorem stSig_apply (x y : FVec Ideal S100000x128 .f32) (i : S100000x128.Idx) :
    stSig x y i = Ideal.logistic (x i + y i) := by
  show Ideal.div (Ideal.ofBits .f32 0x3F800000#32) (Ideal.ofBits .f32 0x3F800000#32 + Ideal.exp (-(x i + y i))) = _
  rw [Cert.LibActivations.one_word]
  rfl

/-- The three slices of a 384-wide row read its three thirds. -/
theorem stSl0_apply (g : FVec Ideal S100000x384 .f32) (p : Fin 100000) (c : Fin 128) :
    stSl0 g (ix2 p c) = g (ix2 p (Cert.GGNN.third 0 c)) :=
  slice2_axis1_apply 0 g slices_S100000x384_S100000x128_0_0 p c (Cert.GGNN.third 0 c)
    (by show 128 * 0 + c.val = 0 + c.val; omega)
theorem stSl1_apply (g : FVec Ideal S100000x384 .f32) (p : Fin 100000) (c : Fin 128) :
    stSl1 g (ix2 p c) = g (ix2 p (Cert.GGNN.third 1 c)) :=
  slice2_axis1_apply 128 g slices_S100000x384_S100000x128_0_128 p c (Cert.GGNN.third 1 c)
    (by show 128 * 1 + c.val = 128 + c.val; omega)
theorem stSl2_apply (g : FVec Ideal S100000x384 .f32) (p : Fin 100000) (c : Fin 128) :
    stSl2 g (ix2 p c) = g (ix2 p (Cert.GGNN.third 2 c)) :=
  slice2_axis1_apply 256 g slices_S100000x384_S100000x128_0_256 p c (Cert.GGNN.third 2 c)
    (by show 128 * 2 + c.val = 256 + c.val; omega)

/-- The gates at (p, c), over any two 384-wide pre-activations and any state. -/
theorem stCell_apply (gi gh : FVec Ideal S100000x384 .f32) (H : FVec Ideal S100000x128 .f32) (p : Fin 100000) (c : Fin 128) :
    stCell gi gh H (ix2 p c)
      = Cert.GGNN.cell (fun j => gi (ix2 p j)) (fun j => gh (ix2 p j)) (fun q => H (ix2 p q)) c := by
  show (stFill 0x3F800000#32 (ix2 p c) - stSig (stSl1 gi) (stSl1 gh) (ix2 p c))
        * Ideal.tanh (stSl2 gi (ix2 p c) + stSig (stSl0 gi) (stSl0 gh) (ix2 p c) * stSl2 gh (ix2 p c))
      + stSig (stSl1 gi) (stSl1 gh) (ix2 p c) * H (ix2 p c) = _
  rw [stSig_apply, stSig_apply, stFill_apply, stSl0_apply, stSl0_apply, stSl1_apply, stSl1_apply, stSl2_apply, stSl2_apply]
  rfl

/-- The program's elu is elu. -/
theorem stElu_apply (Y : FVec Ideal S100000x128 .f32) (i : S100000x128.Idx) : stElu Y i = Cert.GGNN.elu (Y i) :=
  (Cert.LibActivations.elu_forms (Y i)).symm

/-- Stage S3 (and S6): a gated layer. -/
theorem stGru_eq (A H : FVec Ideal S100000x128 .f32) (Wih : FVec Ideal S384x128 .f32) (bih : FVec Ideal S384 .f32)
    (Whh : FVec Ideal S384x128 .f32) (bhh : FVec Ideal S384 .f32) :
    stGru A H Wih bih Whh bhh = Cert.GGNN.gruA A H Wih (Cert.GGNN.vec bih) Whh (Cert.GGNN.vec bhh) := by
  funext i
  obtain ⟨p, c, rfl⟩ : ∃ (p : Fin 100000) (c : Fin 128), i = ix2 p c := ⟨i 0, i 1, eq_ix2 i⟩
  show stElu (stCell (stAffine384 A Wih bih) (stAffine384 H Whh bhh) H) (ix2 p c) = _
  rw [stElu_apply, stCell_apply]
  have e1 : (fun j => stAffine384 A Wih bih (ix2 p j))
      = Cert.GGNN.affine (Cert.GGNN.row A p) (Cert.GGNN.mat Wih) (Cert.GGNN.vec bih) :=
    funext fun j => stAffine384_apply A Wih bih p j
  have e2 : (fun j => stAffine384 H Whh bhh (ix2 p j))
      = Cert.GGNN.affine (Cert.GGNN.row H p) (Cert.GGNN.mat Whh) (Cert.GGNN.vec bhh) :=
    funext fun j => stAffine384_apply H Whh bhh p j
  rw [e1, e2]
  rfl

/-! ## The read-out at one entry -/

section Keepdims
variable {a b : ℕ}

/-- A length-a vector broadcast to a column reads, at (p, u), the vector at p. -/
theorem col_apply (h : (⟨1, ![a]⟩ : Shape).BroadcastsInDim ⟨2, ![a, 1]⟩ (![0] : Fin 1 → Fin (⟨2, ![a, 1]⟩ : Shape).rank))
    (v : (⟨1, ![a]⟩ : Shape).Idx → EReal) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column broadcast along its rows reads, at (p, c), the column at (p, 0). -/
theorem rows_apply (h : (⟨2, ![a, 1]⟩ : Shape).BroadcastsInDim ⟨2, ![a, b]⟩ (![0, 1] : Fin 2 → Fin (⟨2, ![a, b]⟩ : Shape).rank))
    (w : (⟨2, ![a, 1]⟩ : Shape).Idx → EReal) (p : Fin a) (c : Fin b) :
    broadcastInDim ⟨2, ![a, b]⟩ ![0, 1] h w (ix2 p c) = w (ix2 p (0 : Fin 1)) := by
  refine broadcastInDim_apply ![0, 1] h w (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Keepdims

theorem reduces_S100000x40_S100000 : S100000x40.Reduces [1] S100000 := by decide

theorem negInf_fill_apply (i : S100000.Idx) :
    broadcastInDim S100000 ![] bcast_S_S100000 (constant (F := Ideal) S_ .f32 0xFF800000#32) i
      = Ideal.ofBits .f32 0xFF800000#32 := rfl

theorem negInf_first : constant (F := Ideal) S_ .f32 0xFF800000#32 (Shape.Idx.first h_S_) = Cert.GGNN.wNegInf := rfl

theorem zero_first : constant (F := Ideal) S_ .f32 0x00000000#32 (Shape.Idx.first h_S_) = Ideal.ofBits .f32 0x00000000#32 := rfl

/-- The program's row maximum is the fold of max from −∞ over the row. -/
theorem stRowMax_apply (L : FVec Ideal S100000x40 .f32) (p : Fin 100000) :
    stRowMax L (ix1 p) = (Finset.univ : Finset (Fin 40)).fold max Cert.GGNN.wNegInf (fun j => L (ix2 p j)) := by
  unfold stRowMax
  refine (maximumf_apply _ _ (ix1 p)).trans ?_
  rw [negInf_fill_apply, Cert.LibRowReduce.max_negInf_left]
  have hh := Cert.LibRowReduce.hostRowMax_apply L (constant (F := Ideal) S_ .f32 0xFF800000#32)
    reducesTo_S100000x40_S100000_d1 reduces_S100000x40_S100000 h_S_ p
  rw [negInf_first] at hh
  exact hh

/-- A host logarithm and a host exponential at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The shifted logits at (p, c). -/
theorem stShift_apply (L : FVec Ideal S100000x40 .f32) (p : Fin 100000) (c : Fin 40) :
    stShift L (ix2 p c)
      = L (ix2 p c) - (Finset.univ : Finset (Fin 40)).fold max Cert.GGNN.wNegInf (fun j => L (ix2 p j)) := by
  unfold stShift
  refine (subf_apply _ _ (ix2 p c)).trans ?_
  refine congrArg (L (ix2 p c) - ·) ?_
  refine (rows_apply bcast_S100000x1_S100000x40_0_1 _ p c).trans ?_
  refine (col_apply bcast_S100000_S100000x1_0 _ p 0).trans ?_
  exact stRowMax_apply L p

/-- The logarithm of the row's sum of exponentials, put back beside every entry of the row. -/
theorem stLogSum_apply (L : FVec Ideal S100000x40 .f32) (p : Fin 100000) (c : Fin 40) :
    broadcastInDim S100000x40 ![0, 1] bcast_S100000x1_S100000x40_0_1
        (Host.log (broadcastInDim S100000x1 ![0] bcast_S100000_S100000x1_0
          (Host.reduceAdd (Host.exp (stShift L)) (constant (F := Ideal) S_ .f32 0x00000000#32)
            reducesTo_S100000x40_S100000_d1 h_S_))) (ix2 p c)
      = Ideal.log (∑ k : Fin 40, Ideal.exp
          (L (ix2 p k) - (Finset.univ : Finset (Fin 40)).fold max Cert.GGNN.wNegInf (fun j => L (ix2 p j)))) := by
  refine (rows_apply bcast_S100000x1_S100000x40_0_1 _ p c).trans ?_
  refine (hostLog_apply _ _).trans ?_
  refine congrArg Ideal.log ?_
  refine (col_apply bcast_S100000_S100000x1_0 _ p 0).trans ?_
  refine (Cert.LibRowReduce.hostRowSum_apply (Host.exp (stShift L)) (constant (F := Ideal) S_ .f32 0x00000000#32)
    reducesTo_S100000x40_S100000_d1 reduces_S100000x40_S100000 h_S_ p).trans ?_
  rw [zero_first, Cert.LibActivations.zero_word, zero_add]
  refine Finset.sum_congr rfl fun k _ => ?_
  refine (hostExp_apply _ _).trans ?_
  exact congrArg Ideal.exp (stShift_apply L p k)

/-- The program's log-softmax at (p, c), over any logits. -/
theorem stLogSoftmax_apply (L : FVec Ideal S100000x40 .f32) (p : Fin 100000) (c : Fin 40) :
    stLogSoftmax L (ix2 p c) = Cert.GGNN.logSoftmaxRow (fun j => L (ix2 p j)) c := by
  unfold stLogSoftmax
  refine (subf_apply _ _ (ix2 p c)).trans ?_
  rw [stLogSum_apply, stShift_apply]
  rfl

/-- Stage S7: the read-out. -/
theorem stRead_eq (X : FVec Ideal S100000x128 .f32) (W : FVec Ideal S40x128 .f32) (b : FVec Ideal S40 .f32) :
    stRead X W b = Cert.GGNN.readA X W (Cert.GGNN.vec b) := by
  funext i
  obtain ⟨p, c, rfl⟩ : ∃ (p : Fin 100000) (c : Fin 40), i = ix2 p c := ⟨i 0, i 1, eq_ix2 i⟩
  unfold stRead
  rw [stLogSoftmax_apply]
  have e : (fun j => stAffine40 X W b (ix2 p j))
      = Cert.GGNN.affine (Cert.GGNN.row X p) (Cert.GGNN.mat W) (Cert.GGNN.vec b) :=
    funext fun j => stAffine40_apply X W b p j
  rw [e]
  rfl

end Cert.ReferenceIdeal.RefValue

end
-- ==== Proof.lean ====
/-
  The five claims of this certificate.

  Both programs compute one network on a graph of 100000 nodes: an embedding layer, two gated layers — an edge layer, the
  sum of the edge layer's rows over each node's incoming edges, a gated recurrent cell and elu — and a read-out with a
  log-softmax. The kernel program computes the dense layers, the cells and the read-out in six regions of fifty tiles of
  2000 rows each, with the edge sums done by host operations between the regions; the reference computes everything by
  whole-array host operations. Over the extended reals each layer is a function of one row of its inputs, so the tiles
  are the same rows of the whole arrays (Spec.lean; the regions' values KLin*, KGru*, KRead5; the reference's stages
  RefLaws), the two spellings of the logistic function and of elu are one function each, and the edge sums are the same
  host operations on both sides and are carried as one map. No law of arithmetic that fails at an infinity is used, so
  the precondition is never opened.
-/
import proofs.«141311_j58110907515590_1_alg».proof.Defs
import proofs.«141311_j58110907515590_1_alg».proof.Proof.Gen.Kernel
import proofs.«141311_j58110907515590_1_alg».proof.Proof.Gen.Kernel.Frame
import proofs.«141311_j58110907515590_1_alg».proof.Proof.Gen.KernelIdeal
import proofs.«141311_j58110907515590_1_alg».proof.Proof.Gen.KernelIdeal.Frame
import proofs.«141311_j58110907515590_1_alg».proof.Proof.Gen.ReferenceIdeal
import proofs.«141311_j58110907515590_1_alg».proof.Proof.Gen.Pre_finite_inputs
import proofs.«141311_j58110907515590_1_alg».proof.Proof.KRun
import proofs.«141311_j58110907515590_1_alg».proof.Proof.KChain
import proofs.«141311_j58110907515590_1_alg».proof.Proof.KLin0
import proofs.«141311_j58110907515590_1_alg».proof.Proof.KLin1
import proofs.«141311_j58110907515590_1_alg».proof.Proof.KLin3
import proofs.«141311_j58110907515590_1_alg».proof.Proof.KGru2
import proofs.«141311_j58110907515590_1_alg».proof.Proof.KGru4
import proofs.«141311_j58110907515590_1_alg».proof.Proof.KRead5
import proofs.«141311_j58110907515590_1_alg».proof.Proof.RefRead
import proofs.«141311_j58110907515590_1_alg».proof.Proof.RefLaws
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-! ## The kernel program's run, with its result named -/

open Cert.KernelIdeal.RegionValue in
/-- Every weakly fair execution of the kernel program ends with the result buffer at the read-out of the node states
    after the two gated layers, and the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v33) = Cert.GGNN.readA (x2 m c) (m ((c.tc : Thread Cert.KernelIdeal.nD Cert.KernelIdeal.τ).loc Cert.KernelIdeal.main_arg6)) (Cert.GGNN.vec (m ((c.tc : Thread Cert.KernelIdeal.nD Cert.KernelIdeal.τ).loc Cert.KernelIdeal.main_arg7)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)) :=
  (θ_run _ _ _).mono (fun r h c =>
    ⟨(h c Cert.KernelIdeal.main_v33 (by decide)).trans (W12_v33 m ρ final0 final1 final2 final3 final4 final5 c),
     (h c Cert.KernelIdeal.main_arg0 (by decide)).trans (Cert.KernelIdeal.Gen.W12_main_arg0 m ρ c),
     (h c Cert.KernelIdeal.main_arg1 (by decide)).trans (Cert.KernelIdeal.Gen.W12_main_arg1 m ρ c),
     (h c Cert.KernelIdeal.main_arg2 (by decide)).trans (Cert.KernelIdeal.Gen.W12_main_arg2 m ρ c),
     (h c Cert.KernelIdeal.main_arg3 (by decide)).trans (Cert.KernelIdeal.Gen.W12_main_arg3 m ρ c),
     (h c Cert.KernelIdeal.main_arg4 (by decide)).trans (Cert.KernelIdeal.Gen.W12_main_arg4 m ρ c),
     (h c Cert.KernelIdeal.main_arg5 (by decide)).trans (Cert.KernelIdeal.Gen.W12_main_arg5 m ρ c),
     (h c Cert.KernelIdeal.main_arg6 (by decide)).trans (Cert.KernelIdeal.Gen.W12_main_arg6 m ρ c),
     (h c Cert.KernelIdeal.main_arg7 (by decide)).trans (Cert.KernelIdeal.Gen.W12_main_arg7 m ρ c),
     (h c Cert.KernelIdeal.main_arg8 (by decide)).trans (Cert.KernelIdeal.Gen.W12_main_arg8 m ρ c),
     (h c Cert.KernelIdeal.main_arg9 (by decide)).trans (Cert.KernelIdeal.Gen.W12_main_arg9 m ρ c),
     (h c Cert.KernelIdeal.main_arg10 (by decide)).trans (Cert.KernelIdeal.Gen.W12_main_arg10 m ρ c),
     (h c Cert.KernelIdeal.main_arg11 (by decide)).trans (Cert.KernelIdeal.Gen.W12_main_arg11 m ρ c),
     (h c Cert.KernelIdeal.main_arg12 (by decide)).trans (Cert.KernelIdeal.Gen.W12_main_arg12 m ρ c),
     (h c Cert.KernelIdeal.main_arg13 (by decide)).trans (Cert.KernelIdeal.Gen.W12_main_arg13 m ρ c),
     (h c Cert.KernelIdeal.main_arg14 (by decide)).trans (Cert.KernelIdeal.Gen.W12_main_arg14 m ρ c),
     (h c Cert.KernelIdeal.main_arg15 (by decide)).trans (Cert.KernelIdeal.Gen.W12_main_arg15 m ρ c),
     (h c Cert.KernelIdeal.main_arg16 (by decide)).trans (Cert.KernelIdeal.Gen.W12_main_arg16 m ρ c),
     (h c Cert.KernelIdeal.main_arg17 (by decide)).trans (Cert.KernelIdeal.Gen.W12_main_arg17 m ρ c),
     (h c Cert.KernelIdeal.main_arg18 (by decide)).trans (Cert.KernelIdeal.Gen.W12_main_arg18 m ρ c),
     (h c Cert.KernelIdeal.main_arg19 (by decide)).trans (Cert.KernelIdeal.Gen.W12_main_arg19 m ρ c)⟩)
    (run_final m ρ)

/-! ## The two programs' results -/

/-- The message pass is spelt by the same host operations in both programs. -/
theorem msg_eq (src dst : (⟨Cert.KernelIdeal.S1600000, .i32⟩ : BufTy).Contents (Elt Ideal)) (M : FVec Ideal Cert.KernelIdeal.S100000x128 .f32) :
    Cert.ReferenceIdeal.RefValue.stMsg src dst M = Cert.KernelIdeal.RegionValue.msgK src dst M := rfl

open Cert.KernelIdeal.RegionValue Cert.ReferenceIdeal.RefValue in
theorem algebraic : Cert.algebraic_KernelIdeal_ReferenceIdeal := by
  intro m ρ m' ρ' _ hagree
  refine ⟨fun c => Cert.GGNN.readA (x2 m c) (m ((c.tc : Thread Cert.KernelIdeal.nD Cert.KernelIdeal.τ).loc Cert.KernelIdeal.main_arg6)) (Cert.GGNN.vec (m ((c.tc : Thread Cert.KernelIdeal.nD Cert.KernelIdeal.τ).loc Cert.KernelIdeal.main_arg7))), kernel_run m ρ, ?_⟩
  refine (θ_run Cert.ReferenceIdeal.defs _ _).mono (fun _ h c => ⟨(h c).1.trans ?_, (h c).2⟩)
    (Cert.ReferenceIdeal.RefValue.run m' ρ')
  unfold Cert.ReferenceIdeal.RefValue.refOut
  obtain ⟨h0, h1, h2, h3, h4, h5, h6, h7, h8, h9, h10, h11, h12, h13, h14, h15, h16, h17, h18, h19⟩ := hagree c
  rw [h0, h1, h2, h4, h5, h6, h7, h8, h9, h10, h11, h12, h13, h14, h15, h16, h17, h18, h19]
  simp only [stRead_eq, stGru_eq, stLinE_eq, msg_eq]
  unfold x2 x1 e1 e0 x0
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
